-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1048576 : Shape := ⟨1, ![1048576]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S2x1048576 : Shape := ⟨2, ![2, 1048576]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg6
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg7 main_v33

def fn {F : FTy → Type} [FloatOps F] (main_arg0 : FVec F S65536x128 .f32) (main_arg1 : FVec F S1048576 .f32) (main_arg2 : FVec F S128x64 .f32) (main_arg3 : FVec F S64 .f32) (main_arg4 : FVec F S64x64 .f32) (main_arg5 : FVec F S64 .f32) (main_arg6 : FVec F S64x40 .f32) (main_arg7 : FVec F S40 .f32) (main_arg8 : IVec S2x1048576 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S65536x128 : Shape := ⟨2, ![65536, 128]⟩
abbrev S1048576 : Shape := ⟨1, ![1048576]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S2x1048576 : Shape := ⟨2, ![2, 1048576]⟩
abbrev S1x1048576 : Shape := ⟨2, ![1, 1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S65536x64 : Shape := ⟨2, ![65536, 64]⟩
abbrev S4096x128 : Shape := ⟨2, ![4096, 128]⟩
abbrev S4096x64 : Shape := ⟨2, ![4096, 64]⟩
abbrev S1114112x64 : Shape := ⟨2, ![1114112, 64]⟩
abbrev S1x64 : Shape := ⟨2, ![1, 64]⟩
abbrev S65536x40 : Shape := ⟨2, ![65536, 40]⟩
abbrev S4096x40 : Shape := ⟨2, ![4096, 40]⟩
abbrev S1x40 : Shape := ⟨2, ![1, 40]⟩
abbrev S4096 : Shape := ⟨1, ![4096]⟩
abbrev S4096x1 : Shape := ⟨2, ![4096, 1]⟩

abbrev nBuf : Space → Nat
  | .hbm => 95
  | .vmem => 26
  | .smem => 0
  | _ => 0

abbrev bufTy : (tb : Table) → Fin (tcTables nBuf tb) → BufTy
  | .hbm, ⟨0, _⟩ => ⟨S65536x128, .f32⟩
  | .hbm, ⟨1, _⟩ => ⟨S1048576, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S2x1048576, .i32⟩
  | .hbm, ⟨9, _⟩ => ⟨S1x1048576, .i32⟩
  | .hbm, ⟨10, _⟩ => ⟨S1048576, .i32⟩
  | .hbm, ⟨11, _⟩ => ⟨S1x1048576, .i32⟩
  | .hbm, ⟨12, _⟩ => ⟨S1048576, .i32⟩
  | .hbm, ⟨13, _⟩ => ⟨S65536, .i32⟩
  | .hbm, ⟨14, _⟩ => ⟨S1114112, .i32⟩
  | .hbm, ⟨15, _⟩ => ⟨S1114112, .i32⟩
  | .hbm, ⟨16, _⟩ => ⟨S_, .f32⟩
  | .hbm, ⟨17, _⟩ => ⟨S65536, .f32⟩
  | .hbm, ⟨18, _⟩ => ⟨S1114112, .f32⟩
  | .hbm, ⟨19, _⟩ => ⟨S_, .f32⟩
  | .hbm, ⟨20, _⟩ => ⟨S65536, .f32⟩
  | .hbm, ⟨21, _⟩ => ⟨S1114112x1, .i32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .i1⟩
  | .hbm, ⟨26, _⟩ => ⟨S_, .f32⟩
  | .hbm, ⟨27, _⟩ => ⟨S65536, .f32⟩
  | .hbm, ⟨28, _⟩ => ⟨S65536, .i1⟩
  | .hbm, ⟨29, _⟩ => ⟨S_, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536, .f32⟩
  | .hbm, ⟨34, _⟩ => ⟨S_, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S_, .i32⟩
  | .hbm, ⟨39, _⟩ => ⟨S1114112, .i32⟩
  | .hbm, ⟨40, _⟩ => ⟨S1114112, .i1⟩
  | .hbm, ⟨41, _⟩ => ⟨S_, .i32⟩
  | .hbm, ⟨42, _⟩ => ⟨S1114112, .i32⟩
  | .hbm, ⟨43, _⟩ => ⟨S1114112, .i32⟩
  | .hbm, ⟨44, _⟩ => ⟨S1114112, .i32⟩
  | .hbm, ⟨45, _⟩ => ⟨S1114112x1, .i32⟩
  | .hbm, ⟨46, _⟩ => ⟨S1114112, .f32⟩
  | .hbm, ⟨47, _⟩ => ⟨S1114112, .f32⟩
  | .hbm, ⟨48, _⟩ => ⟨S_, .i32⟩
  | .hbm, ⟨49, _⟩ => ⟨S1114112, .i32⟩
  | .hbm, ⟨50, _⟩ => ⟨S1114112, .i1⟩
  | .hbm, ⟨51, _⟩ => ⟨S_, .i32⟩
  | .hbm, ⟨52, _⟩ => ⟨S1114112, .i32⟩
  | .hbm, ⟨53, _⟩ => ⟨S1114112, .i32⟩
  | .hbm, ⟨54, _⟩ => ⟨S1114112, .i32⟩
  | .hbm, ⟨55, _⟩ => ⟨S1114112x1, .i32⟩
  | .hbm, ⟨56, _⟩ => ⟨S1114112, .f32⟩
  | .hbm, ⟨57, _⟩ => ⟨S1114112, .f32⟩
  | .hbm, ⟨58, _⟩ => ⟨S65536x64, .f32⟩
  | .hbm, ⟨59, _⟩ => ⟨S_, .i32⟩
  | .hbm, ⟨60, _⟩ => ⟨S1114112, .i32⟩
  | .hbm, ⟨61, _⟩ => ⟨S1114112, .i1⟩
  | .hbm, ⟨62, _⟩ => ⟨S_, .i32⟩
  | .hbm, ⟨63, _⟩ => ⟨S1114112, .i32⟩
  | .hbm, ⟨64, _⟩ => ⟨S1114112, .i32⟩
  | .hbm, ⟨65, _⟩ => ⟨S1114112, .i32⟩
  | .hbm, ⟨66, _⟩ => ⟨S1114112x1, .i32⟩
  | .hbm, ⟨67, _⟩ => ⟨S1114112x64, .f32⟩
  | .hbm, ⟨68, _⟩ => ⟨S1114112x1, .f32⟩
  | .hbm, ⟨69, _⟩ => ⟨S1114112x64, .f32⟩
  | .hbm, ⟨70, _⟩ => ⟨S1114112x64, .f32⟩
  | .hbm, ⟨71, _⟩ => ⟨S_, .f32⟩
  | .hbm, ⟨72, _⟩ => ⟨S65536x64, .f32⟩
  | .hbm, ⟨73, _⟩ => ⟨S1114112x1, .i32⟩
  | .hbm, ⟨74, _⟩ => ⟨S65536x64, .f32⟩
  | .hbm, ⟨75, _⟩ => ⟨S65536x64, .f32⟩
  | .hbm, ⟨76, _⟩ => ⟨S65536x64, .f32⟩
  | .hbm, ⟨77, _⟩ => ⟨S_, .i32⟩
  | .hbm, ⟨78, _⟩ => ⟨S1114112, .i32⟩
  | .hbm, ⟨79, _⟩ => ⟨S1114112, .i1⟩
  | .hbm, ⟨80, _⟩ => ⟨S_, .i32⟩
  | .hbm, ⟨81, _⟩ => ⟨S1114112, .i32⟩
  | .hbm, ⟨82, _⟩ => ⟨S1114112, .i32⟩
  | .hbm, ⟨83, _⟩ => ⟨S1114112, .i32⟩
  | .hbm, ⟨84, _⟩ => ⟨S1114112x1, .i32⟩
  | .hbm, ⟨85, _⟩ => ⟨S1114112x64, .f32⟩
  | .hbm, ⟨86, _⟩ => ⟨S1114112x1, .f32⟩
  | .hbm, ⟨87, _⟩ => ⟨S1114112x64, .f32⟩
  | .hbm, ⟨88, _⟩ => ⟨S1114112x64, .f32⟩
  | .hbm, ⟨89, _⟩ => ⟨S_, .f32⟩
  | .hbm, ⟨90, _⟩ => ⟨S65536x64, .f32⟩
  | .hbm, ⟨91, _⟩ => ⟨S1114112x1, .i32⟩
  | .hbm, ⟨92, _⟩ => ⟨S65536x64, .f32⟩
  | .hbm, ⟨93, _⟩ => ⟨S65536x64, .f32⟩
  | .hbm, ⟨94, _⟩ => ⟨S65536x40, .f32⟩
  | .local _ .vmem, ⟨0, _⟩ => ⟨S4096x128, .f32⟩
  | .local _ .vmem, ⟨1, _⟩ => ⟨S4096x128, .f32⟩
  | .local _ .vmem, ⟨2, _⟩ => ⟨S128x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S64, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S64x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S4096x64, .f32⟩
  | .local _ .vmem, ⟨17, _⟩ => ⟨S64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S64x40, .f32⟩
  | .local _ .vmem, ⟨23, _⟩ => ⟨S40, .f32⟩
  | .local _ .vmem, ⟨24, _⟩ => ⟨S4096x40, .f32⟩
  | .local _ .vmem, ⟨25, _⟩ => ⟨S4096x40, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  shapeCasts_S4096x64_S4096x64 : S4096x64.ShapeCasts S4096x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S4096x40 : S1x40.Broadcasts S4096x40
  reduces_S4096x40_S4096 : S4096x40.Reduces [1] S4096
  shapeCasts_S4096_S4096x1 : S4096.ShapeCasts S4096x1
  broadcasts_S4096x1_S4096x40 : S4096x1.Broadcasts S4096x40
  inb_S4096x40_S4096x40_0_0 : ∀ a, (![0, 0] : Fin 2 → Nat) a + S4096x40.size a ≤ S4096x40.size a
  h_S4096x40 : 0 < S4096x40.numel
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S4096x128_S128x64_S4096x64_1_0_0_1_n_n_wf : DotDims.WF S4096x128 S128x64 S4096x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S4096x64_S64x64_S4096x64_1_0_0_1_n_n_wf : DotDims.WF S4096x64 S64x64 S4096x64 [1] [0] [0] [1] [] []
  dot_S4096x64_S64x40_S4096x40_1_0_0_1_n_n_wf : DotDims.WF S4096x64 S64x40 S4096x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S65536x64.size a
  hwx1_2 : ∀ i : grid1.Coords, EltTy.bits .f32 = 32 ∨ (Rect.block (s := S65536x64) S4096x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S65536x64.size a
  hwx2_0 : ∀ i : grid2.Coords, EltTy.bits .f32 = 32 ∨ (Rect.block (s := S65536x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S65536x64.size a
  hwx2_2 : ∀ i : grid2.Coords, EltTy.bits .f32 = 32 ∨ (Rect.block (s := S65536x64) S4096x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S65536x64.size a
  hwx3_0 : ∀ i : grid3.Coords, EltTy.bits .f32 = 32 ∨ (Rect.block (s := S65536x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S65536x64.size a
  hwx3_2 : ∀ i : grid3.Coords, EltTy.bits .f32 = 32 ∨ (Rect.block (s := S65536x64) S4096x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S65536x64.size a
  hwx4_0 : ∀ i : grid4.Coords, EltTy.bits .f32 = 32 ∨ (Rect.block (s := S65536x64) S4096x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S40.size a ≤ S40.size a
  hwx4_2 : ∀ i : grid4.Coords, EltTy.bits .f32 = 32 ∨ (Rect.block (s := S40) S40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x40.size a ≤ S65536x40.size a
  hwx4_3 : ∀ i : grid4.Coords, EltTy.bits .f32 = 32 ∨ (Rect.block (s := S65536x40) S4096x40.size (cc4_transform_3 i) (hinb4_3 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x40_S4096x40_1_0_0_1_n_n : DotDims S4096x64 S64x40 S4096x40 where
  lhsContracting := [1]
  rhsContracting := [0]
  lhsNonContracting := [0]
  rhsNonContracting := [1]
  lhsBatch := []
  rhsBatch := []
  wf := dot_S4096x64_S64x40_S4096x40_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4096x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S4096x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S4096x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S65536x128 : Shape := ⟨2, ![65536, 128]⟩
abbrev S1048576 : Shape := ⟨1, ![1048576]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S2x1048576 : Shape := ⟨2, ![2, 1048576]⟩
abbrev S1x1048576 : Shape := ⟨2, ![1, 1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S65536x64 : Shape := ⟨2, ![65536, 64]⟩
abbrev S1114112x64 : Shape := ⟨2, ![1114112, 64]⟩
abbrev S1x64 : Shape := ⟨2, ![1, 64]⟩
abbrev S65536x40 : Shape := ⟨2, ![65536, 40]⟩
abbrev S1x40 : Shape := ⟨2, ![1, 40]⟩
abbrev S65536x1 : Shape := ⟨2, ![65536, 1]⟩

abbrev nBuf : Space → Nat
  | .hbm => 123
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1048576, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S2x1048576, .i32⟩
  | .hbm, ⟨9, _⟩ => ⟨S1x1048576, .i32⟩
  | .hbm, ⟨10, _⟩ => ⟨S1048576, .i32⟩
  | .hbm, ⟨11, _⟩ => ⟨S1x1048576, .i32⟩
  | .hbm, ⟨12, _⟩ => ⟨S1048576, .i32⟩
  | .hbm, ⟨13, _⟩ => ⟨S65536, .i32⟩
  | .hbm, ⟨14, _⟩ => ⟨S1114112, .i32⟩
  | .hbm, ⟨15, _⟩ => ⟨S1114112, .i32⟩
  | .hbm, ⟨16, _⟩ => ⟨S_, .f32⟩
  | .hbm, ⟨17, _⟩ => ⟨S65536, .f32⟩
  | .hbm, ⟨18, _⟩ => ⟨S1114112, .f32⟩
  | .hbm, ⟨19, _⟩ => ⟨S_, .f32⟩
  | .hbm, ⟨20, _⟩ => ⟨S65536, .f32⟩
  | .hbm, ⟨21, _⟩ => ⟨S1114112x1, .i32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .i1⟩
  | .hbm, ⟨26, _⟩ => ⟨S_, .f32⟩
  | .hbm, ⟨27, _⟩ => ⟨S65536, .f32⟩
  | .hbm, ⟨28, _⟩ => ⟨S65536, .i1⟩
  | .hbm, ⟨29, _⟩ => ⟨S_, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536, .f32⟩
  | .hbm, ⟨34, _⟩ => ⟨S_, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S_, .i32⟩
  | .hbm, ⟨39, _⟩ => ⟨S1114112, .i32⟩
  | .hbm, ⟨40, _⟩ => ⟨S1114112, .i1⟩
  | .hbm, ⟨41, _⟩ => ⟨S_, .i32⟩
  | .hbm, ⟨42, _⟩ => ⟨S1114112, .i32⟩
  | .hbm, ⟨43, _⟩ => ⟨S1114112, .i32⟩
  | .hbm, ⟨44, _⟩ => ⟨S1114112, .i32⟩
  | .hbm, ⟨45, _⟩ => ⟨S1114112x1, .i32⟩
  | .hbm, ⟨46, _⟩ => ⟨S1114112, .f32⟩
  | .hbm, ⟨47, _⟩ => ⟨S1114112, .f32⟩
  | .hbm, ⟨48, _⟩ => ⟨S_, .i32⟩
  | .hbm, ⟨49, _⟩ => ⟨S1114112, .i32⟩
  | .hbm, ⟨50, _⟩ => ⟨S1114112, .i1⟩
  | .hbm, ⟨51, _⟩ => ⟨S_, .i32⟩
  | .hbm, ⟨52, _⟩ => ⟨S1114112, .i32⟩
  | .hbm, ⟨53, _⟩ => ⟨S1114112, .i32⟩
  | .hbm, ⟨54, _⟩ => ⟨S1114112, .i32⟩
  | .hbm, ⟨55, _⟩ => ⟨S1114112x1, .i32⟩
  | .hbm, ⟨56, _⟩ => ⟨S1114112, .f32⟩
  | .hbm, ⟨57, _⟩ => ⟨S1114112, .f32⟩
  | .hbm, ⟨58, _⟩ => ⟨S65536x64, .f32⟩
  | .hbm, ⟨59, _⟩ => ⟨S1114112x1, .f32⟩
  | .hbm, ⟨60, _⟩ => ⟨S_, .i32⟩
  | .hbm, ⟨61, _⟩ => ⟨S1114112, .i32⟩
  | .hbm, ⟨62, _⟩ => ⟨S1114112, .i1⟩
  | .hbm, ⟨63, _⟩ => ⟨S_, .i32⟩
  | .hbm, ⟨64, _⟩ => ⟨S1114112, .i32⟩
  | .hbm, ⟨65, _⟩ => ⟨S1114112, .i32⟩
  | .hbm, ⟨66, _⟩ => ⟨S1114112, .i32⟩
  | .hbm, ⟨67, _⟩ => ⟨S1114112x1, .i32⟩
  | .hbm, ⟨68, _⟩ => ⟨S1114112x64, .f32⟩
  | .hbm, ⟨69, _⟩ => ⟨S1114112x64, .f32⟩
  | .hbm, ⟨70, _⟩ => ⟨S1114112x64, .f32⟩
  | .hbm, ⟨71, _⟩ => ⟨S_, .f32⟩
  | .hbm, ⟨72, _⟩ => ⟨S65536x64, .f32⟩
  | .hbm, ⟨73, _⟩ => ⟨S1114112x1, .i32⟩
  | .hbm, ⟨74, _⟩ => ⟨S65536x64, .f32⟩
  | .hbm, ⟨75, _⟩ => ⟨S1x64, .f32⟩
  | .hbm, ⟨76, _⟩ => ⟨S65536x64, .f32⟩
  | .hbm, ⟨77, _⟩ => ⟨S65536x64, .f32⟩
  | .hbm, ⟨78, _⟩ => ⟨S_, .f32⟩
  | .hbm, ⟨79, _⟩ => ⟨S65536x64, .f32⟩
  | .hbm, ⟨80, _⟩ => ⟨S65536x64, .f32⟩
  | .hbm, ⟨81, _⟩ => ⟨S65536x64, .f32⟩
  | .hbm, ⟨82, _⟩ => ⟨S1114112x1, .f32⟩
  | .hbm, ⟨83, _⟩ => ⟨S_, .i32⟩
  | .hbm, ⟨84, _⟩ => ⟨S1114112, .i32⟩
  | .hbm, ⟨85, _⟩ => ⟨S1114112, .i1⟩
  | .hbm, ⟨86, _⟩ => ⟨S_, .i32⟩
  | .hbm, ⟨87, _⟩ => ⟨S1114112, .i32⟩
  | .hbm, ⟨88, _⟩ => ⟨S1114112, .i32⟩
  | .hbm, ⟨89, _⟩ => ⟨S1114112, .i32⟩
  | .hbm, ⟨90, _⟩ => ⟨S1114112x1, .i32⟩
  | .hbm, ⟨91, _⟩ => ⟨S1114112x64, .f32⟩
  | .hbm, ⟨92, _⟩ => ⟨S1114112x64, .f32⟩
  | .hbm, ⟨93, _⟩ => ⟨S1114112x64, .f32⟩
  | .hbm, ⟨94, _⟩ => ⟨S_, .f32⟩
  | .hbm, ⟨95, _⟩ => ⟨S65536x64, .f32⟩
  | .hbm, ⟨96, _⟩ => ⟨S1114112x1, .i32⟩
  | .hbm, ⟨97, _⟩ => ⟨S65536x64, .f32⟩
  | .hbm, ⟨98, _⟩ => ⟨S1x64, .f32⟩
  | .hbm, ⟨99, _⟩ => ⟨S65536x64, .f32⟩
  | .hbm, ⟨100, _⟩ => ⟨S65536x64, .f32⟩
  | .hbm, ⟨101, _⟩ => ⟨S_, .f32⟩
  | .hbm, ⟨102, _⟩ => ⟨S65536x64, .f32⟩
  | .hbm, ⟨103, _⟩ => ⟨S65536x64, .f32⟩
  | .hbm, ⟨104, _⟩ => ⟨S65536x40, .f32⟩
  | .hbm, ⟨105, _⟩ => ⟨S1x40, .f32⟩
  | .hbm, ⟨106, _⟩ => ⟨S65536x40, .f32⟩
  | .hbm, ⟨107, _⟩ => ⟨S65536x40, .f32⟩
  | .hbm, ⟨108, _⟩ => ⟨S_, .f32⟩
  | .hbm, ⟨109, _⟩ => ⟨S65536, .f32⟩
  | .hbm, ⟨110, _⟩ => ⟨S_, .f32⟩
  | .hbm, ⟨111, _⟩ => ⟨S65536, .f32⟩
  | .hbm, ⟨112, _⟩ => ⟨S65536, .f32⟩
  | .hbm, ⟨113, _⟩ => ⟨S65536x1, .f32⟩
  | .hbm, ⟨114, _⟩ => ⟨S65536x40, .f32⟩
  | .hbm, ⟨115, _⟩ => ⟨S65536x40, .f32⟩
  | .hbm, ⟨116, _⟩ => ⟨S65536x40, .f32⟩
  | .hbm, ⟨117, _⟩ => ⟨S_, .f32⟩
  | .hbm, ⟨118, _⟩ => ⟨S65536, .f32⟩
  | .hbm, ⟨119, _⟩ => ⟨S65536x1, .f32⟩
  | .hbm, ⟨120, _⟩ => ⟨S65536x1, .f32⟩
  | .hbm, ⟨121, _⟩ => ⟨S65536x40, .f32⟩
  | .hbm, ⟨122, _⟩ => ⟨S65536x40, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call4_cst : Ref sig .tc := ⟨.hbm, 108, rfl⟩
abbrev main_call4_v0 : Ref sig .tc := ⟨.hbm, 109, rfl⟩
abbrev main_call4_cst_0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_cst_1 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_v75 : Ref sig .tc := ⟨.hbm, 122, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S40_S1x40_1 : S40.BroadcastsInDim S1x40 (![1] : Fin 1 → Fin S1x40.rank)
  bcast_S1x40_S65536x40_0_1 : S1x40.BroadcastsInDim S65536x40 (![0, 1] : Fin 2 → Fin S65536x40.rank)
  reducesTo_S65536x40_S65536_d1 : S65536x40.ReducesTo [1] S65536
  h_S_ : 0 < S_.numel
  bcast_S65536_S65536x1_0 : S65536.BroadcastsInDim S65536x1 (![0] : Fin 1 → Fin S65536x1.rank)
  bcast_S65536x1_S65536x40_0_1 : S65536x1.BroadcastsInDim S65536x40 (![0, 1] : Fin 2 → Fin S65536x40.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x128_S128x64_S65536x64_1_0_0_1_n_n_wf : DotDims.WF S65536x128 S128x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S65536x64_S64x64_S65536x64_1_0_0_1_n_n_wf : DotDims.WF S65536x64 S64x64 S65536x64 [1] [0] [0] [1] [] []
  dot_S65536x64_S64x40_S65536x40_1_0_0_1_n_n_wf : DotDims.WF S65536x64 S64x40 S65536x40 [1] [0] [0] [1] [] []

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x40_S65536x40_1_0_0_1_n_n : DotDims S65536x64 S64x40 S65536x40 where
  lhsContracting := [1]
  rhsContracting := [0]
  lhsNonContracting := [0]
  rhsNonContracting := [1]
  lhsBatch := []
  rhsBatch := []
  wf := dot_S65536x64_S64x40_S65536x40_1_0_0_1_n_n_wf

class Facts : Prop extends Facts₀ where

variable [Facts]
-- ==== Proof.KernelRun.lean ====
/-
  The run of the idealized program with its RESULT kept.

  The program is twelve segments: stretches of host operations and five pipelined regions. The contents of
  the TensorCore's buffers at each boundary are a fold from the launch memory: a stretch applies its operations, a region
  replaces its windows' arrays by what its write-backs leave. At the return every unscoped buffer holds the last boundary's
  contents; read at the result buffer this names the result array, and read at an argument buffer it walks back to the launch
  memory. The statement below is that run with the result array named beside the unchanged arguments.
-/
import proofs.«156117_j69844758167859_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the nine argument arrays end as launched. -/
theorem run_result : θ_run defs (onTc (τ := τ) (main (F := F))) ⟨m, fun _ => 0, ρ⟩ (fun r => ∀ c : Dev nD,
      r.2.mem ((c.tc : Thread nD τ).loc main_v65) = W12 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v65 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.Spec.lean ====
/-
  The specification: a two-layer graph convolution with a linear head and a row-wise log-softmax, as ONE function of the
  nine argument arrays, built from a handful of stages.

  The graph has 65536 nodes and 1048576 weighted edges (edge index rows: source, target), to which one self loop of weight 1
  per node is appended. With  deg  the weighted in-degree (a scatter-add of the weights at the targets) and
  dis = deg^(-1/2)  where  deg > 0  and 0 elsewhere, each edge carries the weight  nrm = dis[source] · w · dis[target].
  A convolution of a node-feature matrix  ht  gathers the row of each edge's source, scales it by the edge's  nrm  and
  scatter-adds it at the edge's target (`aggregate`); a layer is  max(aggregate(h · W) + b, 0)  (`lin1` / `lin2`,
  `biasRelu`); the head is  h · Wf + bf  (`logits`) followed by  l ↦ (l − max l) − log Σ exp(l − max l)  along each row
  (`logSoftmax`). Every stage is spelt with the host operations of the reference program, over its shapes and side
  conditions, so that the reference's run ends at `result` by unfolding, and each boundary of the kernel program is one of
  these stages of the previous ones.
-/
import proofs.«156117_j69844758167859_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- An array of shape `S` and element type `e`. -/
abbrev Arr (F : FTy → Type) (S : Shape) (e : EltTy) : Type := (⟨S, e⟩ : BufTy).Contents (Elt F)

/-- The scalar zero, one and −∞ of the program text. -/
abbrev zeroS : Arr F S_ .f32 := constant S_ .f32 0x00000000#32
abbrev oneS : Arr F S_ .f32 := constant S_ .f32 0x3F800000#32
abbrev negInfS : Arr F S_ .f32 := constant S_ .f32 0xFF800000#32

/-- The edges' sources followed by the nodes themselves (the self loops). -/
def sources (x8 : Arr F S2x1048576 .i32) : Arr F S1114112 .i32 :=
  concatenate S1114112 0 [⟨S1048576, shapeCast _ (extractStridedSlice S1x1048576 ![0, 0] x8 slices_S2x1048576_S1x1048576_0_0) shapeCasts_S1x1048576_S1048576⟩, ⟨S65536, iotaInDim S65536 32 0⟩] concatenates_S1048576_S65536_S1114112_d0

/-- The edges' targets followed by the nodes themselves (the self loops). -/
def targets (x8 : Arr F S2x1048576 .i32) : Arr F S1114112 .i32 :=
  concatenate S1114112 0 [⟨S1048576, shapeCast _ (extractStridedSlice S1x1048576 ![1, 0] x8 slices_S2x1048576_S1x1048576_1_0) shapeCasts_S1x1048576_S1048576⟩, ⟨S65536, iotaInDim S65536 32 0⟩] concatenates_S1048576_S65536_S1114112_d0

/-- The edge weights followed by a one per self loop. -/
def weights (x1 : Arr F S1048576 .f32) : Arr F S1114112 .f32 :=
  concatenate S1114112 0 [⟨S1048576, x1⟩, ⟨S65536, broadcastInDim S65536 ![] bcast_S_S65536 oneS⟩] concatenates_S1048576_S65536_S1114112_d0

/-- The weighted in-degree of each node: the weights scatter-added at the targets. -/
def degree (x1 : Arr F S1048576 .f32) (x8 : Arr F S2x1048576 .i32) : Arr F S65536 .f32 :=
  Host.scatterAdd scatter_S65536_S1114112x1_S1114112_n_0_0_1 (broadcastInDim S65536 ![] bcast_S_S65536 zeroS)
    (broadcastInDim S1114112x1 ![0] bcast_S1114112_S1114112x1_0 (targets x8)) (weights x1)

/-- Where the degree is positive. -/
def positive (x1 : Arr F S1048576 .f32) (x8 : Arr F S2x1048576 .i32) : Arr F S65536 .i1 :=
  cmpf .ogt (degree x1 x8) (broadcastInDim S65536 ![] bcast_S_S65536 zeroS)

/-- deg^(-1/2) where the degree is positive, 0 elsewhere (the inner selection keeps the root's argument positive). -/
def invSqrtDegree (x1 : Arr F S1048576 .f32) (x8 : Arr F S2x1048576 .i32) : Arr F S65536 .f32 :=
  select (positive x1 x8)
    (Host.rsqrt (select (positive x1 x8) (degree x1 x8) (broadcastInDim S65536 ![] bcast_S_S65536 (id oneS))))
    (broadcastInDim S65536 ![] bcast_S_S65536 (id zeroS))

/-- A node index made non-negative (a negative one counts from the end), as a column of start indices. -/
def startIndices (e : Arr F S1114112 .i32) : Arr F S1114112x1 .i32 :=
  broadcastInDim S1114112x1 ![0] bcast_S1114112_S1114112x1_0
    (select (cmpi .slt e (broadcastInDim S1114112 ![] bcast_S_S1114112 (constantI S_ 32 0#32)))
      (addi e (broadcastInDim S1114112 ![] bcast_S_S1114112 (constantI S_ 32 65536#32))) e)

/-- The normalised weight of each edge: dis[source] · w · dis[target]. -/
def edgeNorm (x1 : Arr F S1048576 .f32) (x8 : Arr F S2x1048576 .i32) : Arr F S1114112 .f32 :=
  mulf (mulf (Host.gather gather_S65536_S1114112x1_S1114112_n_0_n_n_0_1_1 (invSqrtDegree x1 x8) (startIndices (sources x8))) (weights x1))
    (Host.gather gather_S65536_S1114112x1_S1114112_n_0_n_n_0_1_1 (invSqrtDegree x1 x8) (startIndices (targets x8)))

/-- The first layer's linear map. -/
def lin1 (x0 : Arr F S65536x128 .f32) (x2 : Arr F S128x64 .f32) : Arr F S65536x64 .f32 :=
  Host.dotGeneral dot_S65536x128_S128x64_S65536x64_1_0_0_1_n_n none x0 x2

/-- The second layer's linear map. -/
def lin2 (h : Arr F S65536x64 .f32) (x4 : Arr F S64x64 .f32) : Arr F S65536x64 .f32 :=
  Host.dotGeneral dot_S65536x64_S64x64_S65536x64_1_0_0_1_n_n none h x4

/-- Message passing: each edge's source row of `ht`, scaled by the edge's weight `nrm`, added up at the edge's target. -/
def aggregate (nrm : Arr F S1114112 .f32) (ht : Arr F S65536x64 .f32) (src tgt : Arr F S1114112 .i32) : Arr F S65536x64 .f32 :=
  Host.scatterAdd scatter_S65536x64_S1114112x1_S1114112x64_1_0_0_1 (broadcastInDim S65536x64 ![] bcast_S_S65536x64 zeroS)
    (broadcastInDim S1114112x1 ![0] bcast_S1114112_S1114112x1_0 tgt)
    (mulf (broadcastInDim S1114112x64 ![0, 1] bcast_S1114112x1_S1114112x64_0_1 (broadcastInDim S1114112x1 ![0] bcast_S1114112_S1114112x1_0 nrm))
      (Host.gather gather_S65536x64_S1114112x1_S1114112x64_1_0_n_n_0_1_164 ht (startIndices src)))

/-- max(a + b, 0), the bias `b` added to every row. -/
def biasRelu (a : Arr F S65536x64 .f32) (b : Arr F S64 .f32) : Arr F S65536x64 .f32 :=
  maximumf (addf a (broadcastInDim S65536x64 ![0, 1] bcast_S1x64_S65536x64_0_1 (broadcastInDim S1x64 ![1] bcast_S64_S1x64_1 b)))
    (broadcastInDim S65536x64 ![] bcast_S_S65536x64 zeroS)

/-- The head: h · Wf + bf. -/
def logits (h : Arr F S65536x64 .f32) (x6 : Arr F S64x40 .f32) (x7 : Arr F S40 .f32) : Arr F S65536x40 .f32 :=
  addf (Host.dotGeneral dot_S65536x64_S64x40_S65536x40_1_0_0_1_n_n none h x6)
    (broadcastInDim S65536x40 ![0, 1] bcast_S1x40_S65536x40_0_1 (broadcastInDim S1x40 ![1] bcast_S40_S1x40_1 x7))

/-- Each row's maximum (never below −∞), as a column. -/
def rowMax (l : Arr F S65536x40 .f32) : Arr F S65536 .f32 :=
  maximumf (broadcastInDim S65536 ![] bcast_S_S65536 negInfS) (Host.reduce FloatOps.maximumf l negInfS reducesTo_S65536x40_S65536_d1 h_S_)

/-- A row minus its maximum. -/
def shifted (l : Arr F S65536x40 .f32) : Arr F S65536x40 .f32 :=
  subf l (broadcastInDim S65536x40 ![0, 1] bcast_S65536x1_S65536x40_0_1 (broadcastInDim S65536x1 ![0] bcast_S65536_S65536x1_0 (rowMax l)))

/-- Row-wise log-softmax: (l − max) − log Σ exp(l − max). -/
def logSoftmax (l : Arr F S65536x40 .f32) : Arr F S65536x40 .f32 :=
  subf (shifted l) (broadcastInDim S65536x40 ![0, 1] bcast_S65536x1_S65536x40_0_1
    (Host.log (broadcastInDim S65536x1 ![0] bcast_S65536_S65536x1_0 (Host.reduceAdd (Host.exp (shifted l)) zeroS reducesTo_S65536x40_S65536_d1 h_S_))))

/-- The hidden features after the first layer. -/
def hidden1 (x0 : Arr F S65536x128 .f32) (x1 : Arr F S1048576 .f32) (x2 : Arr F S128x64 .f32) (x3 : Arr F S64 .f32)
    (x8 : Arr F S2x1048576 .i32) : Arr F S65536x64 .f32 :=
  biasRelu (aggregate (edgeNorm x1 x8) (lin1 x0 x2) (sources x8) (targets x8)) x3

/-- The hidden features after the second layer. -/
def hidden2 (x0 : Arr F S65536x128 .f32) (x1 : Arr F S1048576 .f32) (x2 : Arr F S128x64 .f32) (x3 : Arr F S64 .f32)
    (x4 : Arr F S64x64 .f32) (x5 : Arr F S64 .f32) (x8 : Arr F S2x1048576 .i32) : Arr F S65536x64 .f32 :=
  biasRelu (aggregate (edgeNorm x1 x8) (lin2 (hidden1 x0 x1 x2 x3 x8) x4) (sources x8) (targets x8)) x5

/-- The network's output: the log-softmax of the head's logits. -/
def result (x0 : Arr F S65536x128 .f32) (x1 : Arr F S1048576 .f32) (x2 : Arr F S128x64 .f32) (x3 : Arr F S64 .f32)
    (x4 : Arr F S64x64 .f32) (x5 : Arr F S64 .f32) (x6 : Arr F S64x40 .f32) (x7 : Arr F S40 .f32)
    (x8 : Arr F S2x1048576 .i32) : Arr F S65536x40 .f32 :=
  logSoftmax (logits (hidden2 x0 x1 x2 x3 x4 x5 x8) x6 x7)

end Cert.Gcn

end
-- ==== Proof.RefRun.lean ====
/-
  The reference program's run, read back.

  The reference is a straight line of 114 host operations. Every weakly fair execution of it terminates, each buffer ending
  at the value its operation computes from the buffers before it, and no operation writes an argument. Read in nine
  consecutive stages — the edge arrays; the first linear map; the first aggregation; the first bias-and-clamp; the second
  linear map, aggregation and bias-and-clamp; the logits; the log-softmax — each stage's result is the specification's stage
  of the same name of the buffers the stage reads, from ANY contents before it, so the result buffer ends at the
  specification's `result` of the argument arrays. The operations of a called function (the two selections, the two
  clamps, the log-softmax) are stated over typed references to the caller's buffers; a typed reference to a literal buffer is
  that buffer, so such an operation is the plain operation over the buffers. For the two reductions of the log-softmax this
  is used for an arbitrary function, so that no comparison ever opens a reduction over the 65536 × 40 array.
-/
import proofs.«156117_j69844758167859_1_alg».proof.Proof.Spec
import Idealize.ShloMosaic.Lib.StableHlo.Run
import Idealize.ShloMosaic.Lib.Pipeline.Frame

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The reference's 114 host operations, in program order; the operations of a called function stand where it is called, over
    its typed references. -/
abbrev ops : List (HloOp τ sig (Elt F)) :=
  [ unary main_arg8 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg8 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    nullary main_v4 (iotaInDim S65536 32 0),
    binary main_v1 main_v4 main_v5 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    binary main_v3 main_v4 main_v6 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    nullary main_cst (constant S_ .f32 0x3F800000#32),
    unary main_cst main_v7 (broadcastInDim S65536 ![] bcast_S_S65536 : (⟨S_, .f32⟩ : BufTy).Contents (Elt F) → (⟨S65536, .f32⟩ : BufTy).Contents (Elt F)),
    binary main_arg1 main_v7 main_v8 ((fun a b => concatenate S1114112 0 [⟨S1048576, a⟩, ⟨S65536, b⟩] concatenates_S1048576_S65536_S1114112_d0) : (⟨S1048576, .f32⟩ : BufTy).Contents (Elt F) → (⟨S65536, .f32⟩ : BufTy).Contents (Elt F) → (⟨S1114112, .f32⟩ : BufTy).Contents (Elt F)),
    nullary main_cst_0 (constant S_ .f32 0x00000000#32),
    unary main_cst_0 main_v9 (broadcastInDim S65536 ![] bcast_S_S65536 : (⟨S_, .f32⟩ : BufTy).Contents (Elt F) → (⟨S65536, .f32⟩ : BufTy).Contents (Elt F)),
    unary main_v6 main_v10 (broadcastInDim S1114112x1 ![0] bcast_S1114112_S1114112x1_0 : (⟨S1114112, .i32⟩ : BufTy).Contents (Elt F) → (⟨S1114112x1, .i32⟩ : BufTy).Contents (Elt F)),
    ternary main_v9 main_v10 main_v8 main_v11 ((fun x i u => Host.scatterAdd scatter_S65536_S1114112x1_S1114112_n_0_0_1 x i u) : (⟨S65536, .f32⟩ : BufTy).Contents (Elt F) → (⟨S1114112x1, .i32⟩ : BufTy).Contents (Elt F) → (⟨S1114112, .f32⟩ : BufTy).Contents (Elt F) → (⟨S65536, .f32⟩ : BufTy).Contents (Elt F)),
    nullary main_cst_1 (constant S_ .f32 0x00000000#32),
    unary main_cst_1 main_v12 (broadcastInDim S65536 ![] bcast_S_S65536 : (⟨S_, .f32⟩ : BufTy).Contents (Elt F) → (⟨S65536, .f32⟩ : BufTy).Contents (Elt F)),
    binary main_v11 main_v12 main_v13 (cmpf .ogt : (⟨S65536, .f32⟩ : BufTy).Contents (Elt F) → (⟨S65536, .f32⟩ : BufTy).Contents (Elt F) → (⟨S65536, .i1⟩ : BufTy).Contents (Elt F)),
    nullary main_cst_2 (constant S_ .f32 0x00000000#32),
    unary main_cst_2 main_v14 (broadcastInDim S65536 ![] bcast_S_S65536 : (⟨S_, .f32⟩ : BufTy).Contents (Elt F) → (⟨S65536, .f32⟩ : BufTy).Contents (Elt F)),
    binary main_v11 main_v14 main_v15 (cmpf .ogt : (⟨S65536, .f32⟩ : BufTy).Contents (Elt F) → (⟨S65536, .f32⟩ : BufTy).Contents (Elt F) → (⟨S65536, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v15) (TRef.of (T := ⟨S65536, .f32⟩) main_v11) (TRef.of (T := ⟨S65536, .f32⟩) main_call0_v1) (TRef.of (T := ⟨S65536, .f32⟩) main_v16) select,
    unary main_v16 main_v17 (Host.rsqrt : (⟨S65536, .f32⟩ : BufTy).Contents (Elt F) → (⟨S65536, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v13) (TRef.of (T := ⟨S65536, .f32⟩) main_v17) (TRef.of (T := ⟨S65536, .f32⟩) main_call1_v1) (TRef.of (T := ⟨S65536, .f32⟩) main_v18) select,
    nullary main_c (constantI S_ 32 0#32),
    unary main_c main_v19 (broadcastInDim S1114112 ![] bcast_S_S1114112 : (⟨S_, .i32⟩ : BufTy).Contents (Elt F) → (⟨S1114112, .i32⟩ : BufTy).Contents (Elt F)),
    binary main_v5 main_v19 main_v20 (cmpi .slt : (⟨S1114112, .i32⟩ : BufTy).Contents (Elt F) → (⟨S1114112, .i32⟩ : BufTy).Contents (Elt F) → (⟨S1114112, .i1⟩ : BufTy).Contents (Elt F)),
    nullary main_c_5 (constantI S_ 32 65536#32),
    unary main_c_5 main_v21 (broadcastInDim S1114112 ![] bcast_S_S1114112 : (⟨S_, .i32⟩ : BufTy).Contents (Elt F) → (⟨S1114112, .i32⟩ : BufTy).Contents (Elt F)),
    binary main_v5 main_v21 main_v22 (addi : (⟨S1114112, .i32⟩ : BufTy).Contents (Elt F) → (⟨S1114112, .i32⟩ : BufTy).Contents (Elt F) → (⟨S1114112, .i32⟩ : BufTy).Contents (Elt F)),
    ternary main_v20 main_v22 main_v5 main_v23 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v23 main_v24 (broadcastInDim S1114112x1 ![0] bcast_S1114112_S1114112x1_0 : (⟨S1114112, .i32⟩ : BufTy).Contents (Elt F) → (⟨S1114112x1, .i32⟩ : BufTy).Contents (Elt F)),
    binary main_v18 main_v24 main_v25 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v25 main_v8 main_v26 (mulf : (⟨S1114112, .f32⟩ : BufTy).Contents (Elt F) → (⟨S1114112, .f32⟩ : BufTy).Contents (Elt F) → (⟨S1114112, .f32⟩ : BufTy).Contents (Elt F)),
    nullary main_c_6 (constantI S_ 32 0#32),
    unary main_c_6 main_v27 (broadcastInDim S1114112 ![] bcast_S_S1114112 : (⟨S_, .i32⟩ : BufTy).Contents (Elt F) → (⟨S1114112, .i32⟩ : BufTy).Contents (Elt F)),
    binary main_v6 main_v27 main_v28 (cmpi .slt : (⟨S1114112, .i32⟩ : BufTy).Contents (Elt F) → (⟨S1114112, .i32⟩ : BufTy).Contents (Elt F) → (⟨S1114112, .i1⟩ : BufTy).Contents (Elt F)),
    nullary main_c_7 (constantI S_ 32 65536#32),
    unary main_c_7 main_v29 (broadcastInDim S1114112 ![] bcast_S_S1114112 : (⟨S_, .i32⟩ : BufTy).Contents (Elt F) → (⟨S1114112, .i32⟩ : BufTy).Contents (Elt F)),
    binary main_v6 main_v29 main_v30 (addi : (⟨S1114112, .i32⟩ : BufTy).Contents (Elt F) → (⟨S1114112, .i32⟩ : BufTy).Contents (Elt F) → (⟨S1114112, .i32⟩ : BufTy).Contents (Elt F)),
    ternary main_v28 main_v30 main_v6 main_v31 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v31 main_v32 (broadcastInDim S1114112x1 ![0] bcast_S1114112_S1114112x1_0 : (⟨S1114112, .i32⟩ : BufTy).Contents (Elt F) → (⟨S1114112x1, .i32⟩ : BufTy).Contents (Elt F)),
    binary main_v18 main_v32 main_v33 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v26 main_v33 main_v34 (mulf : (⟨S1114112, .f32⟩ : BufTy).Contents (Elt F) → (⟨S1114112, .f32⟩ : BufTy).Contents (Elt F) → (⟨S1114112, .f32⟩ : BufTy).Contents (Elt F)),
    binary main_arg0 main_arg2 main_v35 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_v34 main_v36 (broadcastInDim S1114112x1 ![0] bcast_S1114112_S1114112x1_0 : (⟨S1114112, .f32⟩ : BufTy).Contents (Elt F) → (⟨S1114112x1, .f32⟩ : BufTy).Contents (Elt F)),
    nullary main_c_8 (constantI S_ 32 0#32),
    unary main_c_8 main_v37 (broadcastInDim S1114112 ![] bcast_S_S1114112 : (⟨S_, .i32⟩ : BufTy).Contents (Elt F) → (⟨S1114112, .i32⟩ : BufTy).Contents (Elt F)),
    binary main_v5 main_v37 main_v38 (cmpi .slt : (⟨S1114112, .i32⟩ : BufTy).Contents (Elt F) → (⟨S1114112, .i32⟩ : BufTy).Contents (Elt F) → (⟨S1114112, .i1⟩ : BufTy).Contents (Elt F)),
    nullary main_c_9 (constantI S_ 32 65536#32),
    unary main_c_9 main_v39 (broadcastInDim S1114112 ![] bcast_S_S1114112 : (⟨S_, .i32⟩ : BufTy).Contents (Elt F) → (⟨S1114112, .i32⟩ : BufTy).Contents (Elt F)),
    binary main_v5 main_v39 main_v40 (addi : (⟨S1114112, .i32⟩ : BufTy).Contents (Elt F) → (⟨S1114112, .i32⟩ : BufTy).Contents (Elt F) → (⟨S1114112, .i32⟩ : BufTy).Contents (Elt F)),
    ternary main_v38 main_v40 main_v5 main_v41 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v41 main_v42 (broadcastInDim S1114112x1 ![0] bcast_S1114112_S1114112x1_0 : (⟨S1114112, .i32⟩ : BufTy).Contents (Elt F) → (⟨S1114112x1, .i32⟩ : BufTy).Contents (Elt F)),
    binary main_v35 main_v42 main_v43 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v36 main_v44 (broadcastInDim S1114112x64 ![0, 1] bcast_S1114112x1_S1114112x64_0_1 : (⟨S1114112x1, .f32⟩ : BufTy).Contents (Elt F) → (⟨S1114112x64, .f32⟩ : BufTy).Contents (Elt F)),
    binary main_v44 main_v43 main_v45 (mulf : (⟨S1114112x64, .f32⟩ : BufTy).Contents (Elt F) → (⟨S1114112x64, .f32⟩ : BufTy).Contents (Elt F) → (⟨S1114112x64, .f32⟩ : BufTy).Contents (Elt F)),
    nullary main_cst_10 (constant S_ .f32 0x00000000#32),
    unary main_cst_10 main_v46 (broadcastInDim S65536x64 ![] bcast_S_S65536x64 : (⟨S_, .f32⟩ : BufTy).Contents (Elt F) → (⟨S65536x64, .f32⟩ : BufTy).Contents (Elt F)),
    unary main_v6 main_v47 (broadcastInDim S1114112x1 ![0] bcast_S1114112_S1114112x1_0 : (⟨S1114112, .i32⟩ : BufTy).Contents (Elt F) → (⟨S1114112x1, .i32⟩ : BufTy).Contents (Elt F)),
    ternary main_v46 main_v47 main_v45 main_v48 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)),
    unary main_arg3 main_v49 (broadcastInDim S1x64 ![1] bcast_S64_S1x64_1 : (⟨S64, .f32⟩ : BufTy).Contents (Elt F) → (⟨S1x64, .f32⟩ : BufTy).Contents (Elt F)),
    unary main_v49 main_v50 (broadcastInDim S65536x64 ![0, 1] bcast_S1x64_S65536x64_0_1 : (⟨S1x64, .f32⟩ : BufTy).Contents (Elt F) → (⟨S65536x64, .f32⟩ : BufTy).Contents (Elt F)),
    binary main_v48 main_v50 main_v51 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x64, .f32⟩) main_call2_v0) (broadcastInDim S65536x64 ![] bcast_S_S65536x64),
    TRef.binary (TRef.of (T := ⟨S65536x64, .f32⟩) main_v51) (TRef.of (T := ⟨S65536x64, .f32⟩) main_call2_v0) (TRef.of (T := ⟨S65536x64, .f32⟩) main_v52) maximumf,
    binary main_v52 main_arg4 main_v53 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    unary main_v34 main_v54 (broadcastInDim S1114112x1 ![0] bcast_S1114112_S1114112x1_0 : (⟨S1114112, .f32⟩ : BufTy).Contents (Elt F) → (⟨S1114112x1, .f32⟩ : BufTy).Contents (Elt F)),
    nullary main_c_11 (constantI S_ 32 0#32),
    unary main_c_11 main_v55 (broadcastInDim S1114112 ![] bcast_S_S1114112 : (⟨S_, .i32⟩ : BufTy).Contents (Elt F) → (⟨S1114112, .i32⟩ : BufTy).Contents (Elt F)),
    binary main_v5 main_v55 main_v56 (cmpi .slt : (⟨S1114112, .i32⟩ : BufTy).Contents (Elt F) → (⟨S1114112, .i32⟩ : BufTy).Contents (Elt F) → (⟨S1114112, .i1⟩ : BufTy).Contents (Elt F)),
    nullary main_c_12 (constantI S_ 32 65536#32),
    unary main_c_12 main_v57 (broadcastInDim S1114112 ![] bcast_S_S1114112 : (⟨S_, .i32⟩ : BufTy).Contents (Elt F) → (⟨S1114112, .i32⟩ : BufTy).Contents (Elt F)),
    binary main_v5 main_v57 main_v58 (addi : (⟨S1114112, .i32⟩ : BufTy).Contents (Elt F) → (⟨S1114112, .i32⟩ : BufTy).Contents (Elt F) → (⟨S1114112, .i32⟩ : BufTy).Contents (Elt F)),
    ternary main_v56 main_v58 main_v5 main_v59 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v59 main_v60 (broadcastInDim S1114112x1 ![0] bcast_S1114112_S1114112x1_0 : (⟨S1114112, .i32⟩ : BufTy).Contents (Elt F) → (⟨S1114112x1, .i32⟩ : BufTy).Contents (Elt F)),
    binary main_v53 main_v60 main_v61 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v54 main_v62 (broadcastInDim S1114112x64 ![0, 1] bcast_S1114112x1_S1114112x64_0_1 : (⟨S1114112x1, .f32⟩ : BufTy).Contents (Elt F) → (⟨S1114112x64, .f32⟩ : BufTy).Contents (Elt F)),
    binary main_v62 main_v61 main_v63 (mulf : (⟨S1114112x64, .f32⟩ : BufTy).Contents (Elt F) → (⟨S1114112x64, .f32⟩ : BufTy).Contents (Elt F) → (⟨S1114112x64, .f32⟩ : BufTy).Contents (Elt F)),
    nullary main_cst_13 (constant S_ .f32 0x00000000#32),
    unary main_cst_13 main_v64 (broadcastInDim S65536x64 ![] bcast_S_S65536x64 : (⟨S_, .f32⟩ : BufTy).Contents (Elt F) → (⟨S65536x64, .f32⟩ : BufTy).Contents (Elt F)),
    unary main_v6 main_v65 (broadcastInDim S1114112x1 ![0] bcast_S1114112_S1114112x1_0 : (⟨S1114112, .i32⟩ : BufTy).Contents (Elt F) → (⟨S1114112x1, .i32⟩ : BufTy).Contents (Elt F)),
    ternary main_v64 main_v65 main_v63 main_v66 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)),
    unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S65536x64 ![0, 1] bcast_S1x64_S65536x64_0_1 : (⟨S1x64, .f32⟩ : BufTy).Contents (Elt F) → (⟨S65536x64, .f32⟩ : BufTy).Contents (Elt F)),
    binary main_v66 main_v68 main_v69 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x64, .f32⟩) main_call3_v0) (broadcastInDim S65536x64 ![] bcast_S_S65536x64),
    TRef.binary (TRef.of (T := ⟨S65536x64, .f32⟩) main_v69) (TRef.of (T := ⟨S65536x64, .f32⟩) main_call3_v0) (TRef.of (T := ⟨S65536x64, .f32⟩) main_v70) maximumf,
    binary main_v70 main_arg6 main_v71 ((fun l r => Host.dotGeneral dot_S65536x64_S64x40_S65536x40_1_0_0_1_n_n none l r) : (⟨S65536x64, .f32⟩ : BufTy).Contents (Elt F) → (⟨S64x40, .f32⟩ : BufTy).Contents (Elt F) → (⟨S65536x40, .f32⟩ : BufTy).Contents (Elt F)),
    unary main_arg7 main_v72 (broadcastInDim S1x40 ![1] bcast_S40_S1x40_1 : (⟨S40, .f32⟩ : BufTy).Contents (Elt F) → (⟨S1x40, .f32⟩ : BufTy).Contents (Elt F)),
    unary main_v72 main_v73 (broadcastInDim S65536x40 ![0, 1] bcast_S1x40_S65536x40_0_1 : (⟨S1x40, .f32⟩ : BufTy).Contents (Elt F) → (⟨S65536x40, .f32⟩ : BufTy).Contents (Elt F)),
    binary main_v71 main_v73 main_v74 (addf : (⟨S65536x40, .f32⟩ : BufTy).Contents (Elt F) → (⟨S65536x40, .f32⟩ : BufTy).Contents (Elt F) → (⟨S65536x40, .f32⟩ : BufTy).Contents (Elt F)),
    TRef.nullary (TRef.of (T := ⟨S_, .f32⟩) main_call4_cst) (constant S_ .f32 0xFF800000#32),
    TRef.binary (TRef.of (T := ⟨S65536x40, .f32⟩) main_v74) (TRef.of (T := ⟨S_, .f32⟩) main_call4_cst) (TRef.of (T := ⟨S65536, .f32⟩) main_call4_v0) (fun x v => Host.reduce FloatOps.maximumf x v reducesTo_S65536x40_S65536_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S65536, .f32⟩) main_call4_v1) (broadcastInDim S65536 ![] bcast_S_S65536),
    TRef.binary (TRef.of (T := ⟨S65536, .f32⟩) main_call4_v1) (TRef.of (T := ⟨S65536, .f32⟩) main_call4_v0) (TRef.of (T := ⟨S65536, .f32⟩) main_call4_v2) maximumf,
    TRef.unary (TRef.of (T := ⟨S65536, .f32⟩) main_call4_v2) (TRef.of (T := ⟨S65536x1, .f32⟩) main_call4_v3) (broadcastInDim S65536x1 ![0] bcast_S65536_S65536x1_0),
    TRef.unary (TRef.of (T := ⟨S65536x1, .f32⟩) main_call4_v3) (TRef.of (T := ⟨S65536x40, .f32⟩) main_call4_v4) (broadcastInDim S65536x40 ![0, 1] bcast_S65536x1_S65536x40_0_1),
    TRef.binary (TRef.of (T := ⟨S65536x40, .f32⟩) main_v74) (TRef.of (T := ⟨S65536x40, .f32⟩) main_call4_v4) (TRef.of (T := ⟨S65536x40, .f32⟩) main_call4_v5) subf,
    TRef.unary (TRef.of (T := ⟨S65536x40, .f32⟩) main_call4_v5) (TRef.of (T := ⟨S65536x40, .f32⟩) main_call4_v6) Host.exp,
    TRef.nullary (TRef.of (T := ⟨S_, .f32⟩) main_call4_cst_1) (constant S_ .f32 0x00000000#32),
    TRef.binary (TRef.of (T := ⟨S65536x40, .f32⟩) main_call4_v6) (TRef.of (T := ⟨S_, .f32⟩) main_call4_cst_1) (TRef.of (T := ⟨S65536, .f32⟩) main_call4_v7) (fun x v => Host.reduceAdd x v reducesTo_S65536x40_S65536_d1 h_S_),
    TRef.unary (TRef.of (T := ⟨S65536, .f32⟩) main_call4_v7) (TRef.of (T := ⟨S65536x1, .f32⟩) main_call4_v8) (broadcastInDim S65536x1 ![0] bcast_S65536_S65536x1_0),
    TRef.unary (TRef.of (T := ⟨S65536x1, .f32⟩) main_call4_v8) (TRef.of (T := ⟨S65536x1, .f32⟩) main_call4_v9) Host.log,
    TRef.unary (TRef.of (T := ⟨S65536x1, .f32⟩) main_call4_v9) (TRef.of (T := ⟨S65536x40, .f32⟩) main_call4_v10) (broadcastInDim S65536x40 ![0, 1] bcast_S65536x1_S65536x40_0_1),
    TRef.binary (TRef.of (T := ⟨S65536x40, .f32⟩) main_call4_v5) (TRef.of (T := ⟨S65536x40, .f32⟩) main_call4_v10) (TRef.of (T := ⟨S65536x40, .f32⟩) main_v75) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The list in consecutive pieces: plain stretches and the called functions' operations -/

abbrev seg0 : List (HloOp τ sig (Elt F)) :=
  [ unary main_arg8 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg8 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    nullary main_v4 (iotaInDim S65536 32 0),
    binary main_v1 main_v4 main_v5 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    binary main_v3 main_v4 main_v6 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    nullary main_cst (constant S_ .f32 0x3F800000#32),
    unary main_cst main_v7 (broadcastInDim S65536 ![] bcast_S_S65536 : (⟨S_, .f32⟩ : BufTy).Contents (Elt F) → (⟨S65536, .f32⟩ : BufTy).Contents (Elt F)),
    binary main_arg1 main_v7 main_v8 ((fun a b => concatenate S1114112 0 [⟨S1048576, a⟩, ⟨S65536, b⟩] concatenates_S1048576_S65536_S1114112_d0) : (⟨S1048576, .f32⟩ : BufTy).Contents (Elt F) → (⟨S65536, .f32⟩ : BufTy).Contents (Elt F) → (⟨S1114112, .f32⟩ : BufTy).Contents (Elt F)),
    nullary main_cst_0 (constant S_ .f32 0x00000000#32),
    unary main_cst_0 main_v9 (broadcastInDim S65536 ![] bcast_S_S65536 : (⟨S_, .f32⟩ : BufTy).Contents (Elt F) → (⟨S65536, .f32⟩ : BufTy).Contents (Elt F)),
    unary main_v6 main_v10 (broadcastInDim S1114112x1 ![0] bcast_S1114112_S1114112x1_0 : (⟨S1114112, .i32⟩ : BufTy).Contents (Elt F) → (⟨S1114112x1, .i32⟩ : BufTy).Contents (Elt F)),
    ternary main_v9 main_v10 main_v8 main_v11 ((fun x i u => Host.scatterAdd scatter_S65536_S1114112x1_S1114112_n_0_0_1 x i u) : (⟨S65536, .f32⟩ : BufTy).Contents (Elt F) → (⟨S1114112x1, .i32⟩ : BufTy).Contents (Elt F) → (⟨S1114112, .f32⟩ : BufTy).Contents (Elt F) → (⟨S65536, .f32⟩ : BufTy).Contents (Elt F)),
    nullary main_cst_1 (constant S_ .f32 0x00000000#32),
    unary main_cst_1 main_v12 (broadcastInDim S65536 ![] bcast_S_S65536 : (⟨S_, .f32⟩ : BufTy).Contents (Elt F) → (⟨S65536, .f32⟩ : BufTy).Contents (Elt F)),
    binary main_v11 main_v12 main_v13 (cmpf .ogt : (⟨S65536, .f32⟩ : BufTy).Contents (Elt F) → (⟨S65536, .f32⟩ : BufTy).Contents (Elt F) → (⟨S65536, .i1⟩ : BufTy).Contents (Elt F)),
    nullary main_cst_2 (constant S_ .f32 0x00000000#32),
    unary main_cst_2 main_v14 (broadcastInDim S65536 ![] bcast_S_S65536 : (⟨S_, .f32⟩ : BufTy).Contents (Elt F) → (⟨S65536, .f32⟩ : BufTy).Contents (Elt F)),
    binary main_v11 main_v14 main_v15 (cmpf .ogt : (⟨S65536, .f32⟩ : BufTy).Contents (Elt F) → (⟨S65536, .f32⟩ : BufTy).Contents (Elt F) → (⟨S65536, .i1⟩ : BufTy).Contents (Elt F)),
    nullary main_cst_3 (constant S_ .f32 0x3F800000#32) ]

abbrev seg1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v15) (TRef.of (T := ⟨S65536, .f32⟩) main_v11) (TRef.of (T := ⟨S65536, .f32⟩) main_call0_v1) (TRef.of (T := ⟨S65536, .f32⟩) main_v16) select ]
abbrev seg1P : List (HloOp τ sig (Elt F)) :=
  [ unary main_cst_3 main_call0_v0 (id : (⟨S_, .f32⟩ : BufTy).Contents (Elt F) → (⟨S_, .f32⟩ : BufTy).Contents (Elt F)),
    unary main_call0_v0 main_call0_v1 (broadcastInDim S65536 ![] bcast_S_S65536 : (⟨S_, .f32⟩ : BufTy).Contents (Elt F) → (⟨S65536, .f32⟩ : BufTy).Contents (Elt F)),
    ternary main_v15 main_v11 main_call0_v1 main_v16 (select : (⟨S65536, .i1⟩ : BufTy).Contents (Elt F) → (⟨S65536, .f32⟩ : BufTy).Contents (Elt F) → (⟨S65536, .f32⟩ : BufTy).Contents (Elt F) → (⟨S65536, .f32⟩ : BufTy).Contents (Elt F)) ]

abbrev seg2 : List (HloOp τ sig (Elt F)) :=
  [ unary main_v16 main_v17 (Host.rsqrt : (⟨S65536, .f32⟩ : BufTy).Contents (Elt F) → (⟨S65536, .f32⟩ : BufTy).Contents (Elt F)),
    nullary main_cst_4 (constant S_ .f32 0x00000000#32) ]

abbrev seg3 : List (HloOp τ sig (Elt F)) :=
  [ TRef.unary (TRef.of (T := ⟨S_, .f32⟩) main_cst_4) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v13) (TRef.of (T := ⟨S65536, .f32⟩) main_v17) (TRef.of (T := ⟨S65536, .f32⟩) main_call1_v1) (TRef.of (T := ⟨S65536, .f32⟩) main_v18) select ]
abbrev seg3P : List (HloOp τ sig (Elt F)) :=
  [ unary main_cst_4 main_call1_v0 (id : (⟨S_, .f32⟩ : BufTy).Contents (Elt F) → (⟨S_, .f32⟩ : BufTy).Contents (Elt F)),
    unary main_call1_v0 main_call1_v1 (broadcastInDim S65536 ![] bcast_S_S65536 : (⟨S_, .f32⟩ : BufTy).Contents (Elt F) → (⟨S65536, .f32⟩ : BufTy).Contents (Elt F)),
    ternary main_v13 main_v17 main_call1_v1 main_v18 (select : (⟨S65536, .i1⟩ : BufTy).Contents (Elt F) → (⟨S65536, .f32⟩ : BufTy).Contents (Elt F) → (⟨S65536, .f32⟩ : BufTy).Contents (Elt F) → (⟨S65536, .f32⟩ : BufTy).Contents (Elt F)) ]

abbrev seg4 : List (HloOp τ sig (Elt F)) :=
  [ nullary main_c (constantI S_ 32 0#32),
    unary main_c main_v19 (broadcastInDim S1114112 ![] bcast_S_S1114112 : (⟨S_, .i32⟩ : BufTy).Contents (Elt F) → (⟨S1114112, .i32⟩ : BufTy).Contents (Elt F)),
    binary main_v5 main_v19 main_v20 (cmpi .slt : (⟨S1114112, .i32⟩ : BufTy).Contents (Elt F) → (⟨S1114112, .i32⟩ : BufTy).Contents (Elt F) → (⟨S1114112, .i1⟩ : BufTy).Contents (Elt F)),
    nullary main_c_5 (constantI S_ 32 65536#32),
    unary main_c_5 main_v21 (broadcastInDim S1114112 ![] bcast_S_S1114112 : (⟨S_, .i32⟩ : BufTy).Contents (Elt F) → (⟨S1114112, .i32⟩ : BufTy).Contents (Elt F)),
    binary main_v5 main_v21 main_v22 (addi : (⟨S1114112, .i32⟩ : BufTy).Contents (Elt F) → (⟨S1114112, .i32⟩ : BufTy).Contents (Elt F) → (⟨S1114112, .i32⟩ : BufTy).Contents (Elt F)),
    ternary main_v20 main_v22 main_v5 main_v23 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v23 main_v24 (broadcastInDim S1114112x1 ![0] bcast_S1114112_S1114112x1_0 : (⟨S1114112, .i32⟩ : BufTy).Contents (Elt F) → (⟨S1114112x1, .i32⟩ : BufTy).Contents (Elt F)),
    binary main_v18 main_v24 main_v25 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v25 main_v8 main_v26 (mulf : (⟨S1114112, .f32⟩ : BufTy).Contents (Elt F) → (⟨S1114112, .f32⟩ : BufTy).Contents (Elt F) → (⟨S1114112, .f32⟩ : BufTy).Contents (Elt F)),
    nullary main_c_6 (constantI S_ 32 0#32),
    unary main_c_6 main_v27 (broadcastInDim S1114112 ![] bcast_S_S1114112 : (⟨S_, .i32⟩ : BufTy).Contents (Elt F) → (⟨S1114112, .i32⟩ : BufTy).Contents (Elt F)),
    binary main_v6 main_v27 main_v28 (cmpi .slt : (⟨S1114112, .i32⟩ : BufTy).Contents (Elt F) → (⟨S1114112, .i32⟩ : BufTy).Contents (Elt F) → (⟨S1114112, .i1⟩ : BufTy).Contents (Elt F)),
    nullary main_c_7 (constantI S_ 32 65536#32),
    unary main_c_7 main_v29 (broadcastInDim S1114112 ![] bcast_S_S1114112 : (⟨S_, .i32⟩ : BufTy).Contents (Elt F) → (⟨S1114112, .i32⟩ : BufTy).Contents (Elt F)),
    binary main_v6 main_v29 main_v30 (addi : (⟨S1114112, .i32⟩ : BufTy).Contents (Elt F) → (⟨S1114112, .i32⟩ : BufTy).Contents (Elt F) → (⟨S1114112, .i32⟩ : BufTy).Contents (Elt F)),
    ternary main_v28 main_v30 main_v6 main_v31 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v31 main_v32 (broadcastInDim S1114112x1 ![0] bcast_S1114112_S1114112x1_0 : (⟨S1114112, .i32⟩ : BufTy).Contents (Elt F) → (⟨S1114112x1, .i32⟩ : BufTy).Contents (Elt F)),
    binary main_v18 main_v32 main_v33 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v26 main_v33 main_v34 (mulf : (⟨S1114112, .f32⟩ : BufTy).Contents (Elt F) → (⟨S1114112, .f32⟩ : BufTy).Contents (Elt F) → (⟨S1114112, .f32⟩ : BufTy).Contents (Elt F)),
    binary main_arg0 main_arg2 main_v35 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_v34 main_v36 (broadcastInDim S1114112x1 ![0] bcast_S1114112_S1114112x1_0 : (⟨S1114112, .f32⟩ : BufTy).Contents (Elt F) → (⟨S1114112x1, .f32⟩ : BufTy).Contents (Elt F)),
    nullary main_c_8 (constantI S_ 32 0#32),
    unary main_c_8 main_v37 (broadcastInDim S1114112 ![] bcast_S_S1114112 : (⟨S_, .i32⟩ : BufTy).Contents (Elt F) → (⟨S1114112, .i32⟩ : BufTy).Contents (Elt F)),
    binary main_v5 main_v37 main_v38 (cmpi .slt : (⟨S1114112, .i32⟩ : BufTy).Contents (Elt F) → (⟨S1114112, .i32⟩ : BufTy).Contents (Elt F) → (⟨S1114112, .i1⟩ : BufTy).Contents (Elt F)),
    nullary main_c_9 (constantI S_ 32 65536#32),
    unary main_c_9 main_v39 (broadcastInDim S1114112 ![] bcast_S_S1114112 : (⟨S_, .i32⟩ : BufTy).Contents (Elt F) → (⟨S1114112, .i32⟩ : BufTy).Contents (Elt F)),
    binary main_v5 main_v39 main_v40 (addi : (⟨S1114112, .i32⟩ : BufTy).Contents (Elt F) → (⟨S1114112, .i32⟩ : BufTy).Contents (Elt F) → (⟨S1114112, .i32⟩ : BufTy).Contents (Elt F)),
    ternary main_v38 main_v40 main_v5 main_v41 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v41 main_v42 (broadcastInDim S1114112x1 ![0] bcast_S1114112_S1114112x1_0 : (⟨S1114112, .i32⟩ : BufTy).Contents (Elt F) → (⟨S1114112x1, .i32⟩ : BufTy).Contents (Elt F)),
    binary main_v35 main_v42 main_v43 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v36 main_v44 (broadcastInDim S1114112x64 ![0, 1] bcast_S1114112x1_S1114112x64_0_1 : (⟨S1114112x1, .f32⟩ : BufTy).Contents (Elt F) → (⟨S1114112x64, .f32⟩ : BufTy).Contents (Elt F)),
    binary main_v44 main_v43 main_v45 (mulf : (⟨S1114112x64, .f32⟩ : BufTy).Contents (Elt F) → (⟨S1114112x64, .f32⟩ : BufTy).Contents (Elt F) → (⟨S1114112x64, .f32⟩ : BufTy).Contents (Elt F)),
    nullary main_cst_10 (constant S_ .f32 0x00000000#32),
    unary main_cst_10 main_v46 (broadcastInDim S65536x64 ![] bcast_S_S65536x64 : (⟨S_, .f32⟩ : BufTy).Contents (Elt F) → (⟨S65536x64, .f32⟩ : BufTy).Contents (Elt F)),
    unary main_v6 main_v47 (broadcastInDim S1114112x1 ![0] bcast_S1114112_S1114112x1_0 : (⟨S1114112, .i32⟩ : BufTy).Contents (Elt F) → (⟨S1114112x1, .i32⟩ : BufTy).Contents (Elt F)),
    ternary main_v46 main_v47 main_v45 main_v48 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)),
    unary main_arg3 main_v49 (broadcastInDim S1x64 ![1] bcast_S64_S1x64_1 : (⟨S64, .f32⟩ : BufTy).Contents (Elt F) → (⟨S1x64, .f32⟩ : BufTy).Contents (Elt F)),
    unary main_v49 main_v50 (broadcastInDim S65536x64 ![0, 1] bcast_S1x64_S65536x64_0_1 : (⟨S1x64, .f32⟩ : BufTy).Contents (Elt F) → (⟨S65536x64, .f32⟩ : BufTy).Contents (Elt F)),
    binary main_v48 main_v50 main_v51 (addf : (⟨S65536x64, .f32⟩ : BufTy).Contents (Elt F) → (⟨S65536x64, .f32⟩ : BufTy).Contents (Elt F) → (⟨S65536x64, .f32⟩ : BufTy).Contents (Elt F)) ]

abbrev seg5 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S65536x64, .f32⟩) main_call2_v0) (broadcastInDim S65536x64 ![] bcast_S_S65536x64),
    TRef.binary (TRef.of (T := ⟨S65536x64, .f32⟩) main_v51) (TRef.of (T := ⟨S65536x64, .f32⟩) main_call2_v0) (TRef.of (T := ⟨S65536x64, .f32⟩) main_v52) maximumf ]
abbrev seg5P : List (HloOp τ sig (Elt F)) :=
  [ nullary main_call2_cst (constant S_ .f32 0x00000000#32 : (⟨S_, .f32⟩ : BufTy).Contents (Elt F)),
    unary main_call2_cst main_call2_v0 (broadcastInDim S65536x64 ![] bcast_S_S65536x64 : (⟨S_, .f32⟩ : BufTy).Contents (Elt F) → (⟨S65536x64, .f32⟩ : BufTy).Contents (Elt F)),
    binary main_v51 main_call2_v0 main_v52 (maximumf : (⟨S65536x64, .f32⟩ : BufTy).Contents (Elt F) → (⟨S65536x64, .f32⟩ : BufTy).Contents (Elt F) → (⟨S65536x64, .f32⟩ : BufTy).Contents (Elt F)) ]

abbrev seg6 : List (HloOp τ sig (Elt F)) :=
  [ binary main_v52 main_arg4 main_v53 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    unary main_v34 main_v54 (broadcastInDim S1114112x1 ![0] bcast_S1114112_S1114112x1_0 : (⟨S1114112, .f32⟩ : BufTy).Contents (Elt F) → (⟨S1114112x1, .f32⟩ : BufTy).Contents (Elt F)),
    nullary main_c_11 (constantI S_ 32 0#32),
    unary main_c_11 main_v55 (broadcastInDim S1114112 ![] bcast_S_S1114112 : (⟨S_, .i32⟩ : BufTy).Contents (Elt F) → (⟨S1114112, .i32⟩ : BufTy).Contents (Elt F)),
    binary main_v5 main_v55 main_v56 (cmpi .slt : (⟨S1114112, .i32⟩ : BufTy).Contents (Elt F) → (⟨S1114112, .i32⟩ : BufTy).Contents (Elt F) → (⟨S1114112, .i1⟩ : BufTy).Contents (Elt F)),
    nullary main_c_12 (constantI S_ 32 65536#32),
    unary main_c_12 main_v57 (broadcastInDim S1114112 ![] bcast_S_S1114112 : (⟨S_, .i32⟩ : BufTy).Contents (Elt F) → (⟨S1114112, .i32⟩ : BufTy).Contents (Elt F)),
    binary main_v5 main_v57 main_v58 (addi : (⟨S1114112, .i32⟩ : BufTy).Contents (Elt F) → (⟨S1114112, .i32⟩ : BufTy).Contents (Elt F) → (⟨S1114112, .i32⟩ : BufTy).Contents (Elt F)),
    ternary main_v56 main_v58 main_v5 main_v59 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v59 main_v60 (broadcastInDim S1114112x1 ![0] bcast_S1114112_S1114112x1_0 : (⟨S1114112, .i32⟩ : BufTy).Contents (Elt F) → (⟨S1114112x1, .i32⟩ : BufTy).Contents (Elt F)),
    binary main_v53 main_v60 main_v61 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v54 main_v62 (broadcastInDim S1114112x64 ![0, 1] bcast_S1114112x1_S1114112x64_0_1 : (⟨S1114112x1, .f32⟩ : BufTy).Contents (Elt F) → (⟨S1114112x64, .f32⟩ : BufTy).Contents (Elt F)),
    binary main_v62 main_v61 main_v63 (mulf : (⟨S1114112x64, .f32⟩ : BufTy).Contents (Elt F) → (⟨S1114112x64, .f32⟩ : BufTy).Contents (Elt F) → (⟨S1114112x64, .f32⟩ : BufTy).Contents (Elt F)),
    nullary main_cst_13 (constant S_ .f32 0x00000000#32),
    unary main_cst_13 main_v64 (broadcastInDim S65536x64 ![] bcast_S_S65536x64 : (⟨S_, .f32⟩ : BufTy).Contents (Elt F) → (⟨S65536x64, .f32⟩ : BufTy).Contents (Elt F)),
    unary main_v6 main_v65 (broadcastInDim S1114112x1 ![0] bcast_S1114112_S1114112x1_0 : (⟨S1114112, .i32⟩ : BufTy).Contents (Elt F) → (⟨S1114112x1, .i32⟩ : BufTy).Contents (Elt F)),
    ternary main_v64 main_v65 main_v63 main_v66 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)),
    unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S65536x64 ![0, 1] bcast_S1x64_S65536x64_0_1 : (⟨S1x64, .f32⟩ : BufTy).Contents (Elt F) → (⟨S65536x64, .f32⟩ : BufTy).Contents (Elt F)),
    binary main_v66 main_v68 main_v69 (addf : (⟨S65536x64, .f32⟩ : BufTy).Contents (Elt F) → (⟨S65536x64, .f32⟩ : BufTy).Contents (Elt F) → (⟨S65536x64, .f32⟩ : BufTy).Contents (Elt F)) ]

abbrev seg7 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S65536x64, .f32⟩) main_call3_v0) (broadcastInDim S65536x64 ![] bcast_S_S65536x64),
    TRef.binary (TRef.of (T := ⟨S65536x64, .f32⟩) main_v69) (TRef.of (T := ⟨S65536x64, .f32⟩) main_call3_v0) (TRef.of (T := ⟨S65536x64, .f32⟩) main_v70) maximumf ]
abbrev seg7P : List (HloOp τ sig (Elt F)) :=
  [ nullary main_call3_cst (constant S_ .f32 0x00000000#32 : (⟨S_, .f32⟩ : BufTy).Contents (Elt F)),
    unary main_call3_cst main_call3_v0 (broadcastInDim S65536x64 ![] bcast_S_S65536x64 : (⟨S_, .f32⟩ : BufTy).Contents (Elt F) → (⟨S65536x64, .f32⟩ : BufTy).Contents (Elt F)),
    binary main_v69 main_call3_v0 main_v70 (maximumf : (⟨S65536x64, .f32⟩ : BufTy).Contents (Elt F) → (⟨S65536x64, .f32⟩ : BufTy).Contents (Elt F) → (⟨S65536x64, .f32⟩ : BufTy).Contents (Elt F)) ]

abbrev seg8 : List (HloOp τ sig (Elt F)) :=
  [ binary main_v70 main_arg6 main_v71 ((fun l r => Host.dotGeneral dot_S65536x64_S64x40_S65536x40_1_0_0_1_n_n none l r) : (⟨S65536x64, .f32⟩ : BufTy).Contents (Elt F) → (⟨S64x40, .f32⟩ : BufTy).Contents (Elt F) → (⟨S65536x40, .f32⟩ : BufTy).Contents (Elt F)),
    unary main_arg7 main_v72 (broadcastInDim S1x40 ![1] bcast_S40_S1x40_1 : (⟨S40, .f32⟩ : BufTy).Contents (Elt F) → (⟨S1x40, .f32⟩ : BufTy).Contents (Elt F)),
    unary main_v72 main_v73 (broadcastInDim S65536x40 ![0, 1] bcast_S1x40_S65536x40_0_1 : (⟨S1x40, .f32⟩ : BufTy).Contents (Elt F) → (⟨S65536x40, .f32⟩ : BufTy).Contents (Elt F)),
    binary main_v71 main_v73 main_v74 (addf : (⟨S65536x40, .f32⟩ : BufTy).Contents (Elt F) → (⟨S65536x40, .f32⟩ : BufTy).Contents (Elt F) → (⟨S65536x40, .f32⟩ : BufTy).Contents (Elt F)) ]

abbrev seg9 : List (HloOp τ sig (Elt F)) :=
  [ TRef.nullary (TRef.of (T := ⟨S_, .f32⟩) main_call4_cst) (constant S_ .f32 0xFF800000#32) ]
abbrev seg9P : List (HloOp τ sig (Elt F)) :=
  [ nullary main_call4_cst (constant S_ .f32 0xFF800000#32 : (⟨S_, .f32⟩ : BufTy).Contents (Elt F)) ]

abbrev seg10 : List (HloOp τ sig (Elt F)) :=
  [ TRef.binary (TRef.of (T := ⟨S65536x40, .f32⟩) main_v74) (TRef.of (T := ⟨S_, .f32⟩) main_call4_cst) (TRef.of (T := ⟨S65536, .f32⟩) main_call4_v0) (fun x v => Host.reduce FloatOps.maximumf x v reducesTo_S65536x40_S65536_d1 h_S_) ]
abbrev seg10P : List (HloOp τ sig (Elt F)) :=
  [ binary main_v74 main_call4_cst main_call4_v0 ((fun x v => Host.reduce FloatOps.maximumf x v reducesTo_S65536x40_S65536_d1 h_S_) : (⟨S65536x40, .f32⟩ : BufTy).Contents (Elt F) → (⟨S_, .f32⟩ : BufTy).Contents (Elt F) → (⟨S65536, .f32⟩ : BufTy).Contents (Elt F)) ]

abbrev seg11 : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S65536, .f32⟩) main_call4_v1) (broadcastInDim S65536 ![] bcast_S_S65536),
    TRef.binary (TRef.of (T := ⟨S65536, .f32⟩) main_call4_v1) (TRef.of (T := ⟨S65536, .f32⟩) main_call4_v0) (TRef.of (T := ⟨S65536, .f32⟩) main_call4_v2) maximumf,
    TRef.unary (TRef.of (T := ⟨S65536, .f32⟩) main_call4_v2) (TRef.of (T := ⟨S65536x1, .f32⟩) main_call4_v3) (broadcastInDim S65536x1 ![0] bcast_S65536_S65536x1_0),
    TRef.unary (TRef.of (T := ⟨S65536x1, .f32⟩) main_call4_v3) (TRef.of (T := ⟨S65536x40, .f32⟩) main_call4_v4) (broadcastInDim S65536x40 ![0, 1] bcast_S65536x1_S65536x40_0_1),
    TRef.binary (TRef.of (T := ⟨S65536x40, .f32⟩) main_v74) (TRef.of (T := ⟨S65536x40, .f32⟩) main_call4_v4) (TRef.of (T := ⟨S65536x40, .f32⟩) main_call4_v5) subf,
    TRef.unary (TRef.of (T := ⟨S65536x40, .f32⟩) main_call4_v5) (TRef.of (T := ⟨S65536x40, .f32⟩) main_call4_v6) Host.exp,
    TRef.nullary (TRef.of (T := ⟨S_, .f32⟩) main_call4_cst_1) (constant S_ .f32 0x00000000#32) ]
abbrev seg11P : List (HloOp τ sig (Elt F)) :=
  [ nullary main_call4_cst_0 (constant S_ .f32 0xFF800000#32 : (⟨S_, .f32⟩ : BufTy).Contents (Elt F)),
    unary main_call4_cst_0 main_call4_v1 (broadcastInDim S65536 ![] bcast_S_S65536 : (⟨S_, .f32⟩ : BufTy).Contents (Elt F) → (⟨S65536, .f32⟩ : BufTy).Contents (Elt F)),
    binary main_call4_v1 main_call4_v0 main_call4_v2 (maximumf : (⟨S65536, .f32⟩ : BufTy).Contents (Elt F) → (⟨S65536, .f32⟩ : BufTy).Contents (Elt F) → (⟨S65536, .f32⟩ : BufTy).Contents (Elt F)),
    unary main_call4_v2 main_call4_v3 (broadcastInDim S65536x1 ![0] bcast_S65536_S65536x1_0 : (⟨S65536, .f32⟩ : BufTy).Contents (Elt F) → (⟨S65536x1, .f32⟩ : BufTy).Contents (Elt F)),
    unary main_call4_v3 main_call4_v4 (broadcastInDim S65536x40 ![0, 1] bcast_S65536x1_S65536x40_0_1 : (⟨S65536x1, .f32⟩ : BufTy).Contents (Elt F) → (⟨S65536x40, .f32⟩ : BufTy).Contents (Elt F)),
    binary main_v74 main_call4_v4 main_call4_v5 (subf : (⟨S65536x40, .f32⟩ : BufTy).Contents (Elt F) → (⟨S65536x40, .f32⟩ : BufTy).Contents (Elt F) → (⟨S65536x40, .f32⟩ : BufTy).Contents (Elt F)),
    unary main_call4_v5 main_call4_v6 (Host.exp : (⟨S65536x40, .f32⟩ : BufTy).Contents (Elt F) → (⟨S65536x40, .f32⟩ : BufTy).Contents (Elt F)),
    nullary main_call4_cst_1 (constant S_ .f32 0x00000000#32 : (⟨S_, .f32⟩ : BufTy).Contents (Elt F)) ]

abbrev seg12 : List (HloOp τ sig (Elt F)) :=
  [ TRef.binary (TRef.of (T := ⟨S65536x40, .f32⟩) main_call4_v6) (TRef.of (T := ⟨S_, .f32⟩) main_call4_cst_1) (TRef.of (T := ⟨S65536, .f32⟩) main_call4_v7) (fun x v => Host.reduceAdd x v reducesTo_S65536x40_S65536_d1 h_S_) ]
abbrev seg12P : List (HloOp τ sig (Elt F)) :=
  [ binary main_call4_v6 main_call4_cst_1 main_call4_v7 ((fun x v => Host.reduceAdd x v reducesTo_S65536x40_S65536_d1 h_S_) : (⟨S65536x40, .f32⟩ : BufTy).Contents (Elt F) → (⟨S_, .f32⟩ : BufTy).Contents (Elt F) → (⟨S65536, .f32⟩ : BufTy).Contents (Elt F)) ]

abbrev seg13 : List (HloOp τ sig (Elt F)) :=
  [ TRef.unary (TRef.of (T := ⟨S65536, .f32⟩) main_call4_v7) (TRef.of (T := ⟨S65536x1, .f32⟩) main_call4_v8) (broadcastInDim S65536x1 ![0] bcast_S65536_S65536x1_0),
    TRef.unary (TRef.of (T := ⟨S65536x1, .f32⟩) main_call4_v8) (TRef.of (T := ⟨S65536x1, .f32⟩) main_call4_v9) Host.log,
    TRef.unary (TRef.of (T := ⟨S65536x1, .f32⟩) main_call4_v9) (TRef.of (T := ⟨S65536x40, .f32⟩) main_call4_v10) (broadcastInDim S65536x40 ![0, 1] bcast_S65536x1_S65536x40_0_1),
    TRef.binary (TRef.of (T := ⟨S65536x40, .f32⟩) main_call4_v5) (TRef.of (T := ⟨S65536x40, .f32⟩) main_call4_v10) (TRef.of (T := ⟨S65536x40, .f32⟩) main_v75) subf ]
abbrev seg13P : List (HloOp τ sig (Elt F)) :=
  [ unary main_call4_v7 main_call4_v8 (broadcastInDim S65536x1 ![0] bcast_S65536_S65536x1_0 : (⟨S65536, .f32⟩ : BufTy).Contents (Elt F) → (⟨S65536x1, .f32⟩ : BufTy).Contents (Elt F)),
    unary main_call4_v8 main_call4_v9 (Host.log : (⟨S65536x1, .f32⟩ : BufTy).Contents (Elt F) → (⟨S65536x1, .f32⟩ : BufTy).Contents (Elt F)),
    unary main_call4_v9 main_call4_v10 (broadcastInDim S65536x40 ![0, 1] bcast_S65536x1_S65536x40_0_1 : (⟨S65536x1, .f32⟩ : BufTy).Contents (Elt F) → (⟨S65536x40, .f32⟩ : BufTy).Contents (Elt F)),
    binary main_call4_v5 main_call4_v10 main_v75 (subf : (⟨S65536x40, .f32⟩ : BufTy).Contents (Elt F) → (⟨S65536x40, .f32⟩ : BufTy).Contents (Elt F) → (⟨S65536x40, .f32⟩ : BufTy).Contents (Elt F)) ]

set_option maxRecDepth 65536 in
/-- The program's list is its pieces in order. -/
theorem ops_pieces : (ops : List (HloOp τ sig (Elt F))) = seg0 ++ seg1 ++ seg2 ++ seg3 ++ seg4 ++ seg5 ++ seg6 ++ seg7 ++ seg8 ++ seg9 ++ seg10 ++ seg11 ++ seg12 ++ seg13 := rfl

/-- A two-operand operation of the row-maximum's shape over typed references to literal buffers is the plain one, whatever
    its function. -/
theorem rowMax_op_plain (g : (⟨S65536x40, .f32⟩ : BufTy).Contents (Elt F) → (⟨S_, .f32⟩ : BufTy).Contents (Elt F) → (⟨S65536, .f32⟩ : BufTy).Contents (Elt F)) :
    (TRef.binary (TRef.of (T := ⟨S65536x40, .f32⟩) main_v74) (TRef.of (T := ⟨S_, .f32⟩) main_call4_cst) (TRef.of (T := ⟨S65536, .f32⟩) main_call4_v0) g : HloOp τ sig (Elt F))
      = binary main_v74 main_call4_cst main_call4_v0 g := rfl

/-- The same for the row sum. -/
theorem rowSum_op_plain (g : (⟨S65536x40, .f32⟩ : BufTy).Contents (Elt F) → (⟨S_, .f32⟩ : BufTy).Contents (Elt F) → (⟨S65536, .f32⟩ : BufTy).Contents (Elt F)) :
    (TRef.binary (TRef.of (T := ⟨S65536x40, .f32⟩) main_call4_v6) (TRef.of (T := ⟨S_, .f32⟩) main_call4_cst_1) (TRef.of (T := ⟨S65536, .f32⟩) main_call4_v7) g : HloOp τ sig (Elt F))
      = binary main_call4_v6 main_call4_cst_1 main_call4_v7 g := rfl
theorem seg1_plain : (seg1 : List (HloOp τ sig (Elt F))) = seg1P := rfl
theorem seg3_plain : (seg3 : List (HloOp τ sig (Elt F))) = seg3P := rfl
theorem seg5_plain : (seg5 : List (HloOp τ sig (Elt F))) = seg5P := rfl
theorem seg7_plain : (seg7 : List (HloOp τ sig (Elt F))) = seg7P := rfl
theorem seg9_plain : (seg9 : List (HloOp τ sig (Elt F))) = seg9P := rfl
theorem seg10_plain : (seg10 : List (HloOp τ sig (Elt F))) = seg10P := congrArg (fun op => [op]) (rowMax_op_plain (fun x v => Host.reduce FloatOps.maximumf x v reducesTo_S65536x40_S65536_d1 h_S_))
theorem seg11_plain : (seg11 : List (HloOp τ sig (Elt F))) = seg11P := rfl
theorem seg12_plain : (seg12 : List (HloOp τ sig (Elt F))) = seg12P := congrArg (fun op => [op]) (rowSum_op_plain (fun x v => Host.reduceAdd x v reducesTo_S65536x40_S65536_d1 h_S_))
theorem seg13_plain : (seg13 : List (HloOp τ sig (Elt F))) = seg13P := rfl

/-! ## The same list in nine stages -/

abbrev stA : List (HloOp τ sig (Elt F)) :=
  [ unary main_arg8 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg8 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    nullary main_v4 (iotaInDim S65536 32 0),
    binary main_v1 main_v4 main_v5 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    binary main_v3 main_v4 main_v6 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    nullary main_cst (constant S_ .f32 0x3F800000#32),
    unary main_cst main_v7 (broadcastInDim S65536 ![] bcast_S_S65536 : (⟨S_, .f32⟩ : BufTy).Contents (Elt F) → (⟨S65536, .f32⟩ : BufTy).Contents (Elt F)),
    binary main_arg1 main_v7 main_v8 ((fun a b => concatenate S1114112 0 [⟨S1048576, a⟩, ⟨S65536, b⟩] concatenates_S1048576_S65536_S1114112_d0) : (⟨S1048576, .f32⟩ : BufTy).Contents (Elt F) → (⟨S65536, .f32⟩ : BufTy).Contents (Elt F) → (⟨S1114112, .f32⟩ : BufTy).Contents (Elt F)),
    nullary main_cst_0 (constant S_ .f32 0x00000000#32),
    unary main_cst_0 main_v9 (broadcastInDim S65536 ![] bcast_S_S65536 : (⟨S_, .f32⟩ : BufTy).Contents (Elt F) → (⟨S65536, .f32⟩ : BufTy).Contents (Elt F)),
    unary main_v6 main_v10 (broadcastInDim S1114112x1 ![0] bcast_S1114112_S1114112x1_0 : (⟨S1114112, .i32⟩ : BufTy).Contents (Elt F) → (⟨S1114112x1, .i32⟩ : BufTy).Contents (Elt F)),
    ternary main_v9 main_v10 main_v8 main_v11 ((fun x i u => Host.scatterAdd scatter_S65536_S1114112x1_S1114112_n_0_0_1 x i u) : (⟨S65536, .f32⟩ : BufTy).Contents (Elt F) → (⟨S1114112x1, .i32⟩ : BufTy).Contents (Elt F) → (⟨S1114112, .f32⟩ : BufTy).Contents (Elt F) → (⟨S65536, .f32⟩ : BufTy).Contents (Elt F)),
    nullary main_cst_1 (constant S_ .f32 0x00000000#32),
    unary main_cst_1 main_v12 (broadcastInDim S65536 ![] bcast_S_S65536 : (⟨S_, .f32⟩ : BufTy).Contents (Elt F) → (⟨S65536, .f32⟩ : BufTy).Contents (Elt F)),
    binary main_v11 main_v12 main_v13 (cmpf .ogt : (⟨S65536, .f32⟩ : BufTy).Contents (Elt F) → (⟨S65536, .f32⟩ : BufTy).Contents (Elt F) → (⟨S65536, .i1⟩ : BufTy).Contents (Elt F)),
    nullary main_cst_2 (constant S_ .f32 0x00000000#32),
    unary main_cst_2 main_v14 (broadcastInDim S65536 ![] bcast_S_S65536 : (⟨S_, .f32⟩ : BufTy).Contents (Elt F) → (⟨S65536, .f32⟩ : BufTy).Contents (Elt F)),
    binary main_v11 main_v14 main_v15 (cmpf .ogt : (⟨S65536, .f32⟩ : BufTy).Contents (Elt F) → (⟨S65536, .f32⟩ : BufTy).Contents (Elt F) → (⟨S65536, .i1⟩ : BufTy).Contents (Elt F)),
    nullary main_cst_3 (constant S_ .f32 0x3F800000#32),
    unary main_cst_3 main_call0_v0 (id : (⟨S_, .f32⟩ : BufTy).Contents (Elt F) → (⟨S_, .f32⟩ : BufTy).Contents (Elt F)),
    unary main_call0_v0 main_call0_v1 (broadcastInDim S65536 ![] bcast_S_S65536 : (⟨S_, .f32⟩ : BufTy).Contents (Elt F) → (⟨S65536, .f32⟩ : BufTy).Contents (Elt F)),
    ternary main_v15 main_v11 main_call0_v1 main_v16 (select : (⟨S65536, .i1⟩ : BufTy).Contents (Elt F) → (⟨S65536, .f32⟩ : BufTy).Contents (Elt F) → (⟨S65536, .f32⟩ : BufTy).Contents (Elt F) → (⟨S65536, .f32⟩ : BufTy).Contents (Elt F)),
    unary main_v16 main_v17 (Host.rsqrt : (⟨S65536, .f32⟩ : BufTy).Contents (Elt F) → (⟨S65536, .f32⟩ : BufTy).Contents (Elt F)),
    nullary main_cst_4 (constant S_ .f32 0x00000000#32),
    unary main_cst_4 main_call1_v0 (id : (⟨S_, .f32⟩ : BufTy).Contents (Elt F) → (⟨S_, .f32⟩ : BufTy).Contents (Elt F)),
    unary main_call1_v0 main_call1_v1 (broadcastInDim S65536 ![] bcast_S_S65536 : (⟨S_, .f32⟩ : BufTy).Contents (Elt F) → (⟨S65536, .f32⟩ : BufTy).Contents (Elt F)),
    ternary main_v13 main_v17 main_call1_v1 main_v18 (select : (⟨S65536, .i1⟩ : BufTy).Contents (Elt F) → (⟨S65536, .f32⟩ : BufTy).Contents (Elt F) → (⟨S65536, .f32⟩ : BufTy).Contents (Elt F) → (⟨S65536, .f32⟩ : BufTy).Contents (Elt F)),
    nullary main_c (constantI S_ 32 0#32),
    unary main_c main_v19 (broadcastInDim S1114112 ![] bcast_S_S1114112 : (⟨S_, .i32⟩ : BufTy).Contents (Elt F) → (⟨S1114112, .i32⟩ : BufTy).Contents (Elt F)),
    binary main_v5 main_v19 main_v20 (cmpi .slt : (⟨S1114112, .i32⟩ : BufTy).Contents (Elt F) → (⟨S1114112, .i32⟩ : BufTy).Contents (Elt F) → (⟨S1114112, .i1⟩ : BufTy).Contents (Elt F)),
    nullary main_c_5 (constantI S_ 32 65536#32),
    unary main_c_5 main_v21 (broadcastInDim S1114112 ![] bcast_S_S1114112 : (⟨S_, .i32⟩ : BufTy).Contents (Elt F) → (⟨S1114112, .i32⟩ : BufTy).Contents (Elt F)),
    binary main_v5 main_v21 main_v22 (addi : (⟨S1114112, .i32⟩ : BufTy).Contents (Elt F) → (⟨S1114112, .i32⟩ : BufTy).Contents (Elt F) → (⟨S1114112, .i32⟩ : BufTy).Contents (Elt F)),
    ternary main_v20 main_v22 main_v5 main_v23 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v23 main_v24 (broadcastInDim S1114112x1 ![0] bcast_S1114112_S1114112x1_0 : (⟨S1114112, .i32⟩ : BufTy).Contents (Elt F) → (⟨S1114112x1, .i32⟩ : BufTy).Contents (Elt F)),
    binary main_v18 main_v24 main_v25 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v25 main_v8 main_v26 (mulf : (⟨S1114112, .f32⟩ : BufTy).Contents (Elt F) → (⟨S1114112, .f32⟩ : BufTy).Contents (Elt F) → (⟨S1114112, .f32⟩ : BufTy).Contents (Elt F)),
    nullary main_c_6 (constantI S_ 32 0#32),
    unary main_c_6 main_v27 (broadcastInDim S1114112 ![] bcast_S_S1114112 : (⟨S_, .i32⟩ : BufTy).Contents (Elt F) → (⟨S1114112, .i32⟩ : BufTy).Contents (Elt F)),
    binary main_v6 main_v27 main_v28 (cmpi .slt : (⟨S1114112, .i32⟩ : BufTy).Contents (Elt F) → (⟨S1114112, .i32⟩ : BufTy).Contents (Elt F) → (⟨S1114112, .i1⟩ : BufTy).Contents (Elt F)),
    nullary main_c_7 (constantI S_ 32 65536#32),
    unary main_c_7 main_v29 (broadcastInDim S1114112 ![] bcast_S_S1114112 : (⟨S_, .i32⟩ : BufTy).Contents (Elt F) → (⟨S1114112, .i32⟩ : BufTy).Contents (Elt F)),
    binary main_v6 main_v29 main_v30 (addi : (⟨S1114112, .i32⟩ : BufTy).Contents (Elt F) → (⟨S1114112, .i32⟩ : BufTy).Contents (Elt F) → (⟨S1114112, .i32⟩ : BufTy).Contents (Elt F)),
    ternary main_v28 main_v30 main_v6 main_v31 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v31 main_v32 (broadcastInDim S1114112x1 ![0] bcast_S1114112_S1114112x1_0 : (⟨S1114112, .i32⟩ : BufTy).Contents (Elt F) → (⟨S1114112x1, .i32⟩ : BufTy).Contents (Elt F)),
    binary main_v18 main_v32 main_v33 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v26 main_v33 main_v34 (mulf : (⟨S1114112, .f32⟩ : BufTy).Contents (Elt F) → (⟨S1114112, .f32⟩ : BufTy).Contents (Elt F) → (⟨S1114112, .f32⟩ : BufTy).Contents (Elt F)) ]

abbrev stB : List (HloOp τ sig (Elt F)) :=
  [ binary main_arg0 main_arg2 main_v35 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)) ]

abbrev stC : List (HloOp τ sig (Elt F)) :=
  [ unary main_v34 main_v36 (broadcastInDim S1114112x1 ![0] bcast_S1114112_S1114112x1_0 : (⟨S1114112, .f32⟩ : BufTy).Contents (Elt F) → (⟨S1114112x1, .f32⟩ : BufTy).Contents (Elt F)),
    nullary main_c_8 (constantI S_ 32 0#32),
    unary main_c_8 main_v37 (broadcastInDim S1114112 ![] bcast_S_S1114112 : (⟨S_, .i32⟩ : BufTy).Contents (Elt F) → (⟨S1114112, .i32⟩ : BufTy).Contents (Elt F)),
    binary main_v5 main_v37 main_v38 (cmpi .slt : (⟨S1114112, .i32⟩ : BufTy).Contents (Elt F) → (⟨S1114112, .i32⟩ : BufTy).Contents (Elt F) → (⟨S1114112, .i1⟩ : BufTy).Contents (Elt F)),
    nullary main_c_9 (constantI S_ 32 65536#32),
    unary main_c_9 main_v39 (broadcastInDim S1114112 ![] bcast_S_S1114112 : (⟨S_, .i32⟩ : BufTy).Contents (Elt F) → (⟨S1114112, .i32⟩ : BufTy).Contents (Elt F)),
    binary main_v5 main_v39 main_v40 (addi : (⟨S1114112, .i32⟩ : BufTy).Contents (Elt F) → (⟨S1114112, .i32⟩ : BufTy).Contents (Elt F) → (⟨S1114112, .i32⟩ : BufTy).Contents (Elt F)),
    ternary main_v38 main_v40 main_v5 main_v41 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v41 main_v42 (broadcastInDim S1114112x1 ![0] bcast_S1114112_S1114112x1_0 : (⟨S1114112, .i32⟩ : BufTy).Contents (Elt F) → (⟨S1114112x1, .i32⟩ : BufTy).Contents (Elt F)),
    binary main_v35 main_v42 main_v43 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v36 main_v44 (broadcastInDim S1114112x64 ![0, 1] bcast_S1114112x1_S1114112x64_0_1 : (⟨S1114112x1, .f32⟩ : BufTy).Contents (Elt F) → (⟨S1114112x64, .f32⟩ : BufTy).Contents (Elt F)),
    binary main_v44 main_v43 main_v45 (mulf : (⟨S1114112x64, .f32⟩ : BufTy).Contents (Elt F) → (⟨S1114112x64, .f32⟩ : BufTy).Contents (Elt F) → (⟨S1114112x64, .f32⟩ : BufTy).Contents (Elt F)),
    nullary main_cst_10 (constant S_ .f32 0x00000000#32),
    unary main_cst_10 main_v46 (broadcastInDim S65536x64 ![] bcast_S_S65536x64 : (⟨S_, .f32⟩ : BufTy).Contents (Elt F) → (⟨S65536x64, .f32⟩ : BufTy).Contents (Elt F)),
    unary main_v6 main_v47 (broadcastInDim S1114112x1 ![0] bcast_S1114112_S1114112x1_0 : (⟨S1114112, .i32⟩ : BufTy).Contents (Elt F) → (⟨S1114112x1, .i32⟩ : BufTy).Contents (Elt F)),
    ternary main_v46 main_v47 main_v45 main_v48 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)) ]

abbrev stD : List (HloOp τ sig (Elt F)) :=
  [ unary main_arg3 main_v49 (broadcastInDim S1x64 ![1] bcast_S64_S1x64_1 : (⟨S64, .f32⟩ : BufTy).Contents (Elt F) → (⟨S1x64, .f32⟩ : BufTy).Contents (Elt F)),
    unary main_v49 main_v50 (broadcastInDim S65536x64 ![0, 1] bcast_S1x64_S65536x64_0_1 : (⟨S1x64, .f32⟩ : BufTy).Contents (Elt F) → (⟨S65536x64, .f32⟩ : BufTy).Contents (Elt F)),
    binary main_v48 main_v50 main_v51 (addf : (⟨S65536x64, .f32⟩ : BufTy).Contents (Elt F) → (⟨S65536x64, .f32⟩ : BufTy).Contents (Elt F) → (⟨S65536x64, .f32⟩ : BufTy).Contents (Elt F)),
    nullary main_call2_cst (constant S_ .f32 0x00000000#32 : (⟨S_, .f32⟩ : BufTy).Contents (Elt F)),
    unary main_call2_cst main_call2_v0 (broadcastInDim S65536x64 ![] bcast_S_S65536x64 : (⟨S_, .f32⟩ : BufTy).Contents (Elt F) → (⟨S65536x64, .f32⟩ : BufTy).Contents (Elt F)),
    binary main_v51 main_call2_v0 main_v52 (maximumf : (⟨S65536x64, .f32⟩ : BufTy).Contents (Elt F) → (⟨S65536x64, .f32⟩ : BufTy).Contents (Elt F) → (⟨S65536x64, .f32⟩ : BufTy).Contents (Elt F)) ]

abbrev stE : List (HloOp τ sig (Elt F)) :=
  [ binary main_v52 main_arg4 main_v53 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ]

abbrev stF : List (HloOp τ sig (Elt F)) :=
  [ unary main_v34 main_v54 (broadcastInDim S1114112x1 ![0] bcast_S1114112_S1114112x1_0 : (⟨S1114112, .f32⟩ : BufTy).Contents (Elt F) → (⟨S1114112x1, .f32⟩ : BufTy).Contents (Elt F)),
    nullary main_c_11 (constantI S_ 32 0#32),
    unary main_c_11 main_v55 (broadcastInDim S1114112 ![] bcast_S_S1114112 : (⟨S_, .i32⟩ : BufTy).Contents (Elt F) → (⟨S1114112, .i32⟩ : BufTy).Contents (Elt F)),
    binary main_v5 main_v55 main_v56 (cmpi .slt : (⟨S1114112, .i32⟩ : BufTy).Contents (Elt F) → (⟨S1114112, .i32⟩ : BufTy).Contents (Elt F) → (⟨S1114112, .i1⟩ : BufTy).Contents (Elt F)),
    nullary main_c_12 (constantI S_ 32 65536#32),
    unary main_c_12 main_v57 (broadcastInDim S1114112 ![] bcast_S_S1114112 : (⟨S_, .i32⟩ : BufTy).Contents (Elt F) → (⟨S1114112, .i32⟩ : BufTy).Contents (Elt F)),
    binary main_v5 main_v57 main_v58 (addi : (⟨S1114112, .i32⟩ : BufTy).Contents (Elt F) → (⟨S1114112, .i32⟩ : BufTy).Contents (Elt F) → (⟨S1114112, .i32⟩ : BufTy).Contents (Elt F)),
    ternary main_v56 main_v58 main_v5 main_v59 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v59 main_v60 (broadcastInDim S1114112x1 ![0] bcast_S1114112_S1114112x1_0 : (⟨S1114112, .i32⟩ : BufTy).Contents (Elt F) → (⟨S1114112x1, .i32⟩ : BufTy).Contents (Elt F)),
    binary main_v53 main_v60 main_v61 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v54 main_v62 (broadcastInDim S1114112x64 ![0, 1] bcast_S1114112x1_S1114112x64_0_1 : (⟨S1114112x1, .f32⟩ : BufTy).Contents (Elt F) → (⟨S1114112x64, .f32⟩ : BufTy).Contents (Elt F)),
    binary main_v62 main_v61 main_v63 (mulf : (⟨S1114112x64, .f32⟩ : BufTy).Contents (Elt F) → (⟨S1114112x64, .f32⟩ : BufTy).Contents (Elt F) → (⟨S1114112x64, .f32⟩ : BufTy).Contents (Elt F)),
    nullary main_cst_13 (constant S_ .f32 0x00000000#32),
    unary main_cst_13 main_v64 (broadcastInDim S65536x64 ![] bcast_S_S65536x64 : (⟨S_, .f32⟩ : BufTy).Contents (Elt F) → (⟨S65536x64, .f32⟩ : BufTy).Contents (Elt F)),
    unary main_v6 main_v65 (broadcastInDim S1114112x1 ![0] bcast_S1114112_S1114112x1_0 : (⟨S1114112, .i32⟩ : BufTy).Contents (Elt F) → (⟨S1114112x1, .i32⟩ : BufTy).Contents (Elt F)),
    ternary main_v64 main_v65 main_v63 main_v66 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)) ]

abbrev stG : List (HloOp τ sig (Elt F)) :=
  [ unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S65536x64 ![0, 1] bcast_S1x64_S65536x64_0_1 : (⟨S1x64, .f32⟩ : BufTy).Contents (Elt F) → (⟨S65536x64, .f32⟩ : BufTy).Contents (Elt F)),
    binary main_v66 main_v68 main_v69 (addf : (⟨S65536x64, .f32⟩ : BufTy).Contents (Elt F) → (⟨S65536x64, .f32⟩ : BufTy).Contents (Elt F) → (⟨S65536x64, .f32⟩ : BufTy).Contents (Elt F)),
    nullary main_call3_cst (constant S_ .f32 0x00000000#32 : (⟨S_, .f32⟩ : BufTy).Contents (Elt F)),
    unary main_call3_cst main_call3_v0 (broadcastInDim S65536x64 ![] bcast_S_S65536x64 : (⟨S_, .f32⟩ : BufTy).Contents (Elt F) → (⟨S65536x64, .f32⟩ : BufTy).Contents (Elt F)),
    binary main_v69 main_call3_v0 main_v70 (maximumf : (⟨S65536x64, .f32⟩ : BufTy).Contents (Elt F) → (⟨S65536x64, .f32⟩ : BufTy).Contents (Elt F) → (⟨S65536x64, .f32⟩ : BufTy).Contents (Elt F)) ]

abbrev stH : List (HloOp τ sig (Elt F)) :=
  [ binary main_v70 main_arg6 main_v71 ((fun l r => Host.dotGeneral dot_S65536x64_S64x40_S65536x40_1_0_0_1_n_n none l r) : (⟨S65536x64, .f32⟩ : BufTy).Contents (Elt F) → (⟨S64x40, .f32⟩ : BufTy).Contents (Elt F) → (⟨S65536x40, .f32⟩ : BufTy).Contents (Elt F)),
    unary main_arg7 main_v72 (broadcastInDim S1x40 ![1] bcast_S40_S1x40_1 : (⟨S40, .f32⟩ : BufTy).Contents (Elt F) → (⟨S1x40, .f32⟩ : BufTy).Contents (Elt F)),
    unary main_v72 main_v73 (broadcastInDim S65536x40 ![0, 1] bcast_S1x40_S65536x40_0_1 : (⟨S1x40, .f32⟩ : BufTy).Contents (Elt F) → (⟨S65536x40, .f32⟩ : BufTy).Contents (Elt F)),
    binary main_v71 main_v73 main_v74 (addf : (⟨S65536x40, .f32⟩ : BufTy).Contents (Elt F) → (⟨S65536x40, .f32⟩ : BufTy).Contents (Elt F) → (⟨S65536x40, .f32⟩ : BufTy).Contents (Elt F)) ]

abbrev stI : List (HloOp τ sig (Elt F)) :=
  [ nullary main_call4_cst (constant S_ .f32 0xFF800000#32 : (⟨S_, .f32⟩ : BufTy).Contents (Elt F)),
    binary main_v74 main_call4_cst main_call4_v0 ((fun x v => Host.reduce FloatOps.maximumf x v reducesTo_S65536x40_S65536_d1 h_S_) : (⟨S65536x40, .f32⟩ : BufTy).Contents (Elt F) → (⟨S_, .f32⟩ : BufTy).Contents (Elt F) → (⟨S65536, .f32⟩ : BufTy).Contents (Elt F)),
    nullary main_call4_cst_0 (constant S_ .f32 0xFF800000#32 : (⟨S_, .f32⟩ : BufTy).Contents (Elt F)),
    unary main_call4_cst_0 main_call4_v1 (broadcastInDim S65536 ![] bcast_S_S65536 : (⟨S_, .f32⟩ : BufTy).Contents (Elt F) → (⟨S65536, .f32⟩ : BufTy).Contents (Elt F)),
    binary main_call4_v1 main_call4_v0 main_call4_v2 (maximumf : (⟨S65536, .f32⟩ : BufTy).Contents (Elt F) → (⟨S65536, .f32⟩ : BufTy).Contents (Elt F) → (⟨S65536, .f32⟩ : BufTy).Contents (Elt F)),
    unary main_call4_v2 main_call4_v3 (broadcastInDim S65536x1 ![0] bcast_S65536_S65536x1_0 : (⟨S65536, .f32⟩ : BufTy).Contents (Elt F) → (⟨S65536x1, .f32⟩ : BufTy).Contents (Elt F)),
    unary main_call4_v3 main_call4_v4 (broadcastInDim S65536x40 ![0, 1] bcast_S65536x1_S65536x40_0_1 : (⟨S65536x1, .f32⟩ : BufTy).Contents (Elt F) → (⟨S65536x40, .f32⟩ : BufTy).Contents (Elt F)),
    binary main_v74 main_call4_v4 main_call4_v5 (subf : (⟨S65536x40, .f32⟩ : BufTy).Contents (Elt F) → (⟨S65536x40, .f32⟩ : BufTy).Contents (Elt F) → (⟨S65536x40, .f32⟩ : BufTy).Contents (Elt F)),
    unary main_call4_v5 main_call4_v6 (Host.exp : (⟨S65536x40, .f32⟩ : BufTy).Contents (Elt F) → (⟨S65536x40, .f32⟩ : BufTy).Contents (Elt F)),
    nullary main_call4_cst_1 (constant S_ .f32 0x00000000#32 : (⟨S_, .f32⟩ : BufTy).Contents (Elt F)),
    binary main_call4_v6 main_call4_cst_1 main_call4_v7 ((fun x v => Host.reduceAdd x v reducesTo_S65536x40_S65536_d1 h_S_) : (⟨S65536x40, .f32⟩ : BufTy).Contents (Elt F) → (⟨S_, .f32⟩ : BufTy).Contents (Elt F) → (⟨S65536, .f32⟩ : BufTy).Contents (Elt F)),
    unary main_call4_v7 main_call4_v8 (broadcastInDim S65536x1 ![0] bcast_S65536_S65536x1_0 : (⟨S65536, .f32⟩ : BufTy).Contents (Elt F) → (⟨S65536x1, .f32⟩ : BufTy).Contents (Elt F)),
    unary main_call4_v8 main_call4_v9 (Host.log : (⟨S65536x1, .f32⟩ : BufTy).Contents (Elt F) → (⟨S65536x1, .f32⟩ : BufTy).Contents (Elt F)),
    unary main_call4_v9 main_call4_v10 (broadcastInDim S65536x40 ![0, 1] bcast_S65536x1_S65536x40_0_1 : (⟨S65536x1, .f32⟩ : BufTy).Contents (Elt F) → (⟨S65536x40, .f32⟩ : BufTy).Contents (Elt F)),
    binary main_call4_v5 main_call4_v10 main_v75 (subf : (⟨S65536x40, .f32⟩ : BufTy).Contents (Elt F) → (⟨S65536x40, .f32⟩ : BufTy).Contents (Elt F) → (⟨S65536x40, .f32⟩ : BufTy).Contents (Elt F)) ]

set_option maxRecDepth 65536 in
set_option maxHeartbeats 16000000 in
/-- The pieces, each over the buffers themselves, regrouped into the nine stages. -/
theorem pieces_stages : (seg0 ++ seg1P ++ seg2 ++ seg3P ++ seg4 ++ seg5P ++ seg6 ++ seg7P ++ seg8 ++ seg9P ++ seg10P ++ seg11P ++ seg12P ++ seg13P : List (HloOp τ sig (Elt F))) = stA ++ stB ++ stC ++ stD ++ stE ++ stF ++ stG ++ stH ++ stI := rfl

/-- The program's list is the nine stages in order. -/
theorem ops_stages : (ops : List (HloOp τ sig (Elt F))) = stA ++ stB ++ stC ++ stD ++ stE ++ stF ++ stG ++ stH ++ stI := by
  rw [ops_pieces, seg1_plain, seg3_plain, seg5_plain, seg7_plain, seg9_plain, seg10_plain, seg11_plain, seg12_plain, seg13_plain]
  exact pieces_stages

/-! ## Each stage, from any contents -/

set_option maxRecDepth 65536
set_option maxHeartbeats 16000000

/-- The edge arrays, from the edge index and the edge weights; the other arguments are not written. -/
theorem stageA (V : Valuation τ sig (Elt F)) :
    after (stA (F := F)) V (Proc.devRef .tc main_v34) = Cert.Gcn.edgeNorm (F := F) (V (Proc.devRef .tc main_arg1)) (V (Proc.devRef .tc main_arg8))
    ∧ after (stA (F := F)) V (Proc.devRef .tc main_v5) = Cert.Gcn.sources (F := F) (V (Proc.devRef .tc main_arg8))
    ∧ after (stA (F := F)) V (Proc.devRef .tc main_v6) = Cert.Gcn.targets (F := F) (V (Proc.devRef .tc main_arg8))
    ∧ after (stA (F := F)) V (Proc.devRef .tc main_arg0) = V (Proc.devRef .tc main_arg0)
    ∧ after (stA (F := F)) V (Proc.devRef .tc main_arg2) = V (Proc.devRef .tc main_arg2)
    ∧ after (stA (F := F)) V (Proc.devRef .tc main_arg3) = V (Proc.devRef .tc main_arg3)
    ∧ after (stA (F := F)) V (Proc.devRef .tc main_arg4) = V (Proc.devRef .tc main_arg4)
    ∧ after (stA (F := F)) V (Proc.devRef .tc main_arg5) = V (Proc.devRef .tc main_arg5)
    ∧ after (stA (F := F)) V (Proc.devRef .tc main_arg6) = V (Proc.devRef .tc main_arg6)
    ∧ after (stA (F := F)) V (Proc.devRef .tc main_arg7) = V (Proc.devRef .tc main_arg7) := by
  refine ⟨?_, ?_, ?_, ?_, ?_, ?_, ?_, ?_, ?_, ?_⟩ <;> (after_results_simp <;> rfl)

/-- The first layer's linear map. -/
theorem stageB (V : Valuation τ sig (Elt F)) :
    after (stB (F := F)) V (Proc.devRef .tc main_v35) = Cert.Gcn.lin1 (F := F) (V (Proc.devRef .tc main_arg0)) (V (Proc.devRef .tc main_arg2))
    ∧ after (stB (F := F)) V (Proc.devRef .tc main_v34) = V (Proc.devRef .tc main_v34)
    ∧ after (stB (F := F)) V (Proc.devRef .tc main_v5) = V (Proc.devRef .tc main_v5)
    ∧ after (stB (F := F)) V (Proc.devRef .tc main_v6) = V (Proc.devRef .tc main_v6)
    ∧ after (stB (F := F)) V (Proc.devRef .tc main_arg3) = V (Proc.devRef .tc main_arg3)
    ∧ after (stB (F := F)) V (Proc.devRef .tc main_arg4) = V (Proc.devRef .tc main_arg4)
    ∧ after (stB (F := F)) V (Proc.devRef .tc main_arg5) = V (Proc.devRef .tc main_arg5)
    ∧ after (stB (F := F)) V (Proc.devRef .tc main_arg6) = V (Proc.devRef .tc main_arg6)
    ∧ after (stB (F := F)) V (Proc.devRef .tc main_arg7) = V (Proc.devRef .tc main_arg7) := by
  refine ⟨?_, ?_, ?_, ?_, ?_, ?_, ?_, ?_, ?_⟩ <;> (after_results_simp <;> rfl)

/-- The first aggregation along the edges. -/
theorem stageC (V : Valuation τ sig (Elt F)) :
    after (stC (F := F)) V (Proc.devRef .tc main_v48) = Cert.Gcn.aggregate (F := F) (V (Proc.devRef .tc main_v34)) (V (Proc.devRef .tc main_v35)) (V (Proc.devRef .tc main_v5)) (V (Proc.devRef .tc main_v6))
    ∧ after (stC (F := F)) V (Proc.devRef .tc main_v34) = V (Proc.devRef .tc main_v34)
    ∧ after (stC (F := F)) V (Proc.devRef .tc main_v5) = V (Proc.devRef .tc main_v5)
    ∧ after (stC (F := F)) V (Proc.devRef .tc main_v6) = V (Proc.devRef .tc main_v6)
    ∧ after (stC (F := F)) V (Proc.devRef .tc main_arg3) = V (Proc.devRef .tc main_arg3)
    ∧ after (stC (F := F)) V (Proc.devRef .tc main_arg4) = V (Proc.devRef .tc main_arg4)
    ∧ after (stC (F := F)) V (Proc.devRef .tc main_arg5) = V (Proc.devRef .tc main_arg5)
    ∧ after (stC (F := F)) V (Proc.devRef .tc main_arg6) = V (Proc.devRef .tc main_arg6)
    ∧ after (stC (F := F)) V (Proc.devRef .tc main_arg7) = V (Proc.devRef .tc main_arg7) := by
  refine ⟨?_, ?_, ?_, ?_, ?_, ?_, ?_, ?_, ?_⟩ <;> (after_results_simp <;> rfl)

/-- The first layer's bias and clamp. -/
theorem stageD (V : Valuation τ sig (Elt F)) :
    after (stD (F := F)) V (Proc.devRef .tc main_v52) = Cert.Gcn.biasRelu (F := F) (V (Proc.devRef .tc main_v48)) (V (Proc.devRef .tc main_arg3))
    ∧ after (stD (F := F)) V (Proc.devRef .tc main_v34) = V (Proc.devRef .tc main_v34)
    ∧ after (stD (F := F)) V (Proc.devRef .tc main_v5) = V (Proc.devRef .tc main_v5)
    ∧ after (stD (F := F)) V (Proc.devRef .tc main_v6) = V (Proc.devRef .tc main_v6)
    ∧ after (stD (F := F)) V (Proc.devRef .tc main_arg4) = V (Proc.devRef .tc main_arg4)
    ∧ after (stD (F := F)) V (Proc.devRef .tc main_arg5) = V (Proc.devRef .tc main_arg5)
    ∧ after (stD (F := F)) V (Proc.devRef .tc main_arg6) = V (Proc.devRef .tc main_arg6)
    ∧ after (stD (F := F)) V (Proc.devRef .tc main_arg7) = V (Proc.devRef .tc main_arg7) := by
  refine ⟨?_, ?_, ?_, ?_, ?_, ?_, ?_, ?_⟩ <;> (after_results_simp <;> rfl)

/-- The second layer's linear map. -/
theorem stageE (V : Valuation τ sig (Elt F)) :
    after (stE (F := F)) V (Proc.devRef .tc main_v53) = Cert.Gcn.lin2 (F := F) (V (Proc.devRef .tc main_v52)) (V (Proc.devRef .tc main_arg4))
    ∧ after (stE (F := F)) V (Proc.devRef .tc main_v34) = V (Proc.devRef .tc main_v34)
    ∧ after (stE (F := F)) V (Proc.devRef .tc main_v5) = V (Proc.devRef .tc main_v5)
    ∧ after (stE (F := F)) V (Proc.devRef .tc main_v6) = V (Proc.devRef .tc main_v6)
    ∧ after (stE (F := F)) V (Proc.devRef .tc main_arg5) = V (Proc.devRef .tc main_arg5)
    ∧ after (stE (F := F)) V (Proc.devRef .tc main_arg6) = V (Proc.devRef .tc main_arg6)
    ∧ after (stE (F := F)) V (Proc.devRef .tc main_arg7) = V (Proc.devRef .tc main_arg7) := by
  refine ⟨?_, ?_, ?_, ?_, ?_, ?_, ?_⟩ <;> (after_results_simp <;> rfl)

/-- The second aggregation along the edges. -/
theorem stageF (V : Valuation τ sig (Elt F)) :
    after (stF (F := F)) V (Proc.devRef .tc main_v66) = Cert.Gcn.aggregate (F := F) (V (Proc.devRef .tc main_v34)) (V (Proc.devRef .tc main_v53)) (V (Proc.devRef .tc main_v5)) (V (Proc.devRef .tc main_v6))
    ∧ after (stF (F := F)) V (Proc.devRef .tc main_arg5) = V (Proc.devRef .tc main_arg5)
    ∧ after (stF (F := F)) V (Proc.devRef .tc main_arg6) = V (Proc.devRef .tc main_arg6)
    ∧ after (stF (F := F)) V (Proc.devRef .tc main_arg7) = V (Proc.devRef .tc main_arg7) := by
  refine ⟨?_, ?_, ?_, ?_⟩ <;> (after_results_simp <;> rfl)

/-- The second layer's bias and clamp. -/
theorem stageG (V : Valuation τ sig (Elt F)) :
    after (stG (F := F)) V (Proc.devRef .tc main_v70) = Cert.Gcn.biasRelu (F := F) (V (Proc.devRef .tc main_v66)) (V (Proc.devRef .tc main_arg5))
    ∧ after (stG (F := F)) V (Proc.devRef .tc main_arg6) = V (Proc.devRef .tc main_arg6)
    ∧ after (stG (F := F)) V (Proc.devRef .tc main_arg7) = V (Proc.devRef .tc main_arg7) := by
  refine ⟨?_, ?_, ?_⟩ <;> (after_results_simp <;> rfl)

/-- The head's logits. -/
theorem stageH (V : Valuation τ sig (Elt F)) :
    after (stH (F := F)) V (Proc.devRef .tc main_v74) = Cert.Gcn.logits (F := F) (V (Proc.devRef .tc main_v70)) (V (Proc.devRef .tc main_arg6)) (V (Proc.devRef .tc main_arg7)) := by
  after_results_simp <;> rfl

/-- The row-wise log-softmax. -/
theorem stageI (V : Valuation τ sig (Elt F)) :
    after (stI (F := F)) V (Proc.devRef .tc main_v75) = Cert.Gcn.logSoftmax (F := F) (V (Proc.devRef .tc main_v74)) := by
  after_results_simp <;> rfl

/-! ## The whole line -/

/-- The result buffer after the operations, from any launch contents: the specification's function of the arguments. -/
theorem result_after (V : Valuation τ sig (Elt F)) :
    after (ops (F := F)) V (Proc.devRef .tc main_v75) = Cert.Gcn.result (F := F)
      (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) := by
  rw [ops_stages]
  simp only [StableHlo.after_append]
  obtain ⟨a1, a2, a3, a4, a5, a6, a7, a8, a9, a10⟩ := stageA V
  obtain ⟨b1, b2, b3, b4, b5, b6, b7, b8, b9⟩ := stageB (after stA V)
  obtain ⟨c1, c2, c3, c4, c5, c6, c7, c8, c9⟩ := stageC (after stB (after stA V))
  obtain ⟨d1, d2, d3, d4, d5, d6, d7, d8⟩ := stageD (after stC (after stB (after stA V)))
  obtain ⟨e1, e2, e3, e4, e5, e6, e7⟩ := stageE (after stD (after stC (after stB (after stA V))))
  obtain ⟨f1, f2, f3, f4⟩ := stageF (after stE (after stD (after stC (after stB (after stA V)))))
  obtain ⟨g1, g2, g3⟩ := stageG (after stF (after stE (after stD (after stC (after stB (after stA V))))))
  have h1 := stageH (after stG (after stF (after stE (after stD (after stC (after stB (after stA V)))))))
  have i1 := stageI (after stH (after stG (after stF (after stE (after stD (after stC (after stB (after stA V))))))))
  rw [i1, h1, g1, g2, g3, f1, f2, f3, f4, e1, e2, e3, e4, e5, e6, e7, d1, d2, d3, d4, d5, d6, d7, d8,
    c1, c2, c3, c4, c5, c6, c7, c8, c9, b1, b2, b3, b4, b5, b6, b7, b8, b9, a1, a2, a3, a4, a5, a6, a7, a8, a9, a10]
  rfl

set_option maxHeartbeats 4000000 in
/-- No operation writes an argument. -/
theorem args_after (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7)
    ∧ after (ops (F := F)) V (Proc.devRef .tc main_arg8) = V (Proc.devRef .tc main_arg8) := by
  refine ⟨?_, ?_, ?_, ?_, ?_, ?_, ?_, ?_, ?_⟩ <;> (after_results_simp <;> rfl)

/-- From any memory with zero counters every weakly fair execution terminates with the result buffer at the
    specification's function of the arguments' launch contents, and the arguments unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = Cert.Gcn.result (F := F)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v75).trans (result_after _),
      (h c main_arg0).trans (args_after _).1,
      (h c main_arg1).trans (args_after _).2.1,
      (h c main_arg2).trans (args_after _).2.2.1,
      (h c main_arg3).trans (args_after _).2.2.2.1,
      (h c main_arg4).trans (args_after _).2.2.2.2.1,
      (h c main_arg5).trans (args_after _).2.2.2.2.2.1,
      (h c main_arg6).trans (args_after _).2.2.2.2.2.2.1,
      (h c main_arg7).trans (args_after _).2.2.2.2.2.2.2.1,
      (h c main_arg8).trans (args_after _).2.2.2.2.2.2.2.2⟩)
    (run_seq scopedRefs_eq scopedSems_eq defs main (fun _ => ops) main_eq (fun _ => ops_sub) m ρ)

end Cert.ReferenceIdeal.RunValue

end
-- ==== Proof.Entry0.lean ====
/-
  The contents of the TensorCore's buffers when the first region is entered.

  Before the first region the host computes, from the edge index and the edge weights alone, the three arrays every later
  stretch reads: the sources and the targets of the edges with one self loop per node appended, and the symmetric
  normalisation  dis[source] · w · dis[target]  of each edge. The operations are those of the specification's stages of the
  same names, in the same order, so each of these arrays is that stage of the launch contents of the arguments. The two
  selections (deg > 0 ? deg : 1 and deg > 0 ? rsqrt : 0) are calls of an outlined function: its typed references are the
  caller's buffers, so its three operations are the plain ones over those buffers. The feature matrix and the first weight
  matrix are still as launched: no host operation writes an argument.
-/
import proofs.«156117_j69844758167859_1_alg».proof.Proof.Gen.KernelIdeal.Frame
import proofs.«156117_j69844758167859_1_alg».proof.Proof.Spec
import Idealize.ShloMosaic.PureOps.Ideal
import Idealize.ShloMosaic.PureOps.Ideal.Laws
import Idealize.ShloMosaic.Lib.StableHlo.Run

set_option maxRecDepth 65536

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first selection's operations over the caller's buffers. -/
theorem select0_ops : (hostOps0_1 : List (HloOp τ sig (Elt Ideal))) =
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S65536 ![] bcast_S_S65536 : (⟨S_, .f32⟩ : BufTy).Contents (Elt Ideal) → (⟨S65536, .f32⟩ : BufTy).Contents (Elt Ideal)),
    StableHlo.ternary main_v15 main_v11 main_call0_v1 main_v16 (select : (⟨S65536, .i1⟩ : BufTy).Contents (Elt Ideal) → (⟨S65536, .f32⟩ : BufTy).Contents (Elt Ideal) → (⟨S65536, .f32⟩ : BufTy).Contents (Elt Ideal) → (⟨S65536, .f32⟩ : BufTy).Contents (Elt Ideal)) ] := rfl

/-- The second selection's operations over the caller's buffers. -/
theorem select1_ops : (hostOps0_3 : List (HloOp τ sig (Elt Ideal))) =
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S65536 ![] bcast_S_S65536 : (⟨S_, .f32⟩ : BufTy).Contents (Elt Ideal) → (⟨S65536, .f32⟩ : BufTy).Contents (Elt Ideal)),
    StableHlo.ternary main_v13 main_v17 main_call1_v1 main_v18 (select : (⟨S65536, .i1⟩ : BufTy).Contents (Elt Ideal) → (⟨S65536, .f32⟩ : BufTy).Contents (Elt Ideal) → (⟨S65536, .f32⟩ : BufTy).Contents (Elt Ideal) → (⟨S65536, .f32⟩ : BufTy).Contents (Elt Ideal)) ] := rfl

/-- The edges' sources with the self loops appended, at the first region's entry. -/
theorem entry0_sources (c : Dev nD) :
    W5 m ρ c (Proc.devRef .tc main_v5) = Cert.Gcn.sources (F := Ideal) (m ((c : Thread nD τ).loc main_arg8)) := by
  dsimp only [W5, W4, W3, W2, W1, W0]
  rw [select0_ops, select1_ops]
  after_results_simp <;> rfl

/-- The edges' targets with the self loops appended, at the first region's entry. -/
theorem entry0_targets (c : Dev nD) :
    W5 m ρ c (Proc.devRef .tc main_v6) = Cert.Gcn.targets (F := Ideal) (m ((c : Thread nD τ).loc main_arg8)) := by
  dsimp only [W5, W4, W3, W2, W1, W0]
  rw [select0_ops, select1_ops]
  after_results_simp <;> rfl

/-- The edges' normalised weights, at the first region's entry. -/
theorem entry0_norm (c : Dev nD) :
    W5 m ρ c (Proc.devRef .tc main_v34)
      = Cert.Gcn.edgeNorm (F := Ideal) (m ((c : Thread nD τ).loc main_arg1)) (m ((c : Thread nD τ).loc main_arg8)) := by
  dsimp only [W5, W4, W3, W2, W1, W0]
  rw [select0_ops, select1_ops]
  after_results_simp <;> rfl

/-- The feature matrix is as launched at the first region's entry. -/
theorem entry0_features (c : Dev nD) : W5 m ρ c (Proc.devRef .tc main_arg0) = m ((c : Thread nD τ).loc main_arg0) := by
  dsimp only [W5, W4, W3, W2, W1, W0]
  rw [select0_ops, select1_ops]
  after_results_simp <;> rfl

/-- The first weight matrix is as launched at the first region's entry. -/
theorem entry0_weight (c : Dev nD) : W5 m ρ c (Proc.devRef .tc main_arg2) = m ((c : Thread nD τ).loc main_arg2) := by
  dsimp only [W5, W4, W3, W2, W1, W0]
  rw [select0_ops, select1_ops]
  after_results_simp <;> rfl

/-- Argument 3 is as launched at the first region's entry. -/
theorem entry0_arg3 (c : Dev nD) : W5 m ρ c (Proc.devRef .tc main_arg3) = m ((c : Thread nD τ).loc main_arg3) := by
  dsimp only [W5, W4, W3, W2, W1, W0]
  rw [select0_ops, select1_ops]
  after_results_simp <;> rfl

/-- Argument 4 is as launched at the first region's entry. -/
theorem entry0_arg4 (c : Dev nD) : W5 m ρ c (Proc.devRef .tc main_arg4) = m ((c : Thread nD τ).loc main_arg4) := by
  dsimp only [W5, W4, W3, W2, W1, W0]
  rw [select0_ops, select1_ops]
  after_results_simp <;> rfl

/-- Argument 5 is as launched at the first region's entry. -/
theorem entry0_arg5 (c : Dev nD) : W5 m ρ c (Proc.devRef .tc main_arg5) = m ((c : Thread nD τ).loc main_arg5) := by
  dsimp only [W5, W4, W3, W2, W1, W0]
  rw [select0_ops, select1_ops]
  after_results_simp <;> rfl

/-- Argument 6 is as launched at the first region's entry. -/
theorem entry0_arg6 (c : Dev nD) : W5 m ρ c (Proc.devRef .tc main_arg6) = m ((c : Thread nD τ).loc main_arg6) := by
  dsimp only [W5, W4, W3, W2, W1, W0]
  rw [select0_ops, select1_ops]
  after_results_simp <;> rfl

/-- Argument 7 is as launched at the first region's entry. -/
theorem entry0_arg7 (c : Dev nD) : W5 m ρ c (Proc.devRef .tc main_arg7) = m ((c : Thread nD τ).loc main_arg7) := by
  dsimp only [W5, W4, W3, W2, W1, W0]
  rw [select0_ops, select1_ops]
  after_results_simp <;> rfl

end Cert.KernelIdeal.Boundary

end
-- ==== Proof.MatmulArray.lean ====
/-
  The two matrix products of the idealized kernel, as whole arrays.

  Regions 0 and 2 of the idealized kernel program each multiply a tall array, cut into sixteen blocks of 4096
  rows, by a small matrix that every grid point sees whole, and write the block of products back to the matching
  4096 rows of the output array. At the ideal values a change of float format is the identity and a product
  accumulated into a zero block is the plain sum over the contraction axis, so the block written at point `t`
  holds, at row `p` and column `q`, the sum over `k` of (row `4096 t + p` of the tall array at `k`) times
  (the small matrix at `k`, `q`). Row `r` of the output lies in the block of point `r / 4096`, the sixteen
  blocks cover all 65536 rows, and therefore the output array after the region IS the matrix product of the two
  arrays the region found, entry by entry. Nothing here needs the entries to be finite: only the definition of
  the product as a sum is used.
-/
import proofs.«156117_j69844758167859_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Matmul

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets of a whole-block access, spelt as a constant function. -/
theorem zero_offsets : (![0, 0] : Fin 2 → Nat) = fun _ => 0 := funext fun a => by fin_cases a <;> rfl

/-! # Region 0: [65536,128] times [128,64]

## One block: the product at row `p`, column `q` -/

/-- The left operand's index at output index `j` and contraction index `s`: its row is the output's row, -/
theorem lhs_row0 (j : S4096x64.Idx) (s : dot_S4096x128_S128x64_S4096x64_1_0_0_1_n_n.contr.Idx) :
    (dot_S4096x128_S128x64_S4096x64_1_0_0_1_n_n.lhsIdx j s 0).val = (j 0).val := by
  unfold DotDims.lhsIdx
  rw [dif_neg (show ¬(0 : Fin S4096x128.rank) ∈ dot_S4096x128_S128x64_S4096x64_1_0_0_1_n_n.lhsBatch by decide),
    dif_pos (show (0 : Fin S4096x128.rank) ∈ dot_S4096x128_S128x64_S4096x64_1_0_0_1_n_n.lhsNonContracting by decide)]
  rfl
/-- and its column is the contraction coordinate. -/
theorem lhs_col0 (j : S4096x64.Idx) (s : dot_S4096x128_S128x64_S4096x64_1_0_0_1_n_n.contr.Idx) :
    (dot_S4096x128_S128x64_S4096x64_1_0_0_1_n_n.lhsIdx j s 1).val = (s ⟨0, by decide⟩).val :=
  dot_S4096x128_S128x64_S4096x64_1_0_0_1_n_n.lhsIdx_val_of_single rfl j s
/-- The right operand's index: its row is the contraction coordinate, -/
theorem rhs_row0 (j : S4096x64.Idx) (s : dot_S4096x128_S128x64_S4096x64_1_0_0_1_n_n.contr.Idx) :
    (dot_S4096x128_S128x64_S4096x64_1_0_0_1_n_n.rhsIdx j s 0).val = (s ⟨0, by decide⟩).val :=
  dot_S4096x128_S128x64_S4096x64_1_0_0_1_n_n.rhsIdx_val_of_single rfl j s
/-- and its column is the output's column. -/
theorem rhs_col0 (j : S4096x64.Idx) (s : dot_S4096x128_S128x64_S4096x64_1_0_0_1_n_n.contr.Idx) :
    (dot_S4096x128_S128x64_S4096x64_1_0_0_1_n_n.rhsIdx j s 1).val = (j 1).val := by
  unfold DotDims.rhsIdx
  rw [dif_neg (show ¬(1 : Fin S128x64.rank) ∈ dot_S4096x128_S128x64_S4096x64_1_0_0_1_n_n.rhsBatch by decide),
    dif_pos (show (1 : Fin S128x64.rank) ∈ dot_S4096x128_S128x64_S4096x64_1_0_0_1_n_n.rhsNonContracting by decide)]
  rfl

/-- The body's value at row `p`, column `q` of its block: both operands pass through a change of float format
    (the identity at the ideal values) and are multiplied into a zero block, which leaves the sum over the 128
    contraction coordinates of the products. -/
theorem block_product0 (x0 : Vec Ideal S4096x128 .f32) (x1 : Vec Ideal S128x64 .f32) (p : Fin 4096) (q : Fin 64) :
    k0_pay1 (F := Ideal) x0 x1 (ix2 p q) = ∑ k : Fin 128, x0 (ix2 p k) * x1 (ix2 k q) := by
  unfold k0_pay1
  refine (Ideal.matmul_constant_zero_apply dot_S4096x128_S128x64_S4096x64_1_0_0_1_n_n none _ _ (ix2 p q)).trans ?_
  rw [← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 p q)
      ((contrEquiv1 dot_S4096x128_S128x64_S4096x64_1_0_0_1_n_n 128 rfl rfl).symm k) = ix2 p k := funext fun a => Fin.ext (by
    match a with
    | ⟨0, _⟩ => exact lhs_row0 _ _
    | ⟨1, _⟩ => exact (lhs_col0 _ _).trans hk)
  have er : dot_S4096x128_S128x64_S4096x64_1_0_0_1_n_n.rhsIdx (ix2 p q)
      ((contrEquiv1 dot_S4096x128_S128x64_S4096x64_1_0_0_1_n_n 128 rfl rfl).symm k) = ix2 k q := funext fun a => Fin.ext (by
    match a with
    | ⟨0, _⟩ => exact (rhs_row0 _ _).trans hk
    | ⟨1, _⟩ => exact rhs_col0 _ _)
  show x0 (dot_S4096x128_S128x64_S4096x64_1_0_0_1_n_n.lhsIdx (ix2 p q) _) * x1 (dot_S4096x128_S128x64_S4096x64_1_0_0_1_n_n.rhsIdx (ix2 p q) _) = _
  rw [el, er]

/-! ## From the sixteen blocks to the array -/

/-- The product of a [65536,128] array and a [128,64] matrix, entry by entry. -/
abbrev product0 (a : S65536x128.Idx → Elt Ideal .f32) (b : S128x64.Idx → Elt Ideal .f32) : S65536x64.Idx → Elt Ideal .f32 :=
  fun i => ∑ k : Fin 128, a (ix2 (i 0) k) * b (ix2 k (i 1))

/-- The printed index maps over the sixteen grid points: at point `t` the tall operand and the output are at block
    row `t`, block column 0; the small matrix is at its one block. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one block, over any two arrays: the sum over `k` of the tall array read through point `t`'s block
    at (`p`, `k`) — its row `4096 t + p` — times the small matrix read through its one block at (`k`, `q`) is the
    product of the two arrays at the place where entry (`p`, `q`) of the output's block sits: row `4096 t + p`,
    column `q`. A block's coordinate in its array is always block index × block size + the coordinate inside. -/
theorem block_entry0 (A : S65536x128.Idx → Elt Ideal .f32) (B : S128x64.Idx → Elt Ideal .f32) (t : Fin cfg0.N)
    (p : Fin 4096) (q : Fin 64) :
    ∑ k : Fin 128, A (((cfg0.win 0).blk t).view.emb (ix2 p k)) * B (((cfg0.win 1).blk t).view.emb (ix2 k q))
      = product0 A B (((cfg0.win 2).blk t).view.emb (ix2 p q)) := by
  obtain ⟨e0, e1, e2, e3, e4, e5⟩ := block_indices0 t
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (· * ·) (congrArg A h0) (congrArg B h1)

/-- What point `t` writes back is block `t` of the product of the arrays as the region finds them: the body's one
    store leaves its value in the whole staging block, its two loads read the whole input blocks, and each entry
    is the sum of `block_product0`, read in the arrays by `block_entry0`. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (product0 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S4096x128) zero_offsets, View.ld_unit_zero (S := S128x64) zero_offsets]
  refine funext fun (j : S4096x64.Idx) => ?_
  obtain ⟨p, q, rfl⟩ : ∃ (p : Fin 4096) (q : Fin 64), j = ix2 p q := ⟨j 0, j 1, eq_ix2 j⟩
  refine (block_product0 (iblk0 V c 0 t) (iblk0 V c 1 t) p q).trans ?_
  exact block_entry0 (V c main_arg0) (V c main_arg2) t p q

/-- An index of the output array is in point `t`'s block iff each coordinate is in the block's range on its axis. -/
theorem mem_block0 (t : Fin cfg0.N) (i : S65536x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v35).slice (win0_2.rect t)).set ↔ _
  rw [View.set_slice_whole, Rect.mem_set_unit]
  exact Iff.rfl

/-- Row `r` of the output is in the block of point `r / 4096`: the sixteen blocks of 4096 rows cover the 65536 rows. -/
theorem covered0 (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  have hN : (i 0).val / 4096 < cfg0.N := by show (i 0).val / 4096 < 16; omega
  obtain ⟨-, -, -, -, e4, e5⟩ := block_indices0 ⟨(i 0).val / 4096, hN⟩
  have e4' : win0_2.index ⟨(i 0).val / 4096, hN⟩ (0 : Fin 2) = (i 0).val / 4096 := e4
  refine ⟨⟨(i 0).val / 4096, hN⟩, flush0_2 _, ?_⟩
  rw [mem_block0]
  intro a
  match a with
  | ⟨0, _⟩ =>
    show win0_2.index ⟨(i 0).val / 4096, hN⟩ (0 : Fin 2) * 4096 ≤ (i 0).val
      ∧ (i 0).val < win0_2.index ⟨(i 0).val / 4096, hN⟩ (0 : Fin 2) * 4096 + 4096
    omega
  | ⟨1, _⟩ =>
    show win0_2.index ⟨(i 0).val / 4096, hN⟩ (1 : Fin 2) * 64 ≤ (i 1).val
      ∧ (i 1).val < win0_2.index ⟨(i 0).val / 4096, hN⟩ (1 : Fin 2) * 64 + 64
    omega

/-- THE OUTPUT OF REGION 0, whatever the region finds in its buffers: the matrix product of the tall array and the
    small matrix, entry by entry. -/
theorem region0_array (V : (c : Dev nD) → (b : Ref sig .tc) → Buf (Elt Ideal) ((c : Thread nD τ).loc b)) (c : Dev nD) :
    (dat0 (F := Ideal) V c).arrAt 2 cfg0.N = product0 (V c main_arg0) (V c main_arg2) :=
  (dat0 (F := Ideal) V c).arrAt_eq_of_cover 2 (product0 (V c main_arg0) (V c main_arg2))
    (fun t _ => flushed0_eq V c t) covered0

/-! # Region 2: [65536,64] times [64,64]

The same computation on a tall array of 64 columns and a 64 × 64 matrix; the body first recasts its left block to
the shape it already has, which changes nothing.

## One block: the product at row `p`, column `q` -/

/-- The left operand's index at output index `j` and contraction index `s`: its row is the output's row, -/
theorem lhs_row2 (j : S4096x64.Idx) (s : dot_S4096x64_S64x64_S4096x64_1_0_0_1_n_n.contr.Idx) :
    (dot_S4096x64_S64x64_S4096x64_1_0_0_1_n_n.lhsIdx j s 0).val = (j 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
/-- and its column is the contraction coordinate. -/
theorem lhs_col2 (j : S4096x64.Idx) (s : dot_S4096x64_S64x64_S4096x64_1_0_0_1_n_n.contr.Idx) :
    (dot_S4096x64_S64x64_S4096x64_1_0_0_1_n_n.lhsIdx j s 1).val = (s ⟨0, by decide⟩).val :=
  dot_S4096x64_S64x64_S4096x64_1_0_0_1_n_n.lhsIdx_val_of_single rfl j s
/-- The right operand's index: its row is the contraction coordinate, -/
theorem rhs_row2 (j : S4096x64.Idx) (s : dot_S4096x64_S64x64_S4096x64_1_0_0_1_n_n.contr.Idx) :
    (dot_S4096x64_S64x64_S4096x64_1_0_0_1_n_n.rhsIdx j s 0).val = (s ⟨0, by decide⟩).val :=
  dot_S4096x64_S64x64_S4096x64_1_0_0_1_n_n.rhsIdx_val_of_single rfl j s
/-- and its column is the output's column. -/
theorem rhs_col2 (j : S4096x64.Idx) (s : dot_S4096x64_S64x64_S4096x64_1_0_0_1_n_n.contr.Idx) :
    (dot_S4096x64_S64x64_S4096x64_1_0_0_1_n_n.rhsIdx j s 1).val = (j 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The body's value at row `p`, column `q` of its block: the left block is recast to its own shape (the
    identity), both operands pass through a change of float format (the identity at the ideal values) and are
    multiplied into a zero block, which leaves the sum over the 64 contraction coordinates of the products. -/
theorem block_product2 (x0 : Vec Ideal S4096x64 .f32) (x1 : Vec Ideal S64x64 .f32) (p : Fin 4096) (q : Fin 64) :
    k2_pay1 (F := Ideal) x0 x1 (ix2 p q) = ∑ k : Fin 64, x0 (ix2 p k) * x1 (ix2 k q) := by
  unfold k2_pay1
  refine (Ideal.matmul_constant_zero_apply dot_S4096x64_S64x64_S4096x64_1_0_0_1_n_n none _ _ (ix2 p q)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q)
      ((contrEquiv1 dot_S4096x64_S64x64_S4096x64_1_0_0_1_n_n 64 rfl rfl).symm k) = ix2 p k := funext fun a => Fin.ext (by
    match a with
    | ⟨0, _⟩ => exact lhs_row2 _ _
    | ⟨1, _⟩ => exact (lhs_col2 _ _).trans hk)
  have er : dot_S4096x64_S64x64_S4096x64_1_0_0_1_n_n.rhsIdx (ix2 p q)
      ((contrEquiv1 dot_S4096x64_S64x64_S4096x64_1_0_0_1_n_n 64 rfl rfl).symm k) = ix2 k q := funext fun a => Fin.ext (by
    match a with
    | ⟨0, _⟩ => exact (rhs_row2 _ _).trans hk
    | ⟨1, _⟩ => exact rhs_col2 _ _)
  have hc : shapeCast S4096x64 x0 shapeCasts_S4096x64_S4096x64 = x0 := shapeCast_self x0 _
  show (shapeCast S4096x64 x0 shapeCasts_S4096x64_S4096x64) (dot_S4096x64_S64x64_S4096x64_1_0_0_1_n_n.lhsIdx (ix2 p q) _) * x1 (dot_S4096x64_S64x64_S4096x64_1_0_0_1_n_n.rhsIdx (ix2 p q) _) = _
  rw [hc, el, er]

/-! ## From the sixteen blocks to the array -/

/-- The product of a [65536,64] array and a [64,64] matrix, entry by entry. -/
abbrev product2 (a : S65536x64.Idx → Elt Ideal .f32) (b : S64x64.Idx → Elt Ideal .f32) : S65536x64.Idx → Elt Ideal .f32 :=
  fun i => ∑ k : Fin 64, a (ix2 (i 0) k) * b (ix2 k (i 1))

/-- The printed index maps over the sixteen grid points: at point `t` the tall operand and the output are at block
    row `t`, block column 0; the small matrix is at its one block. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of one block, over any two arrays: the sum over `k` of the tall array read through point `t`'s block
    at (`p`, `k`) — its row `4096 t + p` — times the small matrix read through its one block at (`k`, `q`) is the
    product of the two arrays at the place where entry (`p`, `q`) of the output's block sits: row `4096 t + p`,
    column `q`. -/
theorem block_entry2 (A : S65536x64.Idx → Elt Ideal .f32) (B : S64x64.Idx → Elt Ideal .f32) (t : Fin cfg2.N)
    (p : Fin 4096) (q : Fin 64) :
    ∑ k : Fin 64, A (((cfg2.win 0).blk t).view.emb (ix2 p k)) * B (((cfg2.win 1).blk t).view.emb (ix2 k q))
      = product2 A B (((cfg2.win 2).blk t).view.emb (ix2 p q)) := by
  obtain ⟨e0, e1, e2, e3, e4, e5⟩ := block_indices2 t
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 4096 + 1 * p.val = win2_2.index t (0 : Fin 2) * 4096 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact congrArg₂ (· * ·) (congrArg A h0) (congrArg B h1)

/-- What point `t` writes back is block `t` of the product of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (product2 (V c main_v49) (V c main_arg4)) := by
  show (cfg2.win 2).cut (grid2.coords t) ((dat2 (F := Ideal) V c).after 2 t) = _
  rw [after2_2]
  unfold out2_2
  rw [View.canon_unit_zero zero_offsets]
  simp only [View.ld_unit_zero (S := S4096x64) zero_offsets, View.ld_unit_zero (S := S64x64) zero_offsets]
  refine funext fun (j : S4096x64.Idx) => ?_
  obtain ⟨p, q, rfl⟩ : ∃ (p : Fin 4096) (q : Fin 64), j = ix2 p q := ⟨j 0, j 1, eq_ix2 j⟩
  refine (block_product2 (iblk2 V c 0 t) (iblk2 V c 1 t) p q).trans ?_
  exact block_entry2 (V c main_v49) (V c main_arg4) t p q

/-- An index of the output array is in point `t`'s block iff each coordinate is in the block's range on its axis. -/
theorem mem_block2 (t : Fin cfg2.N) (i : S65536x64.Idx) :
    i ∈ ((cfg2.win 2).blk t).view.set ↔ ∀ a : Fin 2, win2_2.index t a * S4096x64.size a ≤ (i a).val
      ∧ (i a).val < win2_2.index t a * S4096x64.size a + S4096x64.size a := by
  show i ∈ ((View.whole main_v50).slice (win2_2.rect t)).set ↔ _
  rw [View.set_slice_whole, Rect.mem_set_unit]
  exact Iff.rfl

/-- Row `r` of the output is in the block of point `r / 4096`: the sixteen blocks of 4096 rows cover the 65536 rows. -/
theorem covered2 (i : S65536x64.Idx) :
    ∃ t : Fin cfg2.N, (cfg2.win 2).flush t = true ∧ i ∈ ((cfg2.win 2).blk t).view.set := by
  have hi0 : (i 0).val < 65536 := (i 0).isLt
  have hi1 : (i 1).val < 64 := (i 1).isLt
  have hN : (i 0).val / 4096 < cfg2.N := by show (i 0).val / 4096 < 16; omega
  obtain ⟨-, -, -, -, e4, e5⟩ := block_indices2 ⟨(i 0).val / 4096, hN⟩
  have e4' : win2_2.index ⟨(i 0).val / 4096, hN⟩ (0 : Fin 2) = (i 0).val / 4096 := e4
  refine ⟨⟨(i 0).val / 4096, hN⟩, flush2_2 _, ?_⟩
  rw [mem_block2]
  intro a
  match a with
  | ⟨0, _⟩ =>
    show win2_2.index ⟨(i 0).val / 4096, hN⟩ (0 : Fin 2) * 4096 ≤ (i 0).val
      ∧ (i 0).val < win2_2.index ⟨(i 0).val / 4096, hN⟩ (0 : Fin 2) * 4096 + 4096
    omega
  | ⟨1, _⟩ =>
    show win2_2.index ⟨(i 0).val / 4096, hN⟩ (1 : Fin 2) * 64 ≤ (i 1).val
      ∧ (i 1).val < win2_2.index ⟨(i 0).val / 4096, hN⟩ (1 : Fin 2) * 64 + 64
    omega

/-- THE OUTPUT OF REGION 2, whatever the region finds in its buffers: the matrix product of the tall array and the
    small matrix, entry by entry. -/
theorem region2_array (V : (c : Dev nD) → (b : Ref sig .tc) → Buf (Elt Ideal) ((c : Thread nD τ).loc b)) (c : Dev nD) :
    (dat2 (F := Ideal) V c).arrAt 2 cfg2.N = product2 (V c main_v49) (V c main_arg4) :=
  (dat2 (F := Ideal) V c).arrAt_eq_of_cover 2 (product2 (V c main_v49) (V c main_arg4))
    (fun t _ => flushed2_eq V c t) covered2

end Cert.KernelIdeal.Matmul

end
-- ==== Proof.BiasReluArray.lean ====
/-
  The two bias-and-rectify regions of the idealized kernel, read as whole arrays.

  Region 1 walks the 65536 rows of a [65536, 64] array in 16 blocks of 4096 rows.  At each block it adds the
  64-entry bias to every row of the block and takes the maximum with zero.  Over the extended reals the
  block's result at (r, k) depends on the input at (r, k) and the bias at k only, so the block at point t is
  the restriction, to rows 4096 t … 4096 t + 4095, of ONE function of the whole input array and the bias.  The
  sixteen blocks tile the rows, hence the output array after the region is that function everywhere.
  Region 3 is the same computation on another pair of arrays.
-/
import proofs.«156117_j69844758167859_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.BiasRelu

open Cert.KernelIdeal Cert.KernelIdeal.Gen

/-! ## The function both regions compute -/

/-- Bias added along the rows, then the maximum with zero: entry (r, k) is max (a (r, k) + b k) 0. -/
abbrev biasRelu (a : S65536x64.Idx → EReal) (b : S64.Idx → EReal) : S65536x64.Idx → EReal :=
  fun i => max (a i + b (ix1 (i 1))) 0

/-- `biasRelu` at an entry. -/
theorem biasRelu_apply (a : S65536x64.Idx → EReal) (b : S64.Idx → EReal) (i : S65536x64.Idx) :
    biasRelu a b i = max (a i + b (ix1 (i 1))) 0 := rfl

/-- The zero offsets of a rank-2 whole-buffer access, as a constant function. -/
theorem zeroOff2 : (![0, 0] : Fin 2 → Nat) = fun _ => 0 := funext fun a => by fin_cases a <;> rfl
/-- The zero offset of a rank-1 whole-buffer access, as a constant function. -/
theorem zeroOff1 : (![0] : Fin 1 → Nat) = fun _ => 0 := funext fun a => by fin_cases a; rfl

/-- One block's arithmetic at an entry: the row's entry plus the bias of its column, cut below at zero.
    The bias vector is first viewed as one row [1, 64] and that row repeated down the 4096 rows. -/
theorem blockArith_apply (x0 : Vec Ideal S4096x64 .f32) (x1 : Vec Ideal S64 .f32)
    (h0 : S4096x64.ShapeCasts S4096x64) (h1 : S64.ShapeCasts S1x64) (h2 : S1x64.Broadcasts S4096x64)
    (p : Fin 4096) (q : Fin 64) :
    (maximumf (addf (shapeCast S4096x64 x0 h0) (broadcastTo S4096x64 (shapeCast S1x64 x1 h1) h2))
        (broadcast S4096x64 (Scalar.ofBits (F := Ideal) .f32 0x00000000#32)) : FVec Ideal S4096x64 .f32) (ix2 p q)
      = max (x0 (ix2 p q) + x1 (ix1 q)) 0 := by
  rw [maximumf_apply, addf_apply, broadcast_apply, shapeCast_self, broadcastTo_1b_ab_apply, shapeCast_a_1a_apply]
  show max (x0 (ix2 p q) + x1 (ix1 q)) (Ideal.ofBits .f32 0x00000000#32) = _
  rw [Ideal.ofBits_zero_f32]

/-- A block's result as the whole-array function read where the block sits: if the block's input is the array
    read through an embedding `e` of block entries into array entries that keeps the column, and the block's
    bias is the whole bias, the arithmetic at `y` is `biasRelu` at `e y`. -/
theorem blockArith_eq_biasRelu (a : S65536x64.Idx → EReal) (b : S64.Idx → EReal)
    (x0 : Vec Ideal S4096x64 .f32) (x1 : Vec Ideal S64 .f32) (e : S4096x64.Idx → S65536x64.Idx)
    (hx0 : ∀ y, x0 y = a (e y)) (hx1 : ∀ k, x1 k = b k) (he : ∀ y, ((e y) 1).val = (y 1).val)
    (p : Fin 4096) (q : Fin 64) :
    max (x0 (ix2 p q) + x1 (ix1 q)) 0 = biasRelu a b (e (ix2 p q)) := by
  rw [hx0, hx1]
  show _ = max (a (e (ix2 p q)) + b (ix1 ((e (ix2 p q)) 1))) 0
  have hk : (ix1 q : S64.Idx) = ix1 ((e (ix2 p q)) 1) :=
    congrArg (fun k : Fin 64 => (ix1 k : S64.Idx)) (Fin.ext (he (ix2 p q)).symm)
  rw [hk]
  rfl

/-! ## Region 1: main_v48, main_arg3 ↦ main_v49 -/

section Region1

variable (V : (c : Dev nD) → (b : Ref sig .tc) → Buf (Elt Ideal) ((c : Thread nD τ).loc b))

/-- What region 1's body stores, at an entry of the block. -/
theorem out1_2_apply (x0 : Vec Ideal S4096x64 .f32) (x1 : Vec Ideal S64 .f32) (p : Fin 4096) (q : Fin 64) :
    out1_2 x0 x1 (ix2 p q) = max (x0 (ix2 p q) + x1 (ix1 q)) 0 := by
  unfold out1_2
  rw [View.canon_unit_zero zeroOff2]
  simp only [View.ld_unit_zero (S := S4096x64) zeroOff2, View.ld_unit_zero (S := S64) zeroOff1]
  unfold k1_pay1
  exact blockArith_apply x0 x1 _ _ _ p q

/-- The block-index maps of region 1 over its 16 points: the input's and the output's row-block index is the
    point's number, their column-block index is 0, and the bias's block index is 0. -/
theorem index_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The input block at point `t` is the input array read at the output block's entries. -/
theorem iblk1_0_apply (c : Dev nD) (t : Fin cfg1.N) (y : S4096x64.Idx) :
    (iblk1 V c 0 t : Vec Ideal S4096x64 .f32) y = (V c main_v48 : S65536x64.Idx → EReal) (((cfg1.win 2).blk t).view.emb y) := by
  obtain ⟨e0, e1, -, e3, e4⟩ := index_facts1 t
  show (V c main_v48 : S65536x64.Idx → EReal) (((cfg1.win 0).blk t).view.emb y) = (V c main_v48 : S65536x64.Idx → EReal) (((cfg1.win 2).blk t).view.emb y)
  have h : ((cfg1.win 0).blk t).view.emb y = ((cfg1.win 2).blk t).view.emb y := by
    funext a; apply Fin.ext
    match a with
    | ⟨0, _⟩ => show win1_0.index t (0 : Fin 2) * 4096 + 1 * (y 0).val = win1_2.index t (0 : Fin 2) * 4096 + 1 * (y 0).val; omega
    | ⟨1, _⟩ => show win1_0.index t (1 : Fin 2) * 64 + 1 * (y 1).val = win1_2.index t (1 : Fin 2) * 64 + 1 * (y 1).val; omega
  rw [h]

/-- The bias block at every point is the whole bias. -/
theorem iblk1_1_apply (c : Dev nD) (t : Fin cfg1.N) (k : S64.Idx) :
    (iblk1 V c 1 t : Vec Ideal S64 .f32) k = (V c main_arg3 : S64.Idx → EReal) k := by
  obtain ⟨-, -, e2, -, -⟩ := index_facts1 t
  show (V c main_arg3 : S64.Idx → EReal) (((cfg1.win 1).blk t).view.emb k) = (V c main_arg3 : S64.Idx → EReal) k
  have h : ((cfg1.win 1).blk t).view.emb k = k := by
    funext a; apply Fin.ext
    match a with
    | ⟨0, _⟩ => show win1_1.index t (0 : Fin 1) * 64 + 1 * (k 0).val = (k 0).val; omega
  rw [h]

/-- An entry of the output block sits in its own column of the array. -/
theorem emb1_2_col (t : Fin cfg1.N) (y : S4096x64.Idx) : ((((cfg1.win 2).blk t).view.emb y) 1).val = (y 1).val := by
  obtain ⟨-, -, -, -, e4⟩ := index_facts1 t
  show win1_2.index t (1 : Fin 2) * 64 + 1 * (y 1).val = (y 1).val
  omega

/-- What point `t` writes back is block `t` of `biasRelu` of the input array and the bias as the region finds them. -/
theorem flushed1_eq (c : Dev nD) (t : Fin cfg1.N) :
    (dat1 (F := Ideal) V c).flushed 2 t
      = ((cfg1.win 2).blk t).view.read (Elt Ideal) (biasRelu (V c main_v48) (V c main_arg3)) := by
  show (cfg1.win 2).cut (grid1.coords t) ((dat1 (F := Ideal) V c).after 2 t) = _
  rw [after1_2]
  funext j
  obtain ⟨p, q, rfl⟩ : ∃ (p : Fin 4096) (q : Fin 64), j = ix2 p q := ⟨j 0, j 1, eq_ix2 j⟩
  show out1_2 (iblk1 V c 0 t) (iblk1 V c 1 t) (ix2 p q) = biasRelu (V c main_v48) (V c main_arg3) (((cfg1.win 2).blk t).view.emb (ix2 p q))
  rw [out1_2_apply]
  exact blockArith_eq_biasRelu (V c main_v48) (V c main_arg3) (iblk1 V c 0 t) (iblk1 V c 1 t) (((cfg1.win 2).blk t).view.emb)
    (iblk1_0_apply V c t) (iblk1_1_apply V c t) (emb1_2_col t) p q

/-- An entry of the array is in point `t`'s output block iff each coordinate is in the block's range on its axis. -/
theorem mem_blk1 (t : Fin cfg1.N) (i : S65536x64.Idx) :
    i ∈ ((cfg1.win 2).blk t).view.set ↔ ∀ a : Fin 2, win1_2.index t a * S4096x64.size a ≤ (i a).val ∧ (i a).val < win1_2.index t a * S4096x64.size a + S4096x64.size a := by
  show i ∈ ((View.whole main_v49).slice (win1_2.rect t)).set ↔ _
  rw [View.set_slice_whole, Rect.mem_set_unit]
  exact Iff.rfl

/-- Every entry of the output array is in the block of the point its row falls in: row r in block r / 4096. -/
theorem cover1 (i : S65536x64.Idx) : ∃ t : Fin cfg1.N, (cfg1.win 2).flush t = true ∧ i ∈ ((cfg1.win 2).blk t).view.set := by
  have hi0 : (i 0).val < 65536 := (i 0).isLt
  have hi1 : (i 1).val < 64 := (i 1).isLt
  have hN : grid1.N = 16 := N_1
  let t : Fin cfg1.N := ⟨(i 0).val / 4096, by show (i 0).val / 4096 < grid1.N; omega⟩
  obtain ⟨-, -, -, e3, e4⟩ := index_facts1 t
  have ht : t.val = (i 0).val / 4096 := rfl
  refine ⟨t, flush1_2 t, ?_⟩
  rw [mem_blk1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 64 ≤ (i 1).val ∧ (i 1).val < win1_2.index t (1 : Fin 2) * 64 + 64; omega

/-- THE OUTPUT ARRAY OF REGION 1 after its 16 points: bias added along the rows of the input, cut below at zero. -/
theorem region1_array (c : Dev nD) :
    (dat1 (F := Ideal) V c).arrAt 2 cfg1.N = biasRelu (V c main_v48) (V c main_arg3) :=
  (dat1 (F := Ideal) V c).arrAt_eq_of_cover 2 (biasRelu (V c main_v48) (V c main_arg3)) (fun t _ => flushed1_eq V c t) cover1

end Region1

/-! ## Region 3: main_v63, main_arg5 ↦ main_v64 -/

section Region3

variable (V : (c : Dev nD) → (b : Ref sig .tc) → Buf (Elt Ideal) ((c : Thread nD τ).loc b))

/-- What region 3's body stores, at an entry of the block. -/
theorem out3_2_apply (x0 : Vec Ideal S4096x64 .f32) (x1 : Vec Ideal S64 .f32) (p : Fin 4096) (q : Fin 64) :
    out3_2 x0 x1 (ix2 p q) = max (x0 (ix2 p q) + x1 (ix1 q)) 0 := by
  unfold out3_2
  rw [View.canon_unit_zero zeroOff2]
  simp only [View.ld_unit_zero (S := S4096x64) zeroOff2, View.ld_unit_zero (S := S64) zeroOff1]
  unfold k3_pay1
  exact blockArith_apply x0 x1 _ _ _ p q

/-- The block-index maps of region 3 over its 16 points: the input's and the output's row-block index is the
    point's number, their column-block index is 0, and the bias's block index is 0. -/
theorem index_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The input block at point `t` is the input array read at the output block's entries. -/
theorem iblk3_0_apply (c : Dev nD) (t : Fin cfg3.N) (y : S4096x64.Idx) :
    (iblk3 V c 0 t : Vec Ideal S4096x64 .f32) y = (V c main_v63 : S65536x64.Idx → EReal) (((cfg3.win 2).blk t).view.emb y) := by
  obtain ⟨e0, e1, -, e3, e4⟩ := index_facts3 t
  show (V c main_v63 : S65536x64.Idx → EReal) (((cfg3.win 0).blk t).view.emb y) = (V c main_v63 : S65536x64.Idx → EReal) (((cfg3.win 2).blk t).view.emb y)
  have h : ((cfg3.win 0).blk t).view.emb y = ((cfg3.win 2).blk t).view.emb y := by
    funext a; apply Fin.ext
    match a with
    | ⟨0, _⟩ => show win3_0.index t (0 : Fin 2) * 4096 + 1 * (y 0).val = win3_2.index t (0 : Fin 2) * 4096 + 1 * (y 0).val; omega
    | ⟨1, _⟩ => show win3_0.index t (1 : Fin 2) * 64 + 1 * (y 1).val = win3_2.index t (1 : Fin 2) * 64 + 1 * (y 1).val; omega
  rw [h]

/-- The bias block at every point is the whole bias. -/
theorem iblk3_1_apply (c : Dev nD) (t : Fin cfg3.N) (k : S64.Idx) :
    (iblk3 V c 1 t : Vec Ideal S64 .f32) k = (V c main_arg5 : S64.Idx → EReal) k := by
  obtain ⟨-, -, e2, -, -⟩ := index_facts3 t
  show (V c main_arg5 : S64.Idx → EReal) (((cfg3.win 1).blk t).view.emb k) = (V c main_arg5 : S64.Idx → EReal) k
  have h : ((cfg3.win 1).blk t).view.emb k = k := by
    funext a; apply Fin.ext
    match a with
    | ⟨0, _⟩ => show win3_1.index t (0 : Fin 1) * 64 + 1 * (k 0).val = (k 0).val; omega
  rw [h]

/-- An entry of the output block sits in its own column of the array. -/
theorem emb3_2_col (t : Fin cfg3.N) (y : S4096x64.Idx) : ((((cfg3.win 2).blk t).view.emb y) 1).val = (y 1).val := by
  obtain ⟨-, -, -, -, e4⟩ := index_facts3 t
  show win3_2.index t (1 : Fin 2) * 64 + 1 * (y 1).val = (y 1).val
  omega

/-- What point `t` writes back is block `t` of `biasRelu` of the input array and the bias as the region finds them. -/
theorem flushed3_eq (c : Dev nD) (t : Fin cfg3.N) :
    (dat3 (F := Ideal) V c).flushed 2 t
      = ((cfg3.win 2).blk t).view.read (Elt Ideal) (biasRelu (V c main_v63) (V c main_arg5)) := by
  show (cfg3.win 2).cut (grid3.coords t) ((dat3 (F := Ideal) V c).after 2 t) = _
  rw [after3_2]
  funext j
  obtain ⟨p, q, rfl⟩ : ∃ (p : Fin 4096) (q : Fin 64), j = ix2 p q := ⟨j 0, j 1, eq_ix2 j⟩
  show out3_2 (iblk3 V c 0 t) (iblk3 V c 1 t) (ix2 p q) = biasRelu (V c main_v63) (V c main_arg5) (((cfg3.win 2).blk t).view.emb (ix2 p q))
  rw [out3_2_apply]
  exact blockArith_eq_biasRelu (V c main_v63) (V c main_arg5) (iblk3 V c 0 t) (iblk3 V c 1 t) (((cfg3.win 2).blk t).view.emb)
    (iblk3_0_apply V c t) (iblk3_1_apply V c t) (emb3_2_col t) p q

/-- An entry of the array is in point `t`'s output block iff each coordinate is in the block's range on its axis. -/
theorem mem_blk3 (t : Fin cfg3.N) (i : S65536x64.Idx) :
    i ∈ ((cfg3.win 2).blk t).view.set ↔ ∀ a : Fin 2, win3_2.index t a * S4096x64.size a ≤ (i a).val ∧ (i a).val < win3_2.index t a * S4096x64.size a + S4096x64.size a := by
  show i ∈ ((View.whole main_v64).slice (win3_2.rect t)).set ↔ _
  rw [View.set_slice_whole, Rect.mem_set_unit]
  exact Iff.rfl

/-- Every entry of the output array is in the block of the point its row falls in: row r in block r / 4096. -/
theorem cover3 (i : S65536x64.Idx) : ∃ t : Fin cfg3.N, (cfg3.win 2).flush t = true ∧ i ∈ ((cfg3.win 2).blk t).view.set := by
  have hi0 : (i 0).val < 65536 := (i 0).isLt
  have hi1 : (i 1).val < 64 := (i 1).isLt
  have hN : grid3.N = 16 := N_3
  let t : Fin cfg3.N := ⟨(i 0).val / 4096, by show (i 0).val / 4096 < grid3.N; omega⟩
  obtain ⟨-, -, -, e3, e4⟩ := index_facts3 t
  have ht : t.val = (i 0).val / 4096 := rfl
  refine ⟨t, flush3_2 t, ?_⟩
  rw [mem_blk3]
  intro a
  match a with
  | ⟨0, _⟩ => show win3_2.index t (0 : Fin 2) * 4096 ≤ (i 0).val ∧ (i 0).val < win3_2.index t (0 : Fin 2) * 4096 + 4096; omega
  | ⟨1, _⟩ => show win3_2.index t (1 : Fin 2) * 64 ≤ (i 1).val ∧ (i 1).val < win3_2.index t (1 : Fin 2) * 64 + 64; omega

/-- THE OUTPUT ARRAY OF REGION 3 after its 16 points: bias added along the rows of the input, cut below at zero. -/
theorem region3_array (c : Dev nD) :
    (dat3 (F := Ideal) V c).arrAt 2 cfg3.N = biasRelu (V c main_v63) (V c main_arg5) :=
  (dat3 (F := Ideal) V c).arrAt_eq_of_cover 2 (biasRelu (V c main_v63) (V c main_arg5)) (fun t _ => flushed3_eq V c t) cover3

end Region3

end Cert.KernelIdeal.BiasRelu

end
-- ==== Proof.SpecApply.lean ====
/-
  The stages of the graph convolution read at an index.

  Each stage is a composition of array operations; read at one index it is an ordinary formula in the
  entries of its arguments: a bias-and-rectify is  max(a[r,c] + b[c], 0); a linear map is the row-by-column
  sum  Σ_k h[r,k] · W[k,c]; the head adds its bias to that sum; and the row-wise log-softmax at (r,c) is
  (l[r,c] − M_r) − log Σ_j exp(l[r,j] − M_r)  with  M_r  the maximum of row r (never below −∞).
-/
import proofs.«156117_j69844758167859_1_alg».proof.Proof.Spec
import Idealize.ShloMosaic.PureOps.Ideal.Laws
import Idealize.ShloMosaic.Lib.ValueIdx
import Idealize.ShloMosaic.Lib.Pipeline.Value

noncomputable section

namespace Cert.Gcn.Apply

open Idealize.ShloMosaic Idealize.ShloMosaic.ValueIdx Cert.ReferenceIdeal Cert.ReferenceIdeal.Gen Cert.Gcn

/-! ## Broadcasts read at an index -/

section Broadcasts
variable {α : Type}

/-- A scalar broadcast to any shape reads the scalar. -/
theorem broadcast_scalar_apply {t : Shape} (h : (⟨0, ![]⟩ : Shape).BroadcastsInDim t ![])
    (x : (⟨0, ![]⟩ : Shape).Idx → α) (i : t.Idx) : broadcastInDim t ![] h x i = x ix0 := by
  unfold broadcastInDim
  exact congrArg x (funext fun a => a.elim0)

/-- A vector laid out as one row, \`[n] → [1, n]\`: the entry at the column. -/
theorem broadcast_as_row_apply {n : Nat} (hn : n ≠ 1) (h : (⟨1, ![n]⟩ : Shape).BroadcastsInDim ⟨2, ![1, n]⟩ ![1])
    (b : (⟨1, ![n]⟩ : Shape).Idx → α) (k : (⟨2, ![1, n]⟩ : Shape).Idx) :
    broadcastInDim ⟨2, ![1, n]⟩ ![1] h b k = b (ix1 (k 1)) :=
  broadcastInDim_apply _ h b k (ix1 (k 1)) (fun a => match a with
    | ⟨0, _⟩ => by show (k 1).val = if n = 1 then 0 else (k 1).val; rw [if_neg hn])

/-- One row repeated down the rows, \`[1, n] → [m, n]\`: the row's entry at the column. -/
theorem broadcast_rows_apply {m n : Nat} (hn : n ≠ 1) (h : (⟨2, ![1, n]⟩ : Shape).BroadcastsInDim ⟨2, ![m, n]⟩ ![0, 1])
    (y : (⟨2, ![1, n]⟩ : Shape).Idx → α) (i : (⟨2, ![m, n]⟩ : Shape).Idx) :
    broadcastInDim ⟨2, ![m, n]⟩ ![0, 1] h y i = y (ix2 ⟨0, Nat.one_pos⟩ (i 1)) :=
  broadcastInDim_apply _ h y i (ix2 ⟨0, Nat.one_pos⟩ (i 1)) (fun a => match a with
    | ⟨0, _⟩ => by show 0 = if (1 : Nat) = 1 then 0 else (i 0).val; rw [if_pos rfl]
    | ⟨1, _⟩ => by show (i 1).val = if n = 1 then 0 else (i 1).val; rw [if_neg hn])

/-- A vector laid out as one column, \`[m] → [m, 1]\`: the entry at the row. -/
theorem broadcast_as_col_apply {m : Nat} (hm : m ≠ 1) (h : (⟨1, ![m]⟩ : Shape).BroadcastsInDim ⟨2, ![m, 1]⟩ ![0])
    (v : (⟨1, ![m]⟩ : Shape).Idx → α) (k : (⟨2, ![m, 1]⟩ : Shape).Idx) :
    broadcastInDim ⟨2, ![m, 1]⟩ ![0] h v k = v (ix1 (k 0)) :=
  broadcastInDim_apply _ h v k (ix1 (k 0)) (fun a => match a with
    | ⟨0, _⟩ => by show (k 0).val = if m = 1 then 0 else (k 0).val; rw [if_neg hm])

/-- One column repeated along the rows, \`[m, 1] → [m, n]\`: the column's entry at the row. -/
theorem broadcast_cols_apply {m n : Nat} (hm : m ≠ 1) (h : (⟨2, ![m, 1]⟩ : Shape).BroadcastsInDim ⟨2, ![m, n]⟩ ![0, 1])
    (y : (⟨2, ![m, 1]⟩ : Shape).Idx → α) (i : (⟨2, ![m, n]⟩ : Shape).Idx) :
    broadcastInDim ⟨2, ![m, n]⟩ ![0, 1] h y i = y (ix2 (i 0) ⟨0, Nat.one_pos⟩) :=
  broadcastInDim_apply _ h y i (ix2 (i 0) ⟨0, Nat.one_pos⟩) (fun a => match a with
    | ⟨0, _⟩ => by show (i 0).val = if m = 1 then 0 else (i 0).val; rw [if_neg hm]
    | ⟨1, _⟩ => by show 0 = if (1 : Nat) = 1 then 0 else (i 1).val; rw [if_pos rfl])

end Broadcasts

/-! ## A matrix product read at an index -/

/-- A product of an \`[m, k]\` by a \`[k, n]\` matrix whose dimension numbers put the output's row on the left
    operand's first axis, its column on the right operand's second, and contract the other two: the entry at
    (r, c) is  Σ_q x[r, q] · y[q, c]. -/
theorem dot_rows_cols_apply {m k n : Nat} {φ₁ φ₂ : FTy} (d : DotDims ⟨2, ![m, k]⟩ ⟨2, ![k, n]⟩ ⟨2, ![m, n]⟩)
    (hr : d.contr.rank = 1) (hs : d.contr.size ⟨0, by omega⟩ = k)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (prec : Option ContractPrecision) (x : FVec Ideal ⟨2, ![m, k]⟩ φ₁) (y : FVec Ideal ⟨2, ![k, n]⟩ φ₂)
    (i : (⟨2, ![m, n]⟩ : Shape).Idx) :
    Host.dotGeneral d prec x y i = ∑ q : Fin k, x (ix2 (i 0) q) * y (ix2 q (i 1)) := by
  show FloatOps.dotGeneral d prec .single x y i = _
  rw [Ideal.dotGeneral_apply, ← Equiv.sum_comp (contrEquiv1 d k hr hs).symm]
  refine Finset.sum_congr rfl fun q _ => ?_
  have hq := contrEquiv1_symm_val d k hr hs q
  have el : d.lhsIdx i ((contrEquiv1 d k hr hs).symm q) = ix2 (i 0) q := funext fun a => Fin.ext (by
    match a with
    | ⟨0, _⟩ => exact hl0 _ _
    | ⟨1, _⟩ => exact (hl1 _ _).trans hq)
  have er : d.rhsIdx i ((contrEquiv1 d k hr hs).symm q) = ix2 q (i 1) := funext fun a => Fin.ext (by
    match a with
    | ⟨0, _⟩ => exact (hr0 _ _).trans hq
    | ⟨1, _⟩ => exact hr1 _ _)
  rw [el, er]
  rfl

/-! The three products of the network: the coordinates their dimension numbers give. -/

private theorem lin1_l0 (i) (q : dot_S65536x128_S128x64_S65536x64_1_0_0_1_n_n.contr.Idx) : (dot_S65536x128_S128x64_S65536x64_1_0_0_1_n_n.lhsIdx i q 0).val = (i 0).val := by
  unfold DotDims.lhsIdx
  rw [dif_neg (show ¬(0 : Fin S65536x128.rank) ∈ dot_S65536x128_S128x64_S65536x64_1_0_0_1_n_n.lhsBatch by decide),
    dif_pos (show (0 : Fin S65536x128.rank) ∈ dot_S65536x128_S128x64_S65536x64_1_0_0_1_n_n.lhsNonContracting by decide)]
  rfl
private theorem lin1_r1 (i) (q : dot_S65536x128_S128x64_S65536x64_1_0_0_1_n_n.contr.Idx) : (dot_S65536x128_S128x64_S65536x64_1_0_0_1_n_n.rhsIdx i q 1).val = (i 1).val := by
  unfold DotDims.rhsIdx
  rw [dif_neg (show ¬(1 : Fin S128x64.rank) ∈ dot_S65536x128_S128x64_S65536x64_1_0_0_1_n_n.rhsBatch by decide),
    dif_pos (show (1 : Fin S128x64.rank) ∈ dot_S65536x128_S128x64_S65536x64_1_0_0_1_n_n.rhsNonContracting by decide)]
  rfl

private theorem lin2_l0 (i) (q : dot_S65536x64_S64x64_S65536x64_1_0_0_1_n_n.contr.Idx) : (dot_S65536x64_S64x64_S65536x64_1_0_0_1_n_n.lhsIdx i q 0).val = (i 0).val := by
  unfold DotDims.lhsIdx
  rw [dif_neg (show ¬(0 : Fin S65536x64.rank) ∈ dot_S65536x64_S64x64_S65536x64_1_0_0_1_n_n.lhsBatch by decide),
    dif_pos (show (0 : Fin S65536x64.rank) ∈ dot_S65536x64_S64x64_S65536x64_1_0_0_1_n_n.lhsNonContracting by decide)]
  rfl
private theorem lin2_r1 (i) (q : dot_S65536x64_S64x64_S65536x64_1_0_0_1_n_n.contr.Idx) : (dot_S65536x64_S64x64_S65536x64_1_0_0_1_n_n.rhsIdx i q 1).val = (i 1).val := by
  unfold DotDims.rhsIdx
  rw [dif_neg (show ¬(1 : Fin S64x64.rank) ∈ dot_S65536x64_S64x64_S65536x64_1_0_0_1_n_n.rhsBatch by decide),
    dif_pos (show (1 : Fin S64x64.rank) ∈ dot_S65536x64_S64x64_S65536x64_1_0_0_1_n_n.rhsNonContracting by decide)]
  rfl

private theorem head_l0 (i) (q : dot_S65536x64_S64x40_S65536x40_1_0_0_1_n_n.contr.Idx) : (dot_S65536x64_S64x40_S65536x40_1_0_0_1_n_n.lhsIdx i q 0).val = (i 0).val := by
  unfold DotDims.lhsIdx
  rw [dif_neg (show ¬(0 : Fin S65536x64.rank) ∈ dot_S65536x64_S64x40_S65536x40_1_0_0_1_n_n.lhsBatch by decide),
    dif_pos (show (0 : Fin S65536x64.rank) ∈ dot_S65536x64_S64x40_S65536x40_1_0_0_1_n_n.lhsNonContracting by decide)]
  rfl
private theorem head_r1 (i) (q : dot_S65536x64_S64x40_S65536x40_1_0_0_1_n_n.contr.Idx) : (dot_S65536x64_S64x40_S65536x40_1_0_0_1_n_n.rhsIdx i q 1).val = (i 1).val := by
  unfold DotDims.rhsIdx
  rw [dif_neg (show ¬(1 : Fin S64x40.rank) ∈ dot_S65536x64_S64x40_S65536x40_1_0_0_1_n_n.rhsBatch by decide),
    dif_pos (show (1 : Fin S64x40.rank) ∈ dot_S65536x64_S64x40_S65536x40_1_0_0_1_n_n.rhsNonContracting by decide)]
  rfl

/-! ## The stages at an index -/

/-- The float zero of the program text. -/
theorem zero_bcast_apply {t : Shape} (h : S_.BroadcastsInDim t ![]) (i : t.Idx) :
    broadcastInDim t ![] h (zeroS (F := Ideal)) i = 0 :=
  (broadcast_scalar_apply h _ i).trans Ideal.ofBits_zero_f32

/-- The first layer's linear map at (r, c):  Σ_k x0[r, k] · x2[k, c]. -/
theorem lin1_apply (x0 : Arr Ideal S65536x128 .f32) (x2 : Arr Ideal S128x64 .f32) (i : S65536x64.Idx) :
    lin1 (F := Ideal) x0 x2 i = ∑ k : Fin 128, x0 (ix2 (i 0) k) * x2 (ix2 k (i 1)) := by
  unfold lin1
  exact dot_rows_cols_apply dot_S65536x128_S128x64_S65536x64_1_0_0_1_n_n rfl rfl lin1_l0
    (fun i q => dot_S65536x128_S128x64_S65536x64_1_0_0_1_n_n.lhsIdx_val_of_single rfl i q)
    (fun i q => dot_S65536x128_S128x64_S65536x64_1_0_0_1_n_n.rhsIdx_val_of_single rfl i q) lin1_r1 none x0 x2 i

/-- The second layer's linear map at (r, c):  Σ_k h[r, k] · x4[k, c]. -/
theorem lin2_apply (h : Arr Ideal S65536x64 .f32) (x4 : Arr Ideal S64x64 .f32) (i : S65536x64.Idx) :
    lin2 (F := Ideal) h x4 i = ∑ k : Fin 64, h (ix2 (i 0) k) * x4 (ix2 k (i 1)) := by
  unfold lin2
  exact dot_rows_cols_apply dot_S65536x64_S64x64_S65536x64_1_0_0_1_n_n rfl rfl lin2_l0
    (fun i q => dot_S65536x64_S64x64_S65536x64_1_0_0_1_n_n.lhsIdx_val_of_single rfl i q)
    (fun i q => dot_S65536x64_S64x64_S65536x64_1_0_0_1_n_n.rhsIdx_val_of_single rfl i q) lin2_r1 none h x4 i

/-- Bias and rectification at (r, c):  max(a[r, c] + b[c], 0). -/
theorem biasRelu_apply (a : Arr Ideal S65536x64 .f32) (b : Arr Ideal S64 .f32) (i : S65536x64.Idx) :
    biasRelu (F := Ideal) a b i = max (a i + b (ix1 (i 1))) 0 := by
  have e1 : broadcastInDim S65536x64 ![0, 1] bcast_S1x64_S65536x64_0_1 (broadcastInDim S1x64 ![1] bcast_S64_S1x64_1 b) i
      = b (ix1 (i 1)) :=
    (broadcast_rows_apply (by decide) bcast_S1x64_S65536x64_0_1 _ i).trans
      (broadcast_as_row_apply (by decide) bcast_S64_S1x64_1 b _)
  have e2 := zero_bcast_apply bcast_S_S65536x64 i
  unfold biasRelu
  show max (a i + _) _ = _
  rw [e1, e2]

/-- The head at (r, c):  Σ_k h[r, k] · x6[k, c] + x7[c]. -/
theorem logits_apply (h : Arr Ideal S65536x64 .f32) (x6 : Arr Ideal S64x40 .f32) (x7 : Arr Ideal S40 .f32) (i : S65536x40.Idx) :
    logits (F := Ideal) h x6 x7 i = (∑ k : Fin 64, h (ix2 (i 0) k) * x6 (ix2 k (i 1))) + x7 (ix1 (i 1)) := by
  have e1 : broadcastInDim S65536x40 ![0, 1] bcast_S1x40_S65536x40_0_1 (broadcastInDim S1x40 ![1] bcast_S40_S1x40_1 x7) i
      = x7 (ix1 (i 1)) :=
    (broadcast_rows_apply (by decide) bcast_S1x40_S65536x40_0_1 _ i).trans
      (broadcast_as_row_apply (by decide) bcast_S40_S1x40_1 x7 _)
  have e2 : Host.dotGeneral (F := Ideal) (φ₁ := .f32) (φ₂ := .f32) dot_S65536x64_S64x40_S65536x40_1_0_0_1_n_n none h x6 i
      = ∑ k : Fin 64, h (ix2 (i 0) k) * x6 (ix2 k (i 1)) :=
    dot_rows_cols_apply dot_S65536x64_S64x40_S65536x40_1_0_0_1_n_n rfl rfl head_l0
      (fun i q => dot_S65536x64_S64x40_S65536x40_1_0_0_1_n_n.lhsIdx_val_of_single rfl i q)
      (fun i q => dot_S65536x64_S64x40_S65536x40_1_0_0_1_n_n.rhsIdx_val_of_single rfl i q) head_r1 none h x6 i
  unfold logits
  show _ + _ = _
  rw [e1, e2]

/-! ## The row-wise log-softmax at an index -/

/-- The word \`0xFF800000\` is the float −∞. -/
theorem ofBits_neg_inf_f32 : Ideal.ofBits .f32 0xFF800000#32 = ⊥ := by simp [Ideal.ofBits, Ideal.ieee]

/-- The host's logarithm and exponential act entry by entry. -/
theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- The maximum-reduction of the rows, from −∞: at row r the running maximum over the row's forty columns. -/
theorem rowFold_apply (l : Arr Ideal S65536x40 .f32) (r : S65536.Idx) :
    Host.reduce (FloatOps.maximumf (F := Ideal) (φ := .f32)) l (negInfS (F := Ideal)) reducesTo_S65536x40_S65536_d1 h_S_ r
      = (Finset.univ : Finset (Fin 40)).fold max (⊥ : EReal) (fun j => l (ix2 (r 0) j)) := by
  refine (Host.reduce_eq_fold_single (FloatOps.maximumf (F := Ideal) (φ := .f32)) l (negInfS (F := Ideal))
    reducesTo_S65536x40_S65536_d1 (by decide) h_S_ r).trans ?_
  have hb : (negInfS (F := Ideal)) (Shape.Idx.first h_S_) = ⊥ := ofBits_neg_inf_f32
  rw [hb]
  exact Finset.fold_congr fun j _ =>
    congrArg l (funext fun a => Fin.ext (by match a with | ⟨0, _⟩ => rfl | ⟨1, _⟩ => rfl))

/-- The maximum of row r, never below −∞. -/
theorem rowMax_apply (l : Arr Ideal S65536x40 .f32) (r : S65536.Idx) :
    rowMax (F := Ideal) l r
      = max ⊥ ((Finset.univ : Finset (Fin 40)).fold max (⊥ : EReal) (fun j => l (ix2 (r 0) j))) := by
  have e1 : broadcastInDim S65536 ![] bcast_S_S65536 (negInfS (F := Ideal)) r = ⊥ :=
    (broadcast_scalar_apply bcast_S_S65536 _ r).trans ofBits_neg_inf_f32
  unfold rowMax
  refine (maximumf_apply _ _ r).trans ?_
  rw [rowFold_apply l r, e1]

/-- A row minus its maximum, at (r, c). -/
theorem shifted_apply (l : Arr Ideal S65536x40 .f32) (i : S65536x40.Idx) :
    shifted (F := Ideal) l i = l i - rowMax (F := Ideal) l (ix1 (i 0)) := by
  have e : broadcastInDim S65536x40 ![0, 1] bcast_S65536x1_S65536x40_0_1
      (broadcastInDim S65536x1 ![0] bcast_S65536_S65536x1_0 (rowMax (F := Ideal) l)) i = rowMax (F := Ideal) l (ix1 (i 0)) :=
    (broadcast_cols_apply (by decide) bcast_S65536x1_S65536x40_0_1 _ i).trans
      (broadcast_as_col_apply (by decide) bcast_S65536_S65536x1_0 _ _)
  unfold shifted
  refine (subf_apply _ _ i).trans ?_
  rw [e]

/-- The sum-reduction of the rows, from zero: at row r, zero plus the sum over the row's forty columns. -/
theorem rowSum_apply (y : Arr Ideal S65536x40 .f32) (r : S65536.Idx) :
    Host.reduceAdd (F := Ideal) (φ := .f32) y (zeroS (F := Ideal)) reducesTo_S65536x40_S65536_d1 h_S_ r
      = 0 + ∑ j : Fin 40, y (ix2 (r 0) j) := by
  simp only [Host.reduceAdd, Ideal.hostReduceAdd_def]
  rw [Ideal.hostReduceAdd_single reducesTo_S65536x40_S65536_d1 (by decide)]
  have hz : (zeroS (F := Ideal)) (Shape.Idx.first h_S_) = 0 := Ideal.ofBits_zero_f32
  rw [hz]
  refine congrArg (0 + ·) (Finset.sum_congr rfl fun j _ => ?_)
  exact congrArg y (funext fun a => Fin.ext (by match a with | ⟨0, _⟩ => rfl | ⟨1, _⟩ => rfl))

/-- The log-softmax at (r, c):  (l[r,c] − M) − log(0 + Σ_j exp(l[r,j] − M)),  M the maximum of row r. -/
theorem logSoftmax_apply (l : Arr Ideal S65536x40 .f32) (i : S65536x40.Idx) :
    logSoftmax (F := Ideal) l i
      = (l i - max ⊥ ((Finset.univ : Finset (Fin 40)).fold max (⊥ : EReal) (fun j => l (ix2 (i 0) j))))
        - Ideal.log (0 + ∑ j : Fin 40, Ideal.exp (l (ix2 (i 0) j)
            - max ⊥ ((Finset.univ : Finset (Fin 40)).fold max (⊥ : EReal) (fun j => l (ix2 (i 0) j))))) := by
  have eM : rowMax (F := Ideal) l (ix1 (i 0))
      = max ⊥ ((Finset.univ : Finset (Fin 40)).fold max (⊥ : EReal) (fun j => l (ix2 (i 0) j))) :=
    rowMax_apply l (ix1 (i 0))
  have eRow : ∀ j : Fin 40, shifted (F := Ideal) l (ix2 (i 0) j)
      = l (ix2 (i 0) j) - max ⊥ ((Finset.univ : Finset (Fin 40)).fold max (⊥ : EReal) (fun j => l (ix2 (i 0) j))) :=
    fun j => (shifted_apply l (ix2 (i 0) j)).trans (congrArg (l (ix2 (i 0) j) - ·) eM)
  have eSum : Host.reduceAdd (F := Ideal) (φ := .f32) (Host.exp (F := Ideal) (φ := .f32) (shifted (F := Ideal) l))
        (zeroS (F := Ideal)) reducesTo_S65536x40_S65536_d1 h_S_ (ix1 (i 0))
      = 0 + ∑ j : Fin 40, Ideal.exp (shifted (F := Ideal) l (ix2 (i 0) j)) :=
    (rowSum_apply _ (ix1 (i 0))).trans
      (congrArg (0 + ·) (Finset.sum_congr rfl fun j _ => hostExp_apply _ _))
  unfold logSoftmax
  refine (subf_apply _ _ i).trans ?_
  refine congrArg₂ (· - ·) ((shifted_apply l i).trans (congrArg (l i - ·) eM)) ?_
  refine (broadcast_cols_apply (by decide) bcast_S65536x1_S65536x40_0_1 _ i).trans ?_
  refine (hostLog_apply _ _).trans (congrArg Ideal.log ?_)
  refine (broadcast_as_col_apply (by decide) bcast_S65536_S65536x1_0 _ _).trans ?_
  refine eSum.trans ?_
  exact congrArg (0 + ·) (Finset.sum_congr rfl fun j _ => congrArg Ideal.exp (eRow j))

end Cert.Gcn.Apply
-- ==== Proof.Layer1.lean ====
/-
  From the first region's entry to the second layer's input.

  The first region writes  x · W1  block by block; the 16 blocks of 4096 rows cover the array, so at its exit the array is the
  specification's `lin1`. The stretch after it gathers, scales and scatter-adds that array along the edges (`aggregate`),
  reading the edge arrays computed before the first region, which no region and no later operation writes. The second
  region adds the bias and clamps at 0, again block by block: at its exit its array is the specification's `hidden1`.
-/
import proofs.«156117_j69844758167859_1_alg».proof.Proof.Entry0
import proofs.«156117_j69844758167859_1_alg».proof.Proof.MatmulArray
import proofs.«156117_j69844758167859_1_alg».proof.Proof.BiasReluArray
import proofs.«156117_j69844758167859_1_alg».proof.Proof.SpecApply
import Idealize.ShloMosaic.PureOps.Ideal
import Idealize.ShloMosaic.PureOps.Ideal.Laws
import Idealize.ShloMosaic.Lib.StableHlo.Run

set_option maxRecDepth 65536

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Idealize.ShloMosaic.ValueIdx

/-- The first region leaves x · W1. -/
theorem exit0_lin1 (c : Dev nD) :
    W6 m ρ c (Proc.devRef .tc main_v35) = Cert.Gcn.lin1 (F := Ideal) (m ((c : Thread nD τ).loc main_arg0)) (m ((c : Thread nD τ).loc main_arg2)) := by
  refine (W6_arr m ρ c 2).trans ?_
  rw [Cert.KernelIdeal.Matmul.region0_array]
  have e0 : V5 m ρ c main_arg0 = (m ((c : Thread nD τ).loc main_arg0)) := entry0_features m ρ c
  have e2 : V5 m ρ c main_arg2 = (m ((c : Thread nD τ).loc main_arg2)) := entry0_weight m ρ c
  rw [e0, e2]
  funext i
  exact (Cert.Gcn.Apply.lin1_apply _ _ i).symm

/-- The aggregation stretch, from any contents: its result is `aggregate` of the four arrays it reads. -/
theorem stretch1_aggregate (V : Valuation τ sig (Elt Ideal)) :
    StableHlo.after hostOps1 V (Proc.devRef .tc main_v48)
      = Cert.Gcn.aggregate (F := Ideal) (V (Proc.devRef .tc main_v34)) (V (Proc.devRef .tc main_v35))
          (V (Proc.devRef .tc main_v5)) (V (Proc.devRef .tc main_v6)) := by
  after_results_simp <;> rfl

/-- The aggregation stretch writes none of the buffers read later. -/
theorem stretch1_keeps (V : Valuation τ sig (Elt Ideal)) :
    StableHlo.after hostOps1 V (Proc.devRef .tc main_v34) = V (Proc.devRef .tc main_v34)
    ∧ StableHlo.after hostOps1 V (Proc.devRef .tc main_v5) = V (Proc.devRef .tc main_v5)
    ∧ StableHlo.after hostOps1 V (Proc.devRef .tc main_v6) = V (Proc.devRef .tc main_v6)
    ∧ StableHlo.after hostOps1 V (Proc.devRef .tc main_arg3) = V (Proc.devRef .tc main_arg3)
    ∧ StableHlo.after hostOps1 V (Proc.devRef .tc main_arg4) = V (Proc.devRef .tc main_arg4)
    ∧ StableHlo.after hostOps1 V (Proc.devRef .tc main_arg5) = V (Proc.devRef .tc main_arg5)
    ∧ StableHlo.after hostOps1 V (Proc.devRef .tc main_arg6) = V (Proc.devRef .tc main_arg6)
    ∧ StableHlo.after hostOps1 V (Proc.devRef .tc main_arg7) = V (Proc.devRef .tc main_arg7) := by
  refine ⟨?_, ?_, ?_, ?_, ?_, ?_, ?_, ?_⟩ <;> (after_results_simp <;> rfl)

/-- What the later stretches read, at the second region's entry: the edge arrays and the remaining arguments. -/
theorem entry1_keeps (c : Dev nD) :
    W7 m ρ c (Proc.devRef .tc main_v34) = (Cert.Gcn.edgeNorm (F := Ideal) (m ((c : Thread nD τ).loc main_arg1)) (m ((c : Thread nD τ).loc main_arg8)))
    ∧ W7 m ρ c (Proc.devRef .tc main_v5) = (Cert.Gcn.sources (F := Ideal) (m ((c : Thread nD τ).loc main_arg8)))
    ∧ W7 m ρ c (Proc.devRef .tc main_v6) = (Cert.Gcn.targets (F := Ideal) (m ((c : Thread nD τ).loc main_arg8)))
    ∧ W7 m ρ c (Proc.devRef .tc main_arg3) = (m ((c : Thread nD τ).loc main_arg3))
    ∧ W7 m ρ c (Proc.devRef .tc main_arg4) = (m ((c : Thread nD τ).loc main_arg4))
    ∧ W7 m ρ c (Proc.devRef .tc main_arg5) = (m ((c : Thread nD τ).loc main_arg5))
    ∧ W7 m ρ c (Proc.devRef .tc main_arg6) = (m ((c : Thread nD τ).loc main_arg6))
    ∧ W7 m ρ c (Proc.devRef .tc main_arg7) = (m ((c : Thread nD τ).loc main_arg7)) := by
  obtain ⟨k1, k2, k3, k4, k5, k6, k7, k8⟩ := stretch1_keeps (W6 m ρ c)
  exact ⟨k1.trans ((W6_of_ne m ρ c main_v34 (by decide)).trans (entry0_norm m ρ c)),
    k2.trans ((W6_of_ne m ρ c main_v5 (by decide)).trans (entry0_sources m ρ c)),
    k3.trans ((W6_of_ne m ρ c main_v6 (by decide)).trans (entry0_targets m ρ c)),
    k4.trans ((W6_of_ne m ρ c main_arg3 (by decide)).trans (entry0_arg3 m ρ c)),
    k5.trans ((W6_of_ne m ρ c main_arg4 (by decide)).trans (entry0_arg4 m ρ c)),
    k6.trans ((W6_of_ne m ρ c main_arg5 (by decide)).trans (entry0_arg5 m ρ c)),
    k7.trans ((W6_of_ne m ρ c main_arg6 (by decide)).trans (entry0_arg6 m ρ c)),
    k8.trans ((W6_of_ne m ρ c main_arg7 (by decide)).trans (entry0_arg7 m ρ c))⟩

/-- The first aggregation, at the second region's entry. -/
theorem entry1_aggregate (c : Dev nD) :
    W7 m ρ c (Proc.devRef .tc main_v48)
      = Cert.Gcn.aggregate (F := Ideal) (Cert.Gcn.edgeNorm (F := Ideal) (m ((c : Thread nD τ).loc main_arg1)) (m ((c : Thread nD τ).loc main_arg8))) (Cert.Gcn.lin1 (F := Ideal) (m ((c : Thread nD τ).loc main_arg0)) (m ((c : Thread nD τ).loc main_arg2))) (Cert.Gcn.sources (F := Ideal) (m ((c : Thread nD τ).loc main_arg8))) (Cert.Gcn.targets (F := Ideal) (m ((c : Thread nD τ).loc main_arg8))) := by
  refine (stretch1_aggregate (W6 m ρ c)).trans ?_
  rw [(W6_of_ne m ρ c main_v34 (by decide)).trans (entry0_norm m ρ c), exit0_lin1 m ρ c,
    (W6_of_ne m ρ c main_v5 (by decide)).trans (entry0_sources m ρ c),
    (W6_of_ne m ρ c main_v6 (by decide)).trans (entry0_targets m ρ c)]

/-- The second region leaves the first layer's hidden features. -/
theorem exit1_hidden (c : Dev nD) : W8 m ρ c (Proc.devRef .tc main_v49) = (Cert.Gcn.hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg8))) := by
  refine (W8_arr m ρ c 2).trans ?_
  rw [Cert.KernelIdeal.BiasRelu.region1_array]
  have ea : V7 m ρ c main_v48 = _ := entry1_aggregate m ρ c
  have eb : V7 m ρ c main_arg3 = (m ((c : Thread nD τ).loc main_arg3)) := (entry1_keeps m ρ c).2.2.2.1
  rw [ea, eb]
  funext i
  exact (Cert.Gcn.Apply.biasRelu_apply _ _ i).symm

end Cert.KernelIdeal.Boundary

end
-- ==== Proof.Layer2.lean ====
/-
  The second layer: from the first layer's hidden features to the second's.

  The third region writes  h · W2  block by block (the specification's `lin2` of the first layer's output), the stretch after
  it aggregates that array along the same edges with the same weights, and the fourth region adds the second bias and clamps
  at 0: at its exit its array is the specification's `hidden2`. The edge arrays and the remaining arguments are read where
  they were left: no region in between writes them.
-/
import proofs.«156117_j69844758167859_1_alg».proof.Proof.Layer1
import Idealize.ShloMosaic.PureOps.Ideal
import Idealize.ShloMosaic.PureOps.Ideal.Laws
import Idealize.ShloMosaic.Lib.StableHlo.Run

set_option maxRecDepth 65536

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Idealize.ShloMosaic.ValueIdx

/-- The third region leaves h · W2. -/
theorem exit2_lin2 (c : Dev nD) :
    W9 m ρ c (Proc.devRef .tc main_v50) = Cert.Gcn.lin2 (F := Ideal) (Cert.Gcn.hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg8))) (m ((c : Thread nD τ).loc main_arg4)) := by
  refine (W9_arr m ρ c 2).trans ?_
  rw [Cert.KernelIdeal.Matmul.region2_array]
  have eh : V8 m ρ c main_v49 = (Cert.Gcn.hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg8))) := exit1_hidden m ρ c
  have ew : V8 m ρ c main_arg4 = (m ((c : Thread nD τ).loc main_arg4)) := (W8_of_ne m ρ c main_arg4 (by decide)).trans (entry1_keeps m ρ c).2.2.2.2.1
  rw [eh, ew]
  funext i
  exact (Cert.Gcn.Apply.lin2_apply _ _ i).symm

/-- The second aggregation stretch, from any contents: its result is `aggregate` of the four arrays it reads. -/
theorem stretch3_aggregate (V : Valuation τ sig (Elt Ideal)) :
    StableHlo.after hostOps3 V (Proc.devRef .tc main_v63)
      = Cert.Gcn.aggregate (F := Ideal) (V (Proc.devRef .tc main_v34)) (V (Proc.devRef .tc main_v50))
          (V (Proc.devRef .tc main_v5)) (V (Proc.devRef .tc main_v6)) := by
  after_results_simp <;> rfl

/-- The second aggregation stretch writes none of the arguments read later. -/
theorem stretch3_keeps (V : Valuation τ sig (Elt Ideal)) :
    StableHlo.after hostOps3 V (Proc.devRef .tc main_arg5) = V (Proc.devRef .tc main_arg5)
    ∧ StableHlo.after hostOps3 V (Proc.devRef .tc main_arg6) = V (Proc.devRef .tc main_arg6)
    ∧ StableHlo.after hostOps3 V (Proc.devRef .tc main_arg7) = V (Proc.devRef .tc main_arg7) := by
  refine ⟨?_, ?_, ?_⟩ <;> (after_results_simp <;> rfl)

/-- A buffer that neither the second nor the third region writes holds at the third region's exit what it held at the second's entry. -/
theorem through_regions12 (c : Dev nD) (b : Ref sig .tc) (h1 : ∀ w, Pipeline.arrRef spec1 w ≠ b) (h2 : ∀ w, Pipeline.arrRef spec2 w ≠ b) :
    W9 m ρ c (Proc.devRef .tc b) = W7 m ρ c (Proc.devRef .tc b) :=
  (W9_of_ne m ρ c b h2).trans (W8_of_ne m ρ c b h1)

/-- The second aggregation, at the fourth region's entry. -/
theorem entry3_aggregate (c : Dev nD) :
    W10 m ρ c (Proc.devRef .tc main_v63)
      = Cert.Gcn.aggregate (F := Ideal) (Cert.Gcn.edgeNorm (F := Ideal) (m ((c : Thread nD τ).loc main_arg1)) (m ((c : Thread nD τ).loc main_arg8))) (Cert.Gcn.lin2 (F := Ideal) (Cert.Gcn.hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg8))) (m ((c : Thread nD τ).loc main_arg4))) (Cert.Gcn.sources (F := Ideal) (m ((c : Thread nD τ).loc main_arg8))) (Cert.Gcn.targets (F := Ideal) (m ((c : Thread nD τ).loc main_arg8))) := by
  refine (stretch3_aggregate (W9 m ρ c)).trans ?_
  rw [(through_regions12 m ρ c main_v34 (by decide) (by decide)).trans (entry1_keeps m ρ c).1, exit2_lin2 m ρ c,
    (through_regions12 m ρ c main_v5 (by decide) (by decide)).trans (entry1_keeps m ρ c).2.1,
    (through_regions12 m ρ c main_v6 (by decide) (by decide)).trans (entry1_keeps m ρ c).2.2.1]

/-- The last three arguments at the fourth region's entry. -/
theorem entry3_keeps (c : Dev nD) :
    W10 m ρ c (Proc.devRef .tc main_arg5) = (m ((c : Thread nD τ).loc main_arg5))
    ∧ W10 m ρ c (Proc.devRef .tc main_arg6) = (m ((c : Thread nD τ).loc main_arg6))
    ∧ W10 m ρ c (Proc.devRef .tc main_arg7) = (m ((c : Thread nD τ).loc main_arg7)) := by
  obtain ⟨k5, k6, k7⟩ := stretch3_keeps (W9 m ρ c)
  exact ⟨k5.trans ((through_regions12 m ρ c main_arg5 (by decide) (by decide)).trans (entry1_keeps m ρ c).2.2.2.2.2.1),
    k6.trans ((through_regions12 m ρ c main_arg6 (by decide) (by decide)).trans (entry1_keeps m ρ c).2.2.2.2.2.2.1),
    k7.trans ((through_regions12 m ρ c main_arg7 (by decide) (by decide)).trans (entry1_keeps m ρ c).2.2.2.2.2.2.2)⟩

/-- The fourth region leaves the second layer's hidden features. -/
theorem exit3_hidden (c : Dev nD) : W11 m ρ c (Proc.devRef .tc main_v64) = (Cert.Gcn.hidden2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8))) := by
  refine (W11_arr m ρ c 2).trans ?_
  rw [Cert.KernelIdeal.BiasRelu.region3_array]
  have ea : V10 m ρ c main_v63 = _ := entry3_aggregate m ρ c
  have eb : V10 m ρ c main_arg5 = (m ((c : Thread nD τ).loc main_arg5)) := (entry3_keeps m ρ c).1
  rw [ea, eb]
  funext i
  exact (Cert.Gcn.Apply.biasRelu_apply _ _ i).symm

end Cert.KernelIdeal.Boundary

end
-- ==== Proof.LibRowMax.lean ====
/-
  Row maxima of a matrix, at the exact (extended-real) reading of the float operations.

  The lane reduction by maximum along the columns of an `a × b` matrix, started from a given word, has at row `p` the fold
  of `max` from that word's value over the row's `b` entries (`rowMax_lane_apply`). Also here: the words a printed
  maximum and a printed sum start from (the word of −∞, the word of +0.0) are the neutral words of those reductions,
  stated as equations of the exact form a reduction's side condition has, so that a term built with them is rewritten
  by lemmas about reductions without unfolding anything (`maxAcc`, `addAcc`).
-/
import Idealize.ShloMosaic.PureOps.Ideal.Laws
import Idealize.ShloMosaic.Lib.ValueIdx

noncomputable section

namespace Cert.RowMax

open Idealize.ShloMosaic Idealize.ShloMosaic.ValueIdx

/-- The word a row maximum starts from (that of −∞) is the neutral word of a maximum at f32. -/
theorem maxAcc : (0xFF800000#32 : BitVec 32) = FKind.maximumf.neutral .f32 (.inl rfl) := rfl

/-- The word a row sum starts from (that of +0.0) is the neutral word of a sum at f32. -/
theorem addAcc : (0x00000000#32 : BitVec 32) = FKind.add.neutral .f32 (.inl rfl) := rfl

/-- The maximum of each row of a matrix as the lane reduction gives it: at row `p` the fold of max, from the value of the
    starting word, over that row's entries. -/
theorem rowMax_lane_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have e : (src ∘ h.lift (ix1 p)) = fun k : Fin b => src (ix2 p k) := funext fun k => congrArg src (funext fun ax => Fin.ext (by
    match ax with
    | ⟨0, _⟩ => rfl
    | ⟨1, _⟩ => rfl))
  rw [e]
  rfl

end Cert.RowMax

end
-- ==== Proof.HeadArray.lean ====
/-
  The last region of the idealized kernel, as a whole array: the row-wise log-softmax of an affine map.

  Region 4 takes a tall array of 64 columns cut into sixteen blocks of 4096 rows, a 64 × 40 matrix and a row of 40
  biases (both seen whole at every grid point). For each row of the block it forms the 40 logits
  `l_j = Σ_k x_k w_kj + b_j`, their maximum `M` (a fold of max from −∞ over the row), and writes
  `l_j − (log (Σ_j exp (l_j − M)) + M)`. At the ideal values a change of float format is the identity, a product
  accumulated into a zero block is the plain sum, a lane reduction is the sum, or the fold of max, over the row, and
  the casts and broadcasts that turn a column of row values into a full block only copy entries. Row `r` of the
  output lies in the block of point `r / 4096`, the sixteen blocks cover all 65536 rows, and therefore the output
  array after the region is that function of the three arrays the region found, entry by entry. Nothing here
  needs the entries to be finite: the formula is only read off, never rearranged.
-/
import proofs.«156117_j69844758167859_1_alg».proof.Proof.Gen.KernelIdeal.Frame
import proofs.«156117_j69844758167859_1_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! # Columns of row values

A vector of one value per row becomes a one-column matrix by a cast, and a one-column matrix becomes a full
matrix by repeating its column: both only copy entries. -/

section Columns
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The sum of each row of a matrix as the lane reduction gives it: at row `p` the sum of that row's entries. -/
theorem rowSum_lane_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun ax => Fin.ext (by
    match ax with
    | ⟨0, _⟩ => rfl
    | ⟨1, _⟩ => rfl))

/-- The word a row maximum starts from is that of −∞. -/
theorem negInf_word : Ideal.ofBits .f32 0xFF800000#32 = (⊥ : EReal) := by simp [Ideal.ofBits, Ideal.ieee]

/-! # One block

## The logits: the block times the matrix, plus the bias row -/

/-- The block of logits as the body computes it: the left block recast to its own shape, both operands through a
    change of float format, multiplied into a zero block; the bias row made a one-row matrix and repeated down
    the 4096 rows; the two added. -/
def logitsBlock (x0 : Vec Ideal S4096x64 .f32) (x1 : Vec Ideal S64x40 .f32) (x2 : Vec Ideal S40 .f32) : FVec Ideal S4096x40 .f32 :=
  addf (matmul dot_S4096x64_S64x40_S4096x40_1_0_0_1_n_n none
      (truncf .bf16 (shapeCast S4096x64 x0 shapeCasts_S4096x64_S4096x64) bitsLt_bf16_f32) (truncf .bf16 x1 bitsLt_bf16_f32)
      (constant (F := Ideal) S4096x40 .f32 0x00000000#32))
    (broadcastTo S4096x40 (shapeCast S1x40 x2 shapeCasts_S40_S1x40) broadcasts_S1x40_S4096x40)

/-- The left operand's index at output index `j` and contraction index `s`: its row is the output's row, -/
theorem lhs_row4 (j : S4096x40.Idx) (s : dot_S4096x64_S64x40_S4096x40_1_0_0_1_n_n.contr.Idx) :
    (dot_S4096x64_S64x40_S4096x40_1_0_0_1_n_n.lhsIdx j s 0).val = (j 0).val := by
  unfold DotDims.lhsIdx
  rw [dif_neg (show ¬(0 : Fin S4096x64.rank) ∈ dot_S4096x64_S64x40_S4096x40_1_0_0_1_n_n.lhsBatch by decide),
    dif_pos (show (0 : Fin S4096x64.rank) ∈ dot_S4096x64_S64x40_S4096x40_1_0_0_1_n_n.lhsNonContracting by decide)]
  rfl
/-- and its column is the contraction coordinate. -/
theorem lhs_col4 (j : S4096x40.Idx) (s : dot_S4096x64_S64x40_S4096x40_1_0_0_1_n_n.contr.Idx) :
    (dot_S4096x64_S64x40_S4096x40_1_0_0_1_n_n.lhsIdx j s 1).val = (s ⟨0, by decide⟩).val :=
  dot_S4096x64_S64x40_S4096x40_1_0_0_1_n_n.lhsIdx_val_of_single rfl j s
/-- The right operand's index: its row is the contraction coordinate, -/
theorem rhs_row4 (j : S4096x40.Idx) (s : dot_S4096x64_S64x40_S4096x40_1_0_0_1_n_n.contr.Idx) :
    (dot_S4096x64_S64x40_S4096x40_1_0_0_1_n_n.rhsIdx j s 0).val = (s ⟨0, by decide⟩).val :=
  dot_S4096x64_S64x40_S4096x40_1_0_0_1_n_n.rhsIdx_val_of_single rfl j s
/-- and its column is the output's column. -/
theorem rhs_col4 (j : S4096x40.Idx) (s : dot_S4096x64_S64x40_S4096x40_1_0_0_1_n_n.contr.Idx) :
    (dot_S4096x64_S64x40_S4096x40_1_0_0_1_n_n.rhsIdx j s 1).val = (j 1).val := by
  unfold DotDims.rhsIdx
  rw [dif_neg (show ¬(1 : Fin S64x40.rank) ∈ dot_S4096x64_S64x40_S4096x40_1_0_0_1_n_n.rhsBatch by decide),
    dif_pos (show (1 : Fin S64x40.rank) ∈ dot_S4096x64_S64x40_S4096x40_1_0_0_1_n_n.rhsNonContracting by decide)]
  rfl

/-- The product part at row `p`, column `q`: the sum over the 64 contraction coordinates of the products. -/
theorem block_product4 (x0 : Vec Ideal S4096x64 .f32) (x1 : Vec Ideal S64x40 .f32) (p : Fin 4096) (q : Fin 40) :
    matmul dot_S4096x64_S64x40_S4096x40_1_0_0_1_n_n none
        (truncf .bf16 (shapeCast S4096x64 x0 shapeCasts_S4096x64_S4096x64) bitsLt_bf16_f32) (truncf .bf16 x1 bitsLt_bf16_f32)
        (constant (F := Ideal) S4096x40 .f32 0x00000000#32) (ix2 p q)
      = ∑ k : Fin 64, x0 (ix2 p k) * x1 (ix2 k q) := by
  refine (Ideal.matmul_constant_zero_apply dot_S4096x64_S64x40_S4096x40_1_0_0_1_n_n none _ _ (ix2 p q)).trans ?_
  rw [← Equiv.sum_comp (contrEquiv1 dot_S4096x64_S64x40_S4096x40_1_0_0_1_n_n 64 rfl rfl).symm]
  refine Finset.sum_congr rfl fun k _ => ?_
  have hk := contrEquiv1_symm_val dot_S4096x64_S64x40_S4096x40_1_0_0_1_n_n 64 rfl rfl k
  have el : dot_S4096x64_S64x40_S4096x40_1_0_0_1_n_n.lhsIdx (ix2 p q)
      ((contrEquiv1 dot_S4096x64_S64x40_S4096x40_1_0_0_1_n_n 64 rfl rfl).symm k) = ix2 p k := funext fun a => Fin.ext (by
    match a with
    | ⟨0, _⟩ => exact lhs_row4 _ _
    | ⟨1, _⟩ => exact (lhs_col4 _ _).trans hk)
  have er : dot_S4096x64_S64x40_S4096x40_1_0_0_1_n_n.rhsIdx (ix2 p q)
      ((contrEquiv1 dot_S4096x64_S64x40_S4096x40_1_0_0_1_n_n 64 rfl rfl).symm k) = ix2 k q := funext fun a => Fin.ext (by
    match a with
    | ⟨0, _⟩ => exact (rhs_row4 _ _).trans hk
    | ⟨1, _⟩ => exact rhs_col4 _ _)
  have hc : shapeCast S4096x64 x0 shapeCasts_S4096x64_S4096x64 = x0 := shapeCast_self x0 _
  show (shapeCast S4096x64 x0 shapeCasts_S4096x64_S4096x64) (dot_S4096x64_S64x40_S4096x40_1_0_0_1_n_n.lhsIdx (ix2 p q) _) * x1 (dot_S4096x64_S64x40_S4096x40_1_0_0_1_n_n.rhsIdx (ix2 p q) _) = _
  rw [hc, el, er]

/-- The logit at row `p`, column `j`: the product there plus the `j`-th bias. -/
theorem logitsBlock_apply (x0 : Vec Ideal S4096x64 .f32) (x1 : Vec Ideal S64x40 .f32) (x2 : Vec Ideal S40 .f32)
    (p : Fin 4096) (j : Fin 40) :
    logitsBlock x0 x1 x2 (ix2 p j) = (∑ k : Fin 64, x0 (ix2 p k) * x1 (ix2 k j)) + x2 (ix1 j) := by
  have hb : broadcastTo S4096x40 (shapeCast S1x40 x2 shapeCasts_S40_S1x40) broadcasts_S1x40_S4096x40 (ix2 p j) = x2 (ix1 j) :=
    (broadcastTo_1b_ab_apply _ _ p j).trans (shapeCast_a_1a_apply x2 _ 0 j)
  unfold logitsBlock
  exact congrArg₂ (· + ·) (block_product4 x0 x1 p j) hb

/-! ## The row-wise log-softmax of a block of logits -/

/-- The maximum of each row, kept as a one-column matrix: the lane reduction by maximum from the word of −∞, cast
    to a column. -/
def rowMaxCol (L : FVec Ideal S4096x40 .f32) : FVec Ideal S4096x1 .f32 :=
  shapeCast S4096x1 (multiReduction .maximumf [1] S4096 L 0xFF800000#32 reduces_S4096x40_S4096 (.inl rfl) rfl) shapeCasts_S4096_S4096x1

/-- The exponentials of the logits shifted by their row's maximum. -/
def expShifted (L : FVec Ideal S4096x40 .f32) : FVec Ideal S4096x40 .f32 :=
  exp (subf L (broadcastTo S4096x40 (rowMaxCol L) broadcasts_S4096x1_S4096x40))

/-- The logarithm of each row's sum of those exponentials, plus the row's maximum, as a one-column matrix. -/
def logSumCol (L : FVec Ideal S4096x40 .f32) : FVec Ideal S4096x1 .f32 :=
  addf (log (shapeCast S4096x1 (multiReduction .add [1] S4096 (expShifted L) 0x00000000#32 reduces_S4096x40_S4096 (.inl rfl) rfl) shapeCasts_S4096_S4096x1))
    (rowMaxCol L)

/-- The logits minus their row's log-sum. -/
def rowLogSoftmax (L : FVec Ideal S4096x40 .f32) : FVec Ideal S4096x40 .f32 :=
  subf L (broadcastTo S4096x40 (logSumCol L) broadcasts_S4096x1_S4096x40)

/-- The body's value is the row-wise log-softmax of its block of logits: the printed operations, grouped. -/
theorem pay_eq (x0 : Vec Ideal S4096x64 .f32) (x1 : Vec Ideal S64x40 .f32) (x2 : Vec Ideal S40 .f32) :
    k4_pay1 (F := Ideal) x0 x1 x2 = rowLogSoftmax (logitsBlock x0 x1 x2) := rfl

/-- The greatest entry of row `p` of a block: the fold of max from −∞ over the row. -/
abbrev rowTop (L : FVec Ideal S4096x40 .f32) (p : Fin 4096) : EReal :=
  (Finset.univ : Finset (Fin 40)).fold max (⊥ : EReal) (fun j => L (ix2 p j))

theorem rowMaxCol_apply (L : FVec Ideal S4096x40 .f32) (p : Fin 4096) (u : Fin 1) : rowMaxCol L (ix2 p u) = rowTop L p := by
  unfold rowMaxCol
  refine (shapeCast_a_a1_apply _ _ p u).trans ?_
  refine (Cert.RowMax.rowMax_lane_apply L _ _ _ _ p).trans ?_
  rw [negInf_word]

theorem expShifted_apply (L : FVec Ideal S4096x40 .f32) (p : Fin 4096) (j : Fin 40) :
    expShifted L (ix2 p j) = Ideal.exp (L (ix2 p j) - rowTop L p) := by
  have hm : broadcastTo S4096x40 (rowMaxCol L) broadcasts_S4096x1_S4096x40 (ix2 p j) = rowTop L p :=
    (broadcastTo_a1_ab_apply _ _ p j).trans (rowMaxCol_apply L p 0)
  unfold expShifted
  exact congrArg (fun m => Ideal.exp (L (ix2 p j) - m)) hm

theorem logSumCol_apply (L : FVec Ideal S4096x40 .f32) (p : Fin 4096) (u : Fin 1) :
    logSumCol L (ix2 p u) = Ideal.log (∑ j : Fin 40, Ideal.exp (L (ix2 p j) - rowTop L p)) + rowTop L p := by
  have hs : shapeCast S4096x1 (multiReduction .add [1] S4096 (expShifted L) 0x00000000#32 reduces_S4096x40_S4096 (.inl rfl) rfl) shapeCasts_S4096_S4096x1 (ix2 p u)
      = ∑ j : Fin 40, Ideal.exp (L (ix2 p j) - rowTop L p) :=
    ((shapeCast_a_a1_apply _ _ p u).trans (rowSum_lane_apply (expShifted L) _ _ _ _ p)).trans
      (Finset.sum_congr rfl fun j _ => expShifted_apply L p j)
  unfold logSumCol
  exact congrArg₂ (fun s m => Ideal.log s + m) hs (rowMaxCol_apply L p u)

/-- The row-wise log-softmax at row `p`, column `q`: the logit there minus (the logarithm of the row's sum of
    exponentials shifted by the row's maximum, plus that maximum). -/
theorem rowLogSoftmax_apply (L : FVec Ideal S4096x40 .f32) (p : Fin 4096) (q : Fin 40) :
    rowLogSoftmax L (ix2 p q)
      = L (ix2 p q) - (Ideal.log (∑ j : Fin 40, Ideal.exp (L (ix2 p j) - rowTop L p)) + rowTop L p) := by
  have hl : broadcastTo S4096x40 (logSumCol L) broadcasts_S4096x1_S4096x40 (ix2 p q)
      = Ideal.log (∑ j : Fin 40, Ideal.exp (L (ix2 p j) - rowTop L p)) + rowTop L p :=
    (broadcastTo_a1_ab_apply _ _ p q).trans (logSumCol_apply L p 0)
  unfold rowLogSoftmax
  exact congrArg (fun m => L (ix2 p q) - m) hl

/-! # The specification

The 40 logits of a row, and the row-wise log-softmax of them, as functions of the three whole arrays. -/

/-- The logits of row `r`: the row times the matrix, plus the biases. -/
abbrev headRow (h : S65536x64.Idx → Elt Ideal .f32) (w : S64x40.Idx → Elt Ideal .f32) (b : S40.Idx → Elt Ideal .f32)
    (r : Fin 65536) : Fin 40 → EReal :=
  fun j => (∑ k : Fin 64, h (ix2 r k) * w (ix2 k j)) + b (ix1 j)

/-- The output: at row `i 0`, column `i 1`, the logit minus (the logarithm of the sum over the row of the
    exponentials of the logits shifted by the row's maximum, plus that maximum); the maximum is the fold of max
    from −∞ over the row. -/
abbrev head (h : S65536x64.Idx → Elt Ideal .f32) (w : S64x40.Idx → Elt Ideal .f32) (b : S40.Idx → Elt Ideal .f32) :
    S65536x40.Idx → Elt Ideal .f32 :=
  fun i => headRow h w b (i 0) (i 1)
    - (Ideal.log (∑ j : Fin 40, Ideal.exp (headRow h w b (i 0) j
          - (Finset.univ : Finset (Fin 40)).fold max (⊥ : EReal) (headRow h w b (i 0))))
        + (Finset.univ : Finset (Fin 40)).fold max (⊥ : EReal) (headRow h w b (i 0)))

/-- The same formula over any row of 40 values. -/
abbrev logSoftmaxAt (row : Fin 40 → EReal) (q : Fin 40) : EReal :=
  row q - (Ideal.log (∑ j : Fin 40, Ideal.exp (row j - (Finset.univ : Finset (Fin 40)).fold max (⊥ : EReal) row))
    + (Finset.univ : Finset (Fin 40)).fold max (⊥ : EReal) row)

/-- The output at an index is that formula over the index's row of logits. -/
theorem head_apply (h : S65536x64.Idx → Elt Ideal .f32) (w : S64x40.Idx → Elt Ideal .f32) (b : S40.Idx → Elt Ideal .f32)
    (i : S65536x40.Idx) : head h w b i = logSoftmaxAt (headRow h w b (i 0)) (i 1) := rfl

/-! # One block, at an index -/

/-- The body's value at row `p`, column `q` of its block: the formula over the row of logits of the three blocks. -/
theorem block_head4 (x0 : Vec Ideal S4096x64 .f32) (x1 : Vec Ideal S64x40 .f32) (x2 : Vec Ideal S40 .f32)
    (p : Fin 4096) (q : Fin 40) :
    k4_pay1 (F := Ideal) x0 x1 x2 (ix2 p q)
      = logSoftmaxAt (fun j => (∑ k : Fin 64, x0 (ix2 p k) * x1 (ix2 k j)) + x2 (ix1 j)) q := by
  rw [pay_eq]
  refine (rowLogSoftmax_apply (logitsBlock x0 x1 x2) p q).trans ?_
  have hrow : (fun j : Fin 40 => logitsBlock x0 x1 x2 (ix2 p j))
      = fun j : Fin 40 => (∑ k : Fin 64, x0 (ix2 p k) * x1 (ix2 k j)) + x2 (ix1 j) :=
    funext fun j => logitsBlock_apply x0 x1 x2 p j
  exact congrArg (fun row : Fin 40 → EReal => logSoftmaxAt row q) hrow

/-! # From the sixteen blocks to the array -/

/-- The zero offsets of a whole-block access, spelt as a constant function, at rank 2 and at rank 1. -/
theorem zero_offsets : (![0, 0] : Fin 2 → Nat) = fun _ => 0 := funext fun a => by fin_cases a <;> rfl
theorem zero_offset : (![0] : Fin 1 → Nat) = fun _ => 0 := funext fun a => by fin_cases a; rfl

/-- The printed index maps over the sixteen grid points: at point `t` the tall operand and the output are at block
    row `t`, block column 0; the matrix and the bias row are at their one block. -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- One entry of one block, over any three arrays: the formula over the row of logits read through point `t`'s
    blocks — the tall array's row `4096 t + p`, the matrix and the biases through their one block — is the output
    function at the place where entry (`p`, `q`) of the output's block sits: row `4096 t + p`, column `q`. A block's
    coordinate in its array is always block index × block size + the coordinate inside. -/
theorem block_entry4 (A : S65536x64.Idx → Elt Ideal .f32) (B : S64x40.Idx → Elt Ideal .f32) (C : S40.Idx → Elt Ideal .f32)
    (t : Fin cfg4.N) (p : Fin 4096) (q : Fin 40) :
    logSoftmaxAt (fun j => (∑ k : Fin 64, A (((cfg4.win 0).blk t).view.emb (ix2 p k)) * B (((cfg4.win 1).blk t).view.emb (ix2 k j)))
        + C (((cfg4.win 2).blk t).view.emb (ix1 j))) q
      = head A B C (((cfg4.win 3).blk t).view.emb (ix2 p q)) := by
  obtain ⟨e0, e1, e2, e3, e4, e5, e6⟩ := block_indices4 t
  have hrow : (fun j : Fin 40 => (∑ k : Fin 64, A (((cfg4.win 0).blk t).view.emb (ix2 p k)) * B (((cfg4.win 1).blk t).view.emb (ix2 k j)))
        + C (((cfg4.win 2).blk t).view.emb (ix1 j)))
      = headRow A B C ((((cfg4.win 3).blk t).view.emb (ix2 p q)) 0) := funext fun j => by
    have h2 : ((cfg4.win 2).blk t).view.emb (ix1 j) = ix1 j := by
      funext a; apply Fin.ext
      match a with
      | ⟨0, _⟩ => show win4_2.index t (0 : Fin 1) * 40 + 1 * j.val = j.val; omega
    refine congrArg₂ (· + ·) (Finset.sum_congr rfl fun k _ => ?_) (congrArg C h2)
    have h0 : ((cfg4.win 0).blk t).view.emb (ix2 p k) = ix2 ((((cfg4.win 3).blk t).view.emb (ix2 p q)) 0) k := by
      funext a; apply Fin.ext
      match a with
      | ⟨0, _⟩ => show win4_0.index t (0 : Fin 2) * 4096 + 1 * p.val = win4_3.index t (0 : Fin 2) * 4096 + 1 * p.val; omega
      | ⟨1, _⟩ => show win4_0.index t (1 : Fin 2) * 64 + 1 * k.val = k.val; omega
    have h1 : ((cfg4.win 1).blk t).view.emb (ix2 k j) = ix2 k j := by
      funext a; apply Fin.ext
      match a with
      | ⟨0, _⟩ => show win4_1.index t (0 : Fin 2) * 64 + 1 * k.val = k.val; omega
      | ⟨1, _⟩ => show win4_1.index t (1 : Fin 2) * 40 + 1 * j.val = j.val; omega
    exact congrArg₂ (· * ·) (congrArg A h0) (congrArg B h1)
  have hq : q = (((cfg4.win 3).blk t).view.emb (ix2 p q)) 1 :=
    Fin.ext (by show q.val = win4_3.index t (1 : Fin 2) * 40 + 1 * q.val; omega)
  rw [head_apply]
  exact congrArg₂ logSoftmaxAt hrow hq

/-- What point `t` writes back is block `t` of the output function of the arrays as the region finds them: the
    body's one store leaves its value in the whole staging block, its three loads read the whole input blocks, and
    each entry is the formula of `block_head4`, read in the arrays by `block_entry4`. -/
theorem flushed4_eq (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal) (head (V c main_v64) (V c main_arg6) (V c main_arg7)) := by
  show (cfg4.win 3).cut (grid4.coords t) ((dat4 (F := Ideal) V c).after 3 t) = _
  rw [after4_3]
  unfold out4_3
  rw [View.canon_unit_zero zero_offsets]
  simp only [View.ld_unit_zero (S := S4096x64) zero_offsets, View.ld_unit_zero (S := S64x40) zero_offsets,
    View.ld_unit_zero (S := S40) zero_offset]
  refine funext fun (j : S4096x40.Idx) => ?_
  obtain ⟨p, q, rfl⟩ : ∃ (p : Fin 4096) (q : Fin 40), j = ix2 p q := ⟨j 0, j 1, eq_ix2 j⟩
  refine (block_head4 (iblk4 V c 0 t) (iblk4 V c 1 t) (iblk4 V c 2 t) p q).trans ?_
  exact block_entry4 (V c main_v64) (V c main_arg6) (V c main_arg7) t p q

/-- An index of the output array is in point `t`'s block iff each coordinate is in the block's range on its axis. -/
theorem mem_block4 (t : Fin cfg4.N) (i : S65536x40.Idx) :
    i ∈ ((cfg4.win 3).blk t).view.set ↔ ∀ a : Fin 2, win4_3.index t a * S4096x40.size a ≤ (i a).val
      ∧ (i a).val < win4_3.index t a * S4096x40.size a + S4096x40.size a := by
  show i ∈ ((View.whole main_v65).slice (win4_3.rect t)).set ↔ _
  rw [View.set_slice_whole, Rect.mem_set_unit]
  exact Iff.rfl

/-- Row `r` of the output is in the block of point `r / 4096`: the sixteen blocks of 4096 rows cover the 65536 rows. -/
theorem covered4 (i : S65536x40.Idx) :
    ∃ t : Fin cfg4.N, (cfg4.win 3).flush t = true ∧ i ∈ ((cfg4.win 3).blk t).view.set := by
  have hi0 : (i 0).val < 65536 := (i 0).isLt
  have hi1 : (i 1).val < 40 := (i 1).isLt
  have hN : (i 0).val / 4096 < cfg4.N := by show (i 0).val / 4096 < 16; omega
  obtain ⟨-, -, -, -, -, e5, e6⟩ := block_indices4 ⟨(i 0).val / 4096, hN⟩
  have e5' : win4_3.index ⟨(i 0).val / 4096, hN⟩ (0 : Fin 2) = (i 0).val / 4096 := e5
  refine ⟨⟨(i 0).val / 4096, hN⟩, flush4_3 _, ?_⟩
  rw [mem_block4]
  intro a
  match a with
  | ⟨0, _⟩ =>
    show win4_3.index ⟨(i 0).val / 4096, hN⟩ (0 : Fin 2) * 4096 ≤ (i 0).val
      ∧ (i 0).val < win4_3.index ⟨(i 0).val / 4096, hN⟩ (0 : Fin 2) * 4096 + 4096
    omega
  | ⟨1, _⟩ =>
    show win4_3.index ⟨(i 0).val / 4096, hN⟩ (1 : Fin 2) * 40 ≤ (i 1).val
      ∧ (i 1).val < win4_3.index ⟨(i 0).val / 4096, hN⟩ (1 : Fin 2) * 40 + 40
    omega

/-- THE OUTPUT OF REGION 4, whatever the region finds in its buffers: the row-wise log-softmax of the tall array
    times the matrix plus the biases, entry by entry. -/
theorem region4_array (V : (c : Dev nD) → (b : Ref sig .tc) → Buf (Elt Ideal) ((c : Thread nD τ).loc b)) (c : Dev nD) :
    (dat4 (F := Ideal) V c).arrAt 3 cfg4.N = head (V c main_v64) (V c main_arg6) (V c main_arg7) :=
  (dat4 (F := Ideal) V c).arrAt_eq_of_cover 3 (head (V c main_v64) (V c main_arg6) (V c main_arg7))
    (fun t _ => flushed4_eq V c t) covered4

end Cert.KernelIdeal.Head

end
-- ==== Proof.SoftmaxLaw.lean ====
/-
  The log-softmax of a row of real numbers, written two ways.

  For real numbers l_0 … l_n with maximum M and S = Σ_j exp(l_j − M), the two expressions
      l_i − (log S + M)      and      (l_i − M) − log S
  are the same real number. On the extended reals this needs the row to be real: M is then a real number, every
  exp(l_j − M) is a positive real, S is a positive real and log S a real, and the identity is one of real arithmetic. (With an
  infinite entry the two sides can differ, which is why the row's finiteness is carried to this point.) Both readings start
  the maximum from −∞, one of them takes a further maximum with −∞, and one starts the sum from 0; neither changes the value.
-/
import Idealize.ShloMosaic.PureOps.Ideal

noncomputable section

namespace Cert.Gcn.Law

open Idealize.ShloMosaic

/-- A finite sum of real numbers taken in the extended reals is the real sum. -/
theorem sum_coe {ι : Type} (s : Finset ι) (f : ι → ℝ) :
    ∑ j ∈ s, ((f j : ℝ) : EReal) = ((∑ j ∈ s, f j : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The maximum of finitely many reals folded from −∞ is −∞ or a real number. -/
theorem fold_max_coe {ι : Type} (s : Finset ι) (f : ι → ℝ) :
    s.fold max (⊥ : EReal) (fun j => (f j : EReal)) = ⊥
      ∨ ∃ M : ℝ, s.fold max (⊥ : EReal) (fun j => (f j : EReal)) = (M : EReal) := by
  classical
  induction s using Finset.induction_on with
  | empty => exact Or.inl Finset.fold_empty
  | insert a s ha ih =>
    refine Or.inr ?_
    rw [Finset.fold_insert ha]
    rcases ih with h | ⟨M, h⟩
    · rw [h]; exact ⟨f a, max_eq_left bot_le⟩
    · rw [h]; exact ⟨max (f a) M, (EReal.coe_strictMono.monotone.map_max).symm⟩

/-- Over a non-empty row it is a real number. -/
theorem fold_max_real {n : ℕ} (f : Fin (n + 1) → ℝ) :
    ∃ M : ℝ, (Finset.univ : Finset (Fin (n + 1))).fold max (⊥ : EReal) (fun j => (f j : EReal)) = (M : EReal) := by
  classical
  have hu : (Finset.univ : Finset (Fin (n + 1))) = insert 0 (Finset.univ.erase 0) :=
    (Finset.insert_erase (Finset.mem_univ 0)).symm
  rw [hu, Finset.fold_insert (by simp : (0 : Fin (n + 1)) ∉ Finset.univ.erase 0)]
  rcases fold_max_coe (Finset.univ.erase (0 : Fin (n + 1))) f with h | ⟨M, h⟩
  · rw [h]; exact ⟨f 0, max_eq_left bot_le⟩
  · rw [h]; exact ⟨max (f 0) M, (EReal.coe_strictMono.monotone.map_max).symm⟩

/-- The two readings of a real row's log-softmax agree, entry by entry. -/
theorem logSoftmax_row {n : ℕ} (L : Fin (n + 1) → EReal) (hL : ∀ j, ∃ r : ℝ, L j = (r : EReal)) (i : Fin (n + 1)) :
    L i - (Ideal.log (∑ j, Ideal.exp (L j - Finset.univ.fold max (⊥ : EReal) L)) + Finset.univ.fold max (⊥ : EReal) L)
      = (L i - max ⊥ (Finset.univ.fold max (⊥ : EReal) L))
          - Ideal.log (0 + ∑ j, Ideal.exp (L j - max ⊥ (Finset.univ.fold max (⊥ : EReal) L))) := by
  choose l hl using hL
  have e : L = fun j => (l j : EReal) := funext hl
  subst e
  beta_reduce
  obtain ⟨M, hM⟩ := fold_max_real l
  rw [hM, max_eq_right (bot_le : (⊥ : EReal) ≤ (M : EReal)), zero_add]
  have hexp : ∀ j, Ideal.exp ((l j : EReal) - (M : EReal)) = ((Real.exp (l j - M) : ℝ) : EReal) := fun j => by
    rw [← EReal.coe_sub]; rfl
  simp only [hexp]
  rw [sum_coe]
  have hpos : 0 < ∑ j : Fin (n + 1), Real.exp (l j - M) :=
    Finset.sum_pos (fun j _ => Real.exp_pos _) Finset.univ_nonempty
  have hlog : Ideal.log ((∑ j : Fin (n + 1), Real.exp (l j - M) : ℝ) : EReal)
      = ((Real.log (∑ j : Fin (n + 1), Real.exp (l j - M)) : ℝ) : EReal) := by
    rw [Ideal.log_coe, if_neg (not_le.mpr hpos)]
  rw [hlog, ← EReal.coe_add, ← EReal.coe_sub, ← EReal.coe_sub, ← EReal.coe_sub]
  congr 1
  ring

end Cert.Gcn.Law

end
-- ==== Proof.LogitsReal.lean ====
/-
  Real numbers are kept by every operation of a graph convolution.

  At the exact instance a float is an extended real.  This module shows that the operations a
  two-layer graph convolution is made of — broadcasts, concatenations, gathers, accumulating
  scatters, matrix products, sums, products, maxima, selections — send arrays of real numbers to
  arrays of real numbers, and that the reciprocal square root does so wherever its argument is a
  positive real.  The degree normalisation applies the reciprocal square root only to
  "the degree where it is positive, else one", which is always a positive real; so the whole
  network, from real inputs, computes real logits.
-/
import proofs.«156117_j69844758167859_1_alg».proof.Proof.Spec
import proofs.«156117_j69844758167859_1_alg».proof.Pre_finite_inputs
import proofs.«156117_j69844758167859_1_alg».proof.Proof.Gen.Pre_finite_inputs
import Idealize.ShloMosaic.PureOps.Ideal.Laws
import Idealize.ShloMosaic.Lib.ReduceAll
import Idealize.ShloMosaic.Lib.ValueIdx

noncomputable section

namespace Cert.Gcn.Real

open Idealize.ShloMosaic Cert.ReferenceIdeal Cert.ReferenceIdeal.Gen

/-! ## Real entries -/

/-- An extended real that is a real number (neither infinity). -/
abbrev IsReal (x : EReal) : Prop := ∃ r : ℝ, x = (r : EReal)

/-- An array of extended reals all of whose entries are real numbers. -/
def AllReal {ι : Type} (v : ι → EReal) : Prop := ∀ i, ∃ r : ℝ, v i = (r : EReal)

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is real. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A selection between two reals is real, whatever the condition. -/
theorem isReal_select (c : BitVec 1) {a b : EReal} (ha : IsReal a) (hb : IsReal b) :
    IsReal (Scalar.select c a b) := by
  unfold Scalar.select
  split
  · exact ha
  · exact hb

/-- The reciprocal square root of a positive real is the real \`1 / √r\`. -/
theorem isReal_rsqrt_of_pos {r : ℝ} (hr : 0 < r) : IsReal (Ideal.rsqrt (r : EReal)) := by
  rw [Ideal.rsqrt_coe, if_neg (not_lt.mpr hr.le), if_neg hr.ne']
  exact ⟨_, rfl⟩

/-- "\`d\` where \`d > 0\`, else \`1\`" is a positive real when \`d\` is real. -/
theorem pos_of_select_gt {d : EReal} (hd : IsReal d) :
    ∃ r : ℝ, 0 < r ∧ Scalar.select (Ideal.cmp .ogt d 0) d 1 = (r : EReal) := by
  obtain ⟨a, rfl⟩ := hd
  by_cases h : 0 < a
  · refine ⟨a, h, ?_⟩
    have hc : Ideal.cmp .ogt (a : EReal) 0 = 1 := by simp [Ideal.cmp, h]
    rw [Scalar.select, if_pos hc]
  · refine ⟨1, one_pos, ?_⟩
    have hc : ¬ Ideal.cmp .ogt (a : EReal) 0 = 1 := by simp [Ideal.cmp, h]
    rw [Scalar.select, if_neg hc, EReal.coe_one]

/-- So the reciprocal square root of "\`d\` where \`d > 0\`, else \`1\`" is real. -/
theorem isReal_rsqrt_select_gt {d : EReal} (hd : IsReal d) :
    IsReal (Ideal.rsqrt (Scalar.select (Ideal.cmp .ogt d 0) d 1)) := by
  obtain ⟨r, hr, e⟩ := pos_of_select_gt hd
  rw [e]
  exact isReal_rsqrt_of_pos hr

/-! ## The two float literals of the program -/

/-- The word \`0x3F800000\` is the float one. -/
theorem ofBits_one_f32 : Ideal.ofBits .f32 0x3F800000#32 = 1 :=
  IdealRules.sign_bit.ideal_onePat .f32

theorem allReal_constant_zero (s : Shape) : AllReal (constant (F := Ideal) s .f32 0x00000000#32) :=
  fun _ => ⟨0, by show Ideal.ofBits .f32 0x00000000#32 = _; rw [Ideal.ofBits_zero_f32, EReal.coe_zero]⟩

theorem allReal_constant_one (s : Shape) : AllReal (constant (F := Ideal) s .f32 0x3F800000#32) :=
  fun _ => ⟨1, by show Ideal.ofBits .f32 0x3F800000#32 = _; rw [ofBits_one_f32, EReal.coe_one]⟩

/-! ## One lemma per kind of operation -/

section Ops
variable {φ : FTy}

/-- A broadcast reads its operand at some index. -/
theorem allReal_broadcastInDim {s t : Shape} (dims : Fin s.rank → Fin t.rank) (h : s.BroadcastsInDim t dims)
    (x : s.Idx → EReal) (hx : AllReal x) : AllReal (broadcastInDim t dims h x) :=
  fun _ => hx _

/-- A gather reads its operand at some index, whatever the index array holds. -/
theorem allReal_gather {s si t : Shape} {w : Nat} (d : GatherDims s si t) (x : s.Idx → EReal) (idx : IVec si w)
    (hx : AllReal x) : AllReal (Host.gather d x idx) :=
  fun _ => hx _

/-- Every element of a concatenation is an element of one of the pieces. -/
theorem concatenate_of_forall {α : Type} (P : α → Prop) {t : Shape} (a : Fin t.rank)
    (xs : List ((s : Shape) × (s.Idx → α))) (h : Shape.Concatenates (xs.map (·.1)) t a)
    (hall : ∀ p ∈ xs, ∀ i, P (p.2 i)) (j : t.Idx) : P (concatenate t a xs h j) := by
  unfold concatenate
  exact hall _ (List.getElem_mem _) _

/-- A concatenation of two real arrays is real. -/
theorem allReal_concatenate_pair {t s₁ s₂ : Shape} (a : Fin t.rank) (x₁ : s₁.Idx → EReal) (x₂ : s₂.Idx → EReal)
    (h : Shape.Concatenates (([⟨s₁, x₁⟩, ⟨s₂, x₂⟩] : List ((s : Shape) × (s.Idx → EReal))).map (·.1)) t a)
    (h₁ : AllReal x₁) (h₂ : AllReal x₂) :
    AllReal (concatenate t a [⟨s₁, x₁⟩, ⟨s₂, x₂⟩] h) :=
  fun j => concatenate_of_forall (fun v : EReal => ∃ r : ℝ, v = (r : EReal)) a _ h
    (fun p hp => by
      rcases List.mem_cons.mp hp with rfl | hp
      · exact h₁
      · rcases List.mem_cons.mp hp with rfl | hp
        · exact h₂
        · exact absurd hp (List.not_mem_nil))
    j

/-- An accumulating scatter adds, to each element of the operand, a finite sum of update elements. -/
theorem allReal_scatterAdd {s si su : Shape} {w : Nat} (d : ScatterDims s si su) (x : FVec Ideal s φ) (idx : IVec si w)
    (upd : FVec Ideal su φ) (hx : AllReal x) (hu : AllReal upd) : AllReal (Host.scatterAdd d x idx upd) :=
  fun i => IsReal.add (hx i) (isReal_sum _ _ fun j _ => hu j)

/-- A matrix product's element is a finite sum of products. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => IsReal.mul (hl _) (hr _)

theorem allReal_mulf {s : Shape} (x y : FVec Ideal s φ) (hx : AllReal x) (hy : AllReal y) : AllReal (mulf x y) :=
  fun i => IsReal.mul (hx i) (hy i)

theorem allReal_addf {s : Shape} (x y : FVec Ideal s φ) (hx : AllReal x) (hy : AllReal y) : AllReal (addf x y) :=
  fun i => IsReal.add (hx i) (hy i)

theorem allReal_maximumf {s : Shape} (x y : FVec Ideal s φ) (hx : AllReal x) (hy : AllReal y) :
    AllReal (maximumf x y) :=
  fun i => IsReal.max (hx i) (hy i)

theorem allReal_select {s : Shape} (c : IVec s 1) (a b : s.Idx → EReal) (ha : AllReal a) (hb : AllReal b) :
    AllReal (select c a b) :=
  fun i => isReal_select (c i) (ha i) (hb i)

/-- The reciprocal square root of an array of positive reals. -/
theorem allReal_rsqrt_of_pos {s : Shape} (x : FVec Ideal s φ) (hx : ∀ i, ∃ r : ℝ, 0 < r ∧ x i = (r : EReal)) :
    AllReal (Host.rsqrt x) := by
  intro i
  obtain ⟨r, hr, e⟩ := hx i
  show IsReal (Ideal.rsqrt (x i))
  rw [e]
  exact isReal_rsqrt_of_pos hr

/-- "\`d\` where \`d > z\`, else \`o\`", for arrays \`z\` of zeros and \`o\` of ones, is an array of positive reals. -/
theorem pos_select_gt {s : Shape} (d z o : FVec Ideal s φ) (hd : AllReal d) (hz : ∀ i, z i = 0) (ho : ∀ i, o i = 1) :
    ∀ i, ∃ r : ℝ, 0 < r ∧ select (cmpf .ogt d z) d o i = (r : EReal) := by
  intro i
  show ∃ r : ℝ, 0 < r ∧ Scalar.select (Ideal.cmp .ogt (d i) (z i)) (d i) (o i) = (r : EReal)
  rw [hz i, ho i]
  exact pos_of_select_gt (hd i)

end Ops

/-! ## The stages of the network

Each stage of the convolution is a composition of the operations above; from real arguments it
gives a real array.  The index arrays (sources, targets) are arbitrary: a gather reads the
operand somewhere, a scatter adds finitely many updates, wherever the indices point. -/

section Stages
open Cert.Gcn

theorem zero_scalar_real : AllReal (zeroS (F := Ideal)) := allReal_constant_zero S_

theorem one_scalar_real : AllReal (oneS (F := Ideal)) := allReal_constant_one S_

/-- The edge weights followed by ones. -/
theorem weights_real (x1 : Arr Ideal S1048576 .f32) (h1 : AllReal x1) : AllReal (weights (F := Ideal) x1) := by
  unfold weights
  exact allReal_concatenate_pair 0 x1 _ _ h1 (allReal_broadcastInDim _ _ _ one_scalar_real)

/-- The weighted in-degree: zero plus a finite sum of weights. -/
theorem degree_real (x1 : Arr Ideal S1048576 .f32) (x8 : Arr Ideal S2x1048576 .i32) (h1 : AllReal x1) :
    AllReal (degree (F := Ideal) x1 x8) := by
  unfold degree
  exact allReal_scatterAdd _ _ _ _ (allReal_broadcastInDim _ _ _ zero_scalar_real) (weights_real x1 h1)

/-- The reciprocal square root is only ever taken of "the degree where positive, else one", a positive real. -/
theorem invSqrtDegree_real (x1 : Arr Ideal S1048576 .f32) (x8 : Arr Ideal S2x1048576 .i32) (h1 : AllReal x1) :
    AllReal (invSqrtDegree (F := Ideal) x1 x8) := by
  unfold invSqrtDegree
  refine allReal_select _ _ _ (allReal_rsqrt_of_pos _ ?_) (allReal_broadcastInDim _ _ _ zero_scalar_real)
  unfold positive
  exact pos_select_gt _ _ _ (degree_real x1 x8 h1)
    (fun _ => Ideal.ofBits_zero_f32) (fun _ => ofBits_one_f32)

/-- dis[source] · w · dis[target]. -/
theorem edgeNorm_real (x1 : Arr Ideal S1048576 .f32) (x8 : Arr Ideal S2x1048576 .i32) (h1 : AllReal x1) :
    AllReal (edgeNorm (F := Ideal) x1 x8) := by
  unfold edgeNorm
  exact allReal_mulf _ _
    (allReal_mulf _ _ (allReal_gather _ _ _ (invSqrtDegree_real x1 x8 h1)) (weights_real x1 h1))
    (allReal_gather _ _ _ (invSqrtDegree_real x1 x8 h1))

theorem lin1_real (x0 : Arr Ideal S65536x128 .f32) (x2 : Arr Ideal S128x64 .f32) (h0 : AllReal x0) (h2 : AllReal x2) :
    AllReal (lin1 (F := Ideal) x0 x2) := by
  unfold lin1
  exact allReal_dotGeneral _ _ _ _ h0 h2

theorem lin2_real (h : Arr Ideal S65536x64 .f32) (x4 : Arr Ideal S64x64 .f32) (hh : AllReal h) (h4 : AllReal x4) :
    AllReal (lin2 (F := Ideal) h x4) := by
  unfold lin2
  exact allReal_dotGeneral _ _ _ _ hh h4

/-- Message passing with real edge weights over real features, along any edges. -/
theorem aggregate_real (nrm : Arr Ideal S1114112 .f32) (ht : Arr Ideal S65536x64 .f32) (src tgt : Arr Ideal S1114112 .i32)
    (hn : AllReal nrm) (hh : AllReal ht) : AllReal (aggregate (F := Ideal) nrm ht src tgt) := by
  unfold aggregate
  exact allReal_scatterAdd _ _ _ _ (allReal_broadcastInDim _ _ _ zero_scalar_real)
    (allReal_mulf _ _ (allReal_broadcastInDim _ _ _ (allReal_broadcastInDim _ _ _ hn)) (allReal_gather _ _ _ hh))

/-- max(a + b, 0). -/
theorem biasRelu_real (a : Arr Ideal S65536x64 .f32) (b : Arr Ideal S64 .f32) (ha : AllReal a) (hb : AllReal b) :
    AllReal (biasRelu (F := Ideal) a b) := by
  unfold biasRelu
  exact allReal_maximumf _ _
    (allReal_addf _ _ ha (allReal_broadcastInDim _ _ _ (allReal_broadcastInDim _ _ _ hb)))
    (allReal_broadcastInDim _ _ _ zero_scalar_real)

theorem hidden1_real (x0 : Arr Ideal S65536x128 .f32) (x1 : Arr Ideal S1048576 .f32) (x2 : Arr Ideal S128x64 .f32)
    (x3 : Arr Ideal S64 .f32) (x8 : Arr Ideal S2x1048576 .i32)
    (h0 : AllReal x0) (h1 : AllReal x1) (h2 : AllReal x2) (h3 : AllReal x3) :
    AllReal (hidden1 (F := Ideal) x0 x1 x2 x3 x8) := by
  unfold hidden1
  exact biasRelu_real _ _ (aggregate_real _ _ _ _ (edgeNorm_real x1 x8 h1) (lin1_real x0 x2 h0 h2)) h3

theorem hidden2_real (x0 : Arr Ideal S65536x128 .f32) (x1 : Arr Ideal S1048576 .f32) (x2 : Arr Ideal S128x64 .f32)
    (x3 : Arr Ideal S64 .f32) (x4 : Arr Ideal S64x64 .f32) (x5 : Arr Ideal S64 .f32) (x8 : Arr Ideal S2x1048576 .i32)
    (h0 : AllReal x0) (h1 : AllReal x1) (h2 : AllReal x2) (h3 : AllReal x3) (h4 : AllReal x4) (h5 : AllReal x5) :
    AllReal (hidden2 (F := Ideal) x0 x1 x2 x3 x4 x5 x8) := by
  unfold hidden2
  exact biasRelu_real _ _
    (aggregate_real _ _ _ _ (edgeNorm_real x1 x8 h1) (lin2_real _ x4 (hidden1_real x0 x1 x2 x3 x8 h0 h1 h2 h3) h4)) h5

/-- The head h · Wf + bf of real features, weights and bias. -/
theorem head_real (h : Arr Ideal S65536x64 .f32) (x6 : Arr Ideal S64x40 .f32) (x7 : Arr Ideal S40 .f32)
    (hh : AllReal h) (h6 : AllReal x6) (h7 : AllReal x7) : AllReal (logits (F := Ideal) h x6 x7) := by
  unfold logits
  exact allReal_addf _ _ (allReal_dotGeneral _ _ _ _ hh h6)
    (allReal_broadcastInDim _ _ _ (allReal_broadcastInDim _ _ _ h7))

/-- From real inputs the network's logits are real numbers. -/
theorem logits_real (x0 : Arr Ideal S65536x128 .f32) (x1 : Arr Ideal S1048576 .f32) (x2 : Arr Ideal S128x64 .f32)
    (x3 : Arr Ideal S64 .f32) (x4 : Arr Ideal S64x64 .f32) (x5 : Arr Ideal S64 .f32) (x6 : Arr Ideal S64x40 .f32)
    (x7 : Arr Ideal S40 .f32) (x8 : Arr Ideal S2x1048576 .i32)
    (h0 : AllReal x0) (h1 : AllReal x1) (h2 : AllReal x2) (h3 : AllReal x3) (h4 : AllReal x4) (h5 : AllReal x5)
    (h6 : AllReal x6) (h7 : AllReal x7) :
    AllReal (logits (F := Ideal) (hidden2 (F := Ideal) x0 x1 x2 x3 x4 x5 x8) x6 x7) :=
  head_real _ x6 x7 (hidden2_real x0 x1 x2 x3 x4 x5 x8 h0 h1 h2 h3 h4 h5) h6 h7

end Stages

/-! ## From the precondition to real inputs

The precondition is the conjunction, over the eight float inputs, of "every entry has absolute
value below +∞".  On the extended reals the absolute value of either infinity is +∞, so an entry
that passes the test is a real number. -/

section Precondition

/-- The word \`0x7F800000\` is the float +∞. -/
theorem ofBits_inf_f32 : Ideal.ofBits .f32 0x7F800000#32 = ⊤ := by simp [Ideal.ofBits, Ideal.ieee]

/-- An extended real whose absolute value \`max x (-x)\` is below +∞ is a real number. -/
theorem isReal_of_abs_lt_top {x : EReal} (h : max x (-x) < ⊤) : IsReal x := by
  induction x using EReal.rec with
  | bot => simp at h
  | top => simp at h
  | coe r => exact ⟨r, rfl⟩

/-- The rank-zero shape has one index. -/
instance subsingleton_scalar_idx : Subsingleton Cert.Pre_finite_inputs.S_.Idx :=
  ⟨fun _ _ => funext fun d => d.elim0⟩

/-- "All entries of |x| are below +∞", read back: a conjunction over every entry that came out true
    was true at each entry, and each entry is then a real number. -/
theorem allReal_of_all_abs_lt_inf {s t u : Shape} {axes : List (Fin s.rank)} [Subsingleton t.Idx]
    (x inf : FVec Ideal s .f32) (hinf : ∀ i, inf i = ⊤) (init : IVec u 1)
    (hr : s.ReducesTo axes t) (hu : 0 < u.numel) (j : t.Idx)
    (e : Host.reduce IntOp.andi (cmpf .olt (Host.absf x) inf) init hr hu j = 1#1) : AllReal x := by
  intro i
  have hi : Ideal.cmp .olt (max (x i) (-(x i))) (inf i) = 1#1 := Host.reduce_andi_all _ init hr hu j e i
  rw [hinf i] at hi
  refine isReal_of_abs_lt_top ?_
  by_cases hlt : max (x i) (-(x i)) < ⊤
  · exact hlt
  · simp [Ideal.cmp, hlt] at hi

/-- Under the precondition every float input is an array of real numbers. -/
theorem inputs_real (x0 : FVec Ideal Cert.Pre_finite_inputs.S65536x128 .f32) (x1 : FVec Ideal Cert.Pre_finite_inputs.S1048576 .f32)
    (x2 : FVec Ideal Cert.Pre_finite_inputs.S128x64 .f32) (x3 : FVec Ideal Cert.Pre_finite_inputs.S64 .f32)
    (x4 : FVec Ideal Cert.Pre_finite_inputs.S64x64 .f32) (x5 : FVec Ideal Cert.Pre_finite_inputs.S64 .f32)
    (x6 : FVec Ideal Cert.Pre_finite_inputs.S64x40 .f32) (x7 : FVec Ideal Cert.Pre_finite_inputs.S40 .f32)
    (x8 : IVec Cert.Pre_finite_inputs.S2x1048576 32)
    (h : Cert.Pre_finite_inputs.fn (F := Ideal) x0 x1 x2 x3 x4 x5 x6 x7 x8 = fun _ => 1#1) :
    AllReal x0 ∧ AllReal x1 ∧ AllReal x2 ∧ AllReal x3 ∧ AllReal x4 ∧ AllReal x5 ∧ AllReal x6 ∧ AllReal x7 := by
  have h' := congrFun h ValueIdx.ix0
  dsimp only [Cert.Pre_finite_inputs.fn, Cert.Pre_finite_inputs.fn_part1, Cert.Pre_finite_inputs.fn_part2] at h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨allReal_of_all_abs_lt_inf x0 _ (fun _ => ofBits_inf_f32) _ _ _ _ e0,
    allReal_of_all_abs_lt_inf x1 _ (fun _ => ofBits_inf_f32) _ _ _ _ e1,
    allReal_of_all_abs_lt_inf x2 _ (fun _ => ofBits_inf_f32) _ _ _ _ e2,
    allReal_of_all_abs_lt_inf x3 _ (fun _ => ofBits_inf_f32) _ _ _ _ e3,
    allReal_of_all_abs_lt_inf x4 _ (fun _ => ofBits_inf_f32) _ _ _ _ e4,
    allReal_of_all_abs_lt_inf x5 _ (fun _ => ofBits_inf_f32) _ _ _ _ e5,
    allReal_of_all_abs_lt_inf x6 _ (fun _ => ofBits_inf_f32) _ _ _ _ e6,
    allReal_of_all_abs_lt_inf x7 _ (fun _ => ofBits_inf_f32) _ _ _ _ e7⟩

end Precondition

end Cert.Gcn.Real
-- ==== Proof.Head.lean ====
/-
  The head: the fifth region's array is the specification's result.

  The fifth region computes, row by row, the logits  l = h · Wf + bf  of the second layer's features, their maximum M and
  l − (log Σ exp(l − M) + M); the specification's log-softmax is (l − M) − log Σ exp(l − M). Under the precondition every
  logit is a real number (finiteness is carried through every stage from the eight float inputs), and on a real row the two
  expressions are equal. So at the fifth region's exit its array is the specification's `result` of the argument arrays.
-/
import proofs.«156117_j69844758167859_1_alg».proof.Proof.Layer2
import proofs.«156117_j69844758167859_1_alg».proof.Proof.HeadArray
import proofs.«156117_j69844758167859_1_alg».proof.Proof.SoftmaxLaw
import proofs.«156117_j69844758167859_1_alg».proof.Proof.LogitsReal
import Idealize.ShloMosaic.PureOps.Ideal
import Idealize.ShloMosaic.PureOps.Ideal.Laws
import Idealize.ShloMosaic.Lib.StableHlo.Run

set_option maxRecDepth 65536

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Idealize.ShloMosaic.ValueIdx

/-- A row of the kernel's logits is the same row of the specification's. -/
theorem headRow_eq_logits (h : Cert.Gcn.Arr Ideal Cert.ReferenceIdeal.S65536x64 .f32) (w : Cert.Gcn.Arr Ideal Cert.ReferenceIdeal.S64x40 .f32)
    (b : Cert.Gcn.Arr Ideal Cert.ReferenceIdeal.S40 .f32) (r : Fin 65536) :
    Cert.KernelIdeal.Head.headRow h w b r = fun j : Fin 40 => Cert.Gcn.logits (F := Ideal) h w b (ix2 r j) :=
  funext fun j => (Cert.Gcn.Apply.logits_apply h w b (ix2 r j)).symm

/-- On real logits the kernel's head and the specification's log-softmax agree at every index. -/
theorem head_eq_logSoftmax (h : Cert.Gcn.Arr Ideal Cert.ReferenceIdeal.S65536x64 .f32) (w : Cert.Gcn.Arr Ideal Cert.ReferenceIdeal.S64x40 .f32)
    (b : Cert.Gcn.Arr Ideal Cert.ReferenceIdeal.S40 .f32) (hreal : Cert.Gcn.Real.AllReal (Cert.Gcn.logits (F := Ideal) h w b))
    (i : Cert.ReferenceIdeal.S65536x40.Idx) :
    Cert.KernelIdeal.Head.head h w b i = Cert.Gcn.logSoftmax (F := Ideal) (Cert.Gcn.logits (F := Ideal) h w b) i := by
  obtain ⟨p, q, rfl⟩ : ∃ (p : Fin 65536) (q : Fin 40), i = ix2 p q := ⟨i 0, i 1, eq_ix2 i⟩
  rw [Cert.Gcn.Apply.logSoftmax_apply]
  show Cert.KernelIdeal.Head.headRow h w b p q - (Ideal.log (∑ j : Fin 40, Ideal.exp (Cert.KernelIdeal.Head.headRow h w b p j
      - (Finset.univ : Finset (Fin 40)).fold max (⊥ : EReal) (Cert.KernelIdeal.Head.headRow h w b p)))
      + (Finset.univ : Finset (Fin 40)).fold max (⊥ : EReal) (Cert.KernelIdeal.Head.headRow h w b p)) = _
  rw [headRow_eq_logits h w b p]
  exact Cert.Gcn.Law.logSoftmax_row (n := 39) (fun j : Fin 40 => Cert.Gcn.logits (F := Ideal) h w b (ix2 p j))
    (fun j => hreal (ix2 p j)) q

/-- The fifth region leaves the specification's result, when the logits are real. -/
theorem exit4_result (c : Dev nD)
    (hreal : Cert.Gcn.Real.AllReal (Cert.Gcn.logits (F := Ideal) (Cert.Gcn.hidden2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8))) (m ((c : Thread nD τ).loc main_arg6)) (m ((c : Thread nD τ).loc main_arg7)))) :
    W12 m ρ c (Proc.devRef .tc main_v65)
      = Cert.Gcn.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 3).trans ?_
  rw [Cert.KernelIdeal.Head.region4_array]
  have eh : V11 m ρ c main_v64 = (Cert.Gcn.hidden2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8))) := exit3_hidden m ρ c
  have ew : V11 m ρ c main_arg6 = (m ((c : Thread nD τ).loc main_arg6)) := (W11_of_ne m ρ c main_arg6 (by decide)).trans (entry3_keeps m ρ c).2.1
  have eb : V11 m ρ c main_arg7 = (m ((c : Thread nD τ).loc main_arg7)) := (W11_of_ne m ρ c main_arg7 (by decide)).trans (entry3_keeps m ρ c).2.2
  rw [eh, ew, eb]
  funext i
  exact head_eq_logSoftmax _ _ _ hreal i

end Cert.KernelIdeal.Boundary

end
-- ==== Proof.lean ====
/-
  A two-layer graph convolution with a linear head and a row-wise log-softmax, as a pipelined program against its plain
  reference: the two compute the same function of the nine argument arrays on the extended reals, under the precondition
  that the eight float arguments are finite.

  The program is five pipelined regions among stretches of host operations. The host operations are, one for one, those of
  the reference (the edge normalisation, the two gather / scale / scatter-add aggregations), so every boundary between
  segments holds a stage of ONE specification (Proof/Spec.lean): a matrix product written block by block is the whole
  product (a change of float format is the identity on the extended reals), a bias-and-clamp written block by block is the
  whole one, and the head's  l − (log Σ exp(l − M) + M)  equals the reference's  (l − M) − log Σ exp(l − M)  because every
  logit is a real number: finiteness is carried from the inputs through every stage (the one inverse square root is only ever
  taken of a positive real). The reference's run ends at the same specification by unfolding. The three frames are the
  programs' runs with the results dropped; no operation was rewritten for the idealized program, so it is the program's own
  text read on the extended reals.
-/
import proofs.«156117_j69844758167859_1_alg».proof.Defs
import proofs.«156117_j69844758167859_1_alg».proof.Proof.Gen.Kernel
import proofs.«156117_j69844758167859_1_alg».proof.Proof.Gen.Kernel.Skeleton
import proofs.«156117_j69844758167859_1_alg».proof.Proof.Gen.Kernel.Launch
import proofs.«156117_j69844758167859_1_alg».proof.Proof.Gen.Kernel.Points
import proofs.«156117_j69844758167859_1_alg».proof.Proof.Gen.Kernel.Frame
import proofs.«156117_j69844758167859_1_alg».proof.Proof.Gen.KernelIdeal
import proofs.«156117_j69844758167859_1_alg».proof.Proof.Gen.KernelIdeal.Skeleton
import proofs.«156117_j69844758167859_1_alg».proof.Proof.Gen.KernelIdeal.Launch
import proofs.«156117_j69844758167859_1_alg».proof.Proof.Gen.KernelIdeal.Points
import proofs.«156117_j69844758167859_1_alg».proof.Proof.Gen.KernelIdeal.Frame
import proofs.«156117_j69844758167859_1_alg».proof.Proof.Gen.ReferenceIdeal
import proofs.«156117_j69844758167859_1_alg».proof.Proof.Gen.Pre_finite_inputs
import proofs.«156117_j69844758167859_1_alg».proof.Proof.KernelRun
import proofs.«156117_j69844758167859_1_alg».proof.Proof.RefRun
import proofs.«156117_j69844758167859_1_alg».proof.Proof.Head
import Idealize.ShloMosaic.Adequacy
import Idealize.ShloMosaic.Init

noncomputable section

namespace Cert.Proof

open Idealize.ShloMosaic Idealize.ShloMosaic.TcCoe Idealize.SL.Sem

/-- The printed program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunValue.run_result (F := Ideal) m ρ)

/-- No operation was rewritten: nothing to preserve. -/
theorem preserves : Cert.preserves_Kernel_KernelIdeal := trivial

/-- Both idealized programs end at the specification's result of arguments that agree. -/
theorem algebraic : Cert.algebraic_KernelIdeal_ReferenceIdeal := by
  intro m ρ m' ρ' hpre hagree
  have hreal : ∀ c : Dev Cert.KernelIdeal.nD, Cert.Gcn.Real.AllReal (Cert.Gcn.logits (F := Ideal)
      (Cert.Gcn.hidden2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8))) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := fun c => by
    obtain ⟨h0, h1, h2, h3, h4, h5, h6, h7⟩ := Cert.Gcn.Real.inputs_real _ _ _ _ _ _ _ _ _ (hpre c)
    exact Cert.Gcn.Real.logits_real _ _ _ _ _ _ _ _ _ h0 h1 h2 h3 h4 h5 h6 h7
  refine ⟨fun c => Cert.Gcn.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Boundary.exit4_result m ρ c (hreal c)), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RunValue.run_result (F := Ideal) m' ρ')
    obtain ⟨a0, a1, a2, a3, a4, a5, a6, a7, a8⟩ := hagree c
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
